-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000x256 : Shape := ⟨2, ![160000, 256]⟩
abbrev S160000 : Shape := ⟨1, ![160000]⟩
abbrev S320000 : Shape := ⟨1, ![320000]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part8 {F : FTy → Type} [FloatOps F] (main_arg34 : FVec F S256 .f32) (main_arg35 : FVec F S256 .f32) (main_arg36 : FVec F S256 .f32) (main_v133 : IVec S_ 1) (main_v136 : IVec S1024x256 1) : IVec S_ 1 :=
  let main_c_53 : IVec S_ 1 := constantI S_ 1 1#1
  let main_v137 : IVec S_ 1 := (fun x v => Host.reduce IntOp.andi x v reducesTo_S1024x256_S_d0_1 h_S_) main_v136 main_c_53
  let main_v138 : IVec S_ 1 := andi main_v133 main_v137
  let main_v139 : FVec F S256 .f32 := Host.absf main_arg34
  let main_cst_54 : FVec F S_ .f32 := constant S_ .f32 0x7F800000#32
  let main_v140 : FVec F S256 .f32 := broadcastInDim S256 ![] bcast_S_S256 main_cst_54
  let main_v141 : IVec S256 1 := cmpf .olt main_v139 main_v140
  let main_c_55 : IVec S_ 1 := constantI S_ 1 1#1
  let main_v142 : IVec S_ 1 := (fun x v => Host.reduce IntOp.andi x v reducesTo_S256_S_d0 h_S_) main_v141 main_c_55
  let main_v143 : IVec S_ 1 := andi main_v138 main_v142
  let main_v144 : FVec F S256 .f32 := Host.absf main_arg35
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256 .f32 := Host.absf main_arg36
  let main_cst_58 : FVec F S_ .f32 := constant S_ .f32 0x7F800000#32
  let main_v150 : FVec F S256 .f32 := broadcastInDim S256 ![] bcast_S_S256 main_cst_58
  let main_v151 : IVec S256 1 := cmpf .olt main_v149 main_v150
  let main_c_59 : IVec S_ 1 := constantI S_ 1 1#1
  let main_v152 : IVec S_ 1 := (fun x v => Host.reduce IntOp.andi x v reducesTo_S256_S_d0 h_S_) main_v151 main_c_59
  let main_v153 : IVec S_ 1 := andi main_v148 main_v152
  main_v153

def fn_part7 {F : FTy → Type} [FloatOps F] (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x1024 .f32 := Host.absf main_arg31
  let main_cst_48 : FVec F S_ .f32 := constant S_ .f32 0x7F800000#32
  let main_v125 : FVec F S256x1024 .f32 := broadcastInDim S256x1024 ![] bcast_S_S256x1024 main_cst_48
  let main_v126 : IVec S256x1024 1 := cmpf .olt main_v124 main_v125
  let main_c_49 : IVec S_ 1 := constantI S_ 1 1#1
  let main_v127 : IVec S_ 1 := (fun x v => Host.reduce IntOp.andi x v reducesTo_S256x1024_S_d0_1 h_S_) main_v126 main_c_49
  let main_v128 : IVec S_ 1 := andi main_v123 main_v127
  let main_v129 : FVec F S1024 .f32 := Host.absf main_arg32
  let main_cst_50 : FVec F S_ .f32 := constant S_ .f32 0x7F800000#32
  let main_v130 : FVec F S1024 .f32 := broadcastInDim S1024 ![] bcast_S_S1024 main_cst_50
  let main_v131 : IVec S1024 1 := cmpf .olt main_v129 main_v130
  let main_c_51 : IVec S_ 1 := constantI S_ 1 1#1
  let main_v132 : IVec S_ 1 := (fun x v => Host.reduce IntOp.andi x v reducesTo_S1024_S_d0 h_S_) main_v131 main_c_51
  let main_v133 : IVec S_ 1 := andi main_v128 main_v132
  let main_v134 : FVec F S1024x256 .f32 := Host.absf main_arg33
  let main_cst_52 : FVec F S_ .f32 := constant S_ .f32 0x7F800000#32
  let main_v135 : FVec F S1024x256 .f32 := broadcastInDim S1024x256 ![] bcast_S_S1024x256 main_cst_52
  let main_v136 : IVec S1024x256 1 := cmpf .olt main_v134 main_v135
  fn_part8 (F := F) main_arg34 main_arg35 main_arg36 main_v133 main_v136

def fn_part6 {F : FTy → Type} [FloatOps F] (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x256 .f32 := Host.absf main_arg27
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg28
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg29
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg30
  fn_part7 (F := F) main_arg31 main_arg32 main_arg33 main_arg34 main_arg35 main_arg36 main_v118 main_v119

def fn_part5 {F : FTy → Type} [FloatOps F] (main_arg24 : FVec F S256 .f32) (main_arg25 : FVec F S256x256 .f32) (main_arg26 : FVec F S256x256 .f32) (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg24
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg25
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg26
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg27 main_arg28 main_arg29 main_arg30 main_arg31 main_arg32 main_arg33 main_arg34 main_arg35 main_arg36 main_v98 main_v101 main_c_39

def fn_part4 {F : FTy → Type} [FloatOps F] (main_arg20 : FVec F S256 .f32) (main_arg21 : FVec F S256 .f32) (main_arg22 : FVec F S256 .f32) (main_arg23 : FVec F S256x256 .f32) (main_arg24 : FVec F S256 .f32) (main_arg25 : FVec F S256x256 .f32) (main_arg26 : FVec F S256x256 .f32) (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v63 : IVec S_ 1) (main_v67 : IVec S_ 1) : IVec S_ 1 :=
  let main_v68 : IVec S_ 1 := andi main_v63 main_v67
  let main_v69 : FVec F S256 .f32 := Host.absf main_arg20
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg21
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg22
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg23
  let main_cst_32 : FVec F S_ .f32 := constant S_ .f32 0x7F800000#32
  fn_part5 (F := F) main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg17 : FVec F S256x1024 .f32) (main_arg18 : FVec F S1024 .f32) (main_arg19 : FVec F S1024x256 .f32) (main_arg20 : FVec F S256 .f32) (main_arg21 : FVec F S256 .f32) (main_arg22 : FVec F S256 .f32) (main_arg23 : FVec F S256x256 .f32) (main_arg24 : FVec F S256 .f32) (main_arg25 : FVec F S256x256 .f32) (main_arg26 : FVec F S256x256 .f32) (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1024 .f32 := Host.absf main_arg17
  let main_cst_20 : FVec F S_ .f32 := constant S_ .f32 0x7F800000#32
  let main_v55 : FVec F S256x1024 .f32 := broadcastInDim S256x1024 ![] bcast_S_S256x1024 main_cst_20
  let main_v56 : IVec S256x1024 1 := cmpf .olt main_v54 main_v55
  let main_c_21 : IVec S_ 1 := constantI S_ 1 1#1
  let main_v57 : IVec S_ 1 := (fun x v => Host.reduce IntOp.andi x v reducesTo_S256x1024_S_d0_1 h_S_) main_v56 main_c_21
  let main_v58 : IVec S_ 1 := andi main_v53 main_v57
  let main_v59 : FVec F S1024 .f32 := Host.absf main_arg18
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x256 .f32 := Host.absf main_arg19
  let main_cst_24 : FVec F S_ .f32 := constant S_ .f32 0x7F800000#32
  let main_v65 : FVec F S1024x256 .f32 := broadcastInDim S1024x256 ![] bcast_S_S1024x256 main_cst_24
  let main_v66 : IVec S1024x256 1 := cmpf .olt main_v64 main_v65
  let main_c_25 : IVec S_ 1 := constantI S_ 1 1#1
  let main_v67 : IVec S_ 1 := (fun x v => Host.reduce IntOp.andi x v reducesTo_S1024x256_S_d0_1 h_S_) main_v66 main_c_25
  fn_part4 (F := F) main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg13 : FVec F S256x256 .f32) (main_arg14 : FVec F S256 .f32) (main_arg15 : FVec F S256 .f32) (main_arg16 : FVec F S256 .f32) (main_arg17 : FVec F S256x1024 .f32) (main_arg18 : FVec F S1024 .f32) (main_arg19 : FVec F S1024x256 .f32) (main_arg20 : FVec F S256 .f32) (main_arg21 : FVec F S256 .f32) (main_arg22 : FVec F S256 .f32) (main_arg23 : FVec F S256x256 .f32) (main_arg24 : FVec F S256 .f32) (main_arg25 : FVec F S256x256 .f32) (main_arg26 : FVec F S256x256 .f32) (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v33 : IVec S_ 1) : IVec S_ 1 :=
  let main_v34 : FVec F S256x256 .f32 := Host.absf main_arg13
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg14
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg16
  let main_cst_18 : FVec F S_ .f32 := constant S_ .f32 0x7F800000#32
  let main_v50 : FVec F S256 .f32 := broadcastInDim S256 ![] bcast_S_S256 main_cst_18
  fn_part3 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg10 : FVec F S256 .f32) (main_arg11 : FVec F S256x256 .f32) (main_arg12 : FVec F S256x256 .f32) (main_arg13 : FVec F S256x256 .f32) (main_arg14 : FVec F S256 .f32) (main_arg15 : FVec F S256 .f32) (main_arg16 : FVec F S256 .f32) (main_arg17 : FVec F S256x1024 .f32) (main_arg18 : FVec F S1024 .f32) (main_arg19 : FVec F S1024x256 .f32) (main_arg20 : FVec F S256 .f32) (main_arg21 : FVec F S256 .f32) (main_arg22 : FVec F S256 .f32) (main_arg23 : FVec F S256x256 .f32) (main_arg24 : FVec F S256 .f32) (main_arg25 : FVec F S256x256 .f32) (main_arg26 : FVec F S256x256 .f32) (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg10
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S10000x256 .f32) (main_arg1 : FVec F S160000x256 .f32) (main_arg2 : FVec F S160000x256 .f32) (main_arg3 : IVec S160000 32) (main_arg4 : IVec S160000 32) (main_arg5 : IVec S320000 32) (main_arg6 : IVec S320000 32) (main_arg7 : IVec S160000 32) (main_arg8 : IVec S160000 32) (main_arg9 : FVec F S256x256 .f32) (main_arg10 : FVec F S256 .f32) (main_arg11 : FVec F S256x256 .f32) (main_arg12 : FVec F S256x256 .f32) (main_arg13 : FVec F S256x256 .f32) (main_arg14 : FVec F S256 .f32) (main_arg15 : FVec F S256 .f32) (main_arg16 : FVec F S256 .f32) (main_arg17 : FVec F S256x1024 .f32) (main_arg18 : FVec F S1024 .f32) (main_arg19 : FVec F S1024x256 .f32) (main_arg20 : FVec F S256 .f32) (main_arg21 : FVec F S256 .f32) (main_arg22 : FVec F S256 .f32) (main_arg23 : FVec F S256x256 .f32) (main_arg24 : FVec F S256 .f32) (main_arg25 : FVec F S256x256 .f32) (main_arg26 : FVec F S256x256 .f32) (main_arg27 : FVec F S256x256 .f32) (main_arg28 : FVec F S256 .f32) (main_arg29 : FVec F S256 .f32) (main_arg30 : FVec F S256 .f32) (main_arg31 : FVec F S256x1024 .f32) (main_arg32 : FVec F S1024 .f32) (main_arg33 : FVec F S1024x256 .f32) (main_arg34 : FVec F S256 .f32) (main_arg35 : FVec F S256 .f32) (main_arg36 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x256 .f32 := Host.absf main_arg1
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S160000x256 .f32 := Host.absf main_arg2
  let main_cst_2 : FVec F S_ .f32 := constant S_ .f32 0x7F800000#32
  let main_v10 : FVec F S160000x256 .f32 := broadcastInDim S160000x256 ![] bcast_S_S160000x256 main_cst_2
  let main_v11 : IVec S160000x256 1 := cmpf .olt main_v9 main_v10
  let main_c_3 : IVec S_ 1 := constantI S_ 1 1#1
  let main_v12 : IVec S_ 1 := (fun x v => Host.reduce IntOp.andi x v reducesTo_S160000x256_S_d0_1 h_S_) main_v11 main_c_3
  let main_v13 : IVec S_ 1 := andi main_v8 main_v12
  let main_v14 : FVec F S256x256 .f32 := Host.absf main_arg9
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S10000x256 : Shape := ⟨2, ![10000, 256]⟩
abbrev S160000x256 : Shape := ⟨2, ![160000, 256]⟩
abbrev S160000 : Shape := ⟨1, ![160000]⟩
abbrev S320000 : Shape := ⟨1, ![320000]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S1x256 : Shape := ⟨2, ![1, 256]⟩
abbrev S1000x256 : Shape := ⟨2, ![1000, 256]⟩
abbrev S10000x8x32 : Shape := ⟨3, ![10000, 8, 32]⟩
abbrev S160000x8x32 : Shape := ⟨3, ![160000, 8, 32]⟩
abbrev S_ : Shape := ⟨0, ![]⟩
abbrev S160000x1 : Shape := ⟨2, ![160000, 1]⟩
abbrev S160000x8 : Shape := ⟨2, ![160000, 8]⟩
abbrev S160000x8x1 : Shape := ⟨3, ![160000, 8, 1]⟩
abbrev S10000x8 : Shape := ⟨2, ![10000, 8]⟩
abbrev S10000x8x1 : Shape := ⟨3, ![10000, 8, 1]⟩
abbrev S1x1024 : Shape := ⟨2, ![1, 1024]⟩
abbrev S1000 : Shape := ⟨1, ![1000]⟩
abbrev S1000x1 : Shape := ⟨2, ![1000, 1]⟩
abbrev S1000x1024 : Shape := ⟨2, ![1000, 1024]⟩
abbrev S320000x1 : Shape := ⟨2, ![320000, 1]⟩
abbrev S320000x8x32 : Shape := ⟨3, ![320000, 8, 32]⟩
abbrev S320000x8 : Shape := ⟨2, ![320000, 8]⟩
abbrev S320000x8x1 : Shape := ⟨3, ![320000, 8, 1]⟩

abbrev nBuf : Space → Nat
  | .hbm => 202
  | .vmem => 60
  | .smem => 0
  | _ => 0

abbrev hbmTy0_0 (i : Nat) : BufTy := match i % 128 with
  | 0 => ⟨S10000x256, .f32⟩
  | 1 => ⟨S160000x256, .f32⟩
  | 2 => ⟨S160000x256, .f32⟩
  | 3 => ⟨S160000, .i32⟩
  | 4 => ⟨S160000, .i32⟩
  | 5 => ⟨S320000, .i32⟩
  | 6 => ⟨S320000, .i32⟩
  | 7 => ⟨S160000, .i32⟩
  | 8 => ⟨S160000, .i32⟩
  | 9 => ⟨S256x256, .f32⟩
  | 10 => ⟨S256, .f32⟩
  | 11 => ⟨S256x256, .f32⟩
  | 12 => ⟨S256x256, .f32⟩
  | 13 => ⟨S256x256, .f32⟩
  | 14 => ⟨S256, .f32⟩
  | 15 => ⟨S256, .f32⟩
  | 16 => ⟨S256, .f32⟩
  | 17 => ⟨S256x1024, .f32⟩
  | 18 => ⟨S1024, .f32⟩
  | 19 => ⟨S1024x256, .f32⟩
  | 20 => ⟨S256, .f32⟩
  | 21 => ⟨S256, .f32⟩
  | 22 => ⟨S256, .f32⟩
  | 23 => ⟨S256x256, .f32⟩
  | 24 => ⟨S256, .f32⟩
  | 25 => ⟨S256x256, .f32⟩
  | 26 => ⟨S256x256, .f32⟩
  | 27 => ⟨S256x256, .f32⟩
  | 28 => ⟨S256, .f32⟩
  | 29 => ⟨S256, .f32⟩
  | 30 => ⟨S256, .f32⟩
  | 31 => ⟨S256x1024, .f32⟩
  | 32 => ⟨S1024, .f32⟩
  | 33 => ⟨S1024x256, .f32⟩
  | 34 => ⟨S256, .f32⟩
  | 35 => ⟨S256, .f32⟩
  | 36 => ⟨S256, .f32⟩
  | 37 => ⟨S1x256, .f32⟩
  | 38 => ⟨S10000x256, .f32⟩
  | 39 => ⟨S10000x256, .f32⟩
  | 40 => ⟨S10000x256, .f32⟩
  | 41 => ⟨S10000x8x32, .f32⟩
  | 42 => ⟨S10000x8x32, .f32⟩
  | 43 => ⟨S10000x8x32, .f32⟩
  | 44 => ⟨S160000x8x32, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x8x32, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x8x32, .f32⟩
  | 63 => ⟨S160000x8x32, .f32⟩
  | 64 => ⟨S160000x8x32, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x8x32, .f32⟩
  | 74 => ⟨S160000x8x32, .f32⟩
  | 75 => ⟨S_, .f32⟩
  | 76 => ⟨S160000x8, .f32⟩
  | 77 => ⟨S_, .f32⟩
  | 78 => ⟨S160000x8, .f32⟩
  | 79 => ⟨S160000x8, .f32⟩
  | 80 => ⟨S_, .f32⟩
  | 81 => ⟨S_, .f32⟩
  | 82 => ⟨S_, .f32⟩
  | 83 => ⟨S160000x8, .f32⟩
  | 84 => ⟨S160000x8, .f32⟩
  | 85 => ⟨S_, .f32⟩
  | 86 => ⟨S160000x8, .f32⟩
  | 87 => ⟨S160000x8, .f32⟩
  | 88 => ⟨S160000x8, .f32⟩
  | 89 => ⟨S160000x8x1, .f32⟩
  | 90 => ⟨S160000x8x32, .f32⟩
  | 91 => ⟨S160000x8x32, .f32⟩
  | 92 => ⟨S_, .f32⟩
  | 93 => ⟨S10000x8x32, .f32⟩
  | 94 => ⟨S160000x1, .i32⟩
  | 95 => ⟨S10000x8x32, .f32⟩
  | 96 => ⟨S_, .f32⟩
  | 97 => ⟨S10000x8, .f32⟩
  | 98 => ⟨S160000x1, .i32⟩
  | 99 => ⟨S10000x8, .f32⟩
  | 100 => ⟨S10000x8x1, .f32⟩
  | 101 => ⟨S10000x8x32, .f32⟩
  | 102 => ⟨S10000x8x32, .f32⟩
  | 103 => ⟨S10000x256, .f32⟩
  | 104 => ⟨S1x256, .f32⟩
  | 105 => ⟨S1x256, .f32⟩
  | 106 => ⟨S1x256, .f32⟩
  | 107 => ⟨S1x1024, .f32⟩
  | 108 => ⟨S1x256, .f32⟩
  | 109 => ⟨S1x256, .f32⟩
  | 110 => ⟨S1x256, .f32⟩
  | 111 => ⟨S10000x256, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x256, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S10000x256, .f32⟩

abbrev hbmTy0_1 (i : Nat) : BufTy := match i % 128 with
  | 0 => ⟨S160000x1, .i32⟩
  | 1 => ⟨S160000x256, .f32⟩
  | 2 => ⟨S1x256, .f32⟩
  | 3 => ⟨S160000x256, .f32⟩
  | 4 => ⟨S160000x256, .f32⟩
  | 5 => ⟨S160000x256, .f32⟩
  | 6 => ⟨S160000x8x32, .f32⟩
  | 7 => ⟨S160000x8x32, .f32⟩
  | 8 => ⟨S160000x8x32, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x8x32, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x8x32, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x8x32, .f32⟩
  | 36 => ⟨S320000x8x32, .f32⟩
  | 37 => ⟨S_, .f32⟩
  | 38 => ⟨S320000x8, .f32⟩
  | 39 => ⟨S_, .f32⟩
  | 40 => ⟨S320000x8, .f32⟩
  | 41 => ⟨S320000x8, .f32⟩
  | 42 => ⟨S_, .f32⟩
  | 43 => ⟨S_, .f32⟩
  | 44 => ⟨S_, .f32⟩
  | 45 => ⟨S320000x8, .f32⟩
  | 46 => ⟨S320000x8, .f32⟩
  | 47 => ⟨S_, .f32⟩
  | 48 => ⟨S320000x8, .f32⟩
  | 49 => ⟨S320000x8, .f32⟩
  | 50 => ⟨S320000x8, .f32⟩
  | 51 => ⟨S320000x8x1, .f32⟩
  | 52 => ⟨S320000x8x32, .f32⟩
  | 53 => ⟨S320000x8x32, .f32⟩
  | 54 => ⟨S_, .f32⟩
  | 55 => ⟨S160000x8x32, .f32⟩
  | 56 => ⟨S320000x1, .i32⟩
  | 57 => ⟨S160000x8x32, .f32⟩
  | 58 => ⟨S_, .f32⟩
  | 59 => ⟨S160000x8, .f32⟩
  | 60 => ⟨S320000x1, .i32⟩
  | 61 => ⟨S160000x8, .f32⟩
  | 62 => ⟨S160000x8x1, .f32⟩
  | 63 => ⟨S160000x8x32, .f32⟩
  | 64 => ⟨S160000x8x32, .f32⟩
  | 65 => ⟨S160000x256, .f32⟩
  | 66 => ⟨S1x256, .f32⟩
  | 67 => ⟨S1x256, .f32⟩
  | 68 => ⟨S1x256, .f32⟩
  | 69 => ⟨S1x1024, .f32⟩
  | 70 => ⟨S1x256, .f32⟩
  | 71 => ⟨S1x256, .f32⟩
  | 72 => ⟨S1x256, .f32⟩
  | 73 => ⟨S160000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x1024, .f32⟩
  | .local _ .vmem, ⟨21, _⟩ => ⟨S1x1024, .f32⟩
  | .local _ .vmem, ⟨22, _⟩ => ⟨S1024x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S256x256, .f32⟩
  | .local _ .vmem, ⟨34, _⟩ => ⟨S1000x256, .f32⟩
  | .local _ .vmem, ⟨35, _⟩ => ⟨S1000x256, .f32⟩
  | .local _ .vmem, ⟨36, _⟩ => ⟨S1000x256, .f32⟩
  | .local _ .vmem, ⟨37, _⟩ => ⟨S1000x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S1000x256, .f32⟩
  | .local _ .vmem, ⟨42, _⟩ => ⟨S1000x256, .f32⟩
  | .local _ .vmem, ⟨43, _⟩ => ⟨S1000x256, .f32⟩
  | .local _ .vmem, ⟨44, _⟩ => ⟨S1000x256, .f32⟩
  | .local _ .vmem, ⟨45, _⟩ => ⟨S1000x256, .f32⟩
  | .local _ .vmem, ⟨46, _⟩ => ⟨S1000x256, .f32⟩
  | .local _ .vmem, ⟨47, _⟩ => ⟨S1000x256, .f32⟩
  | .local _ .vmem, ⟨48, _⟩ => ⟨S256x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S256x1024, .f32⟩
  | .local _ .vmem, ⟨53, _⟩ => ⟨S1x1024, .f32⟩
  | .local _ .vmem, ⟨54, _⟩ => ⟨S1024x256, .f32⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S1000x256, .f32⟩
  | .local _ .vmem, ⟨59, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1_0 : Ref sig .tc := ⟨.hbm, 38, rfl⟩
abbrev main_v1_1 : Ref sig .tc := ⟨.hbm, 39, rfl⟩
abbrev main_v1_2 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_c : Ref sig .tc := ⟨.hbm, 45, rfl⟩
abbrev main_v6 : Ref sig .tc := ⟨.hbm, 46, rfl⟩
abbrev main_v7 : Ref sig .tc := ⟨.hbm, 47, rfl⟩
abbrev main_c_0 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_c_1 : Ref sig .tc := ⟨.hbm, 54, rfl⟩
abbrev main_v13 : Ref sig .tc := ⟨.hbm, 55, rfl⟩
abbrev main_v14 : Ref sig .tc := ⟨.hbm, 56, rfl⟩
abbrev main_c_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_c_3 : Ref sig .tc := ⟨.hbm, 65, rfl⟩
abbrev main_v22 : Ref sig .tc := ⟨.hbm, 66, rfl⟩
abbrev main_v23 : Ref sig .tc := ⟨.hbm, 67, rfl⟩
abbrev main_c_4 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_v32 : Ref sig .tc := ⟨.hbm, 79, rfl⟩
abbrev main_cst_6 : Ref sig .tc := ⟨.hbm, 80, rfl⟩
abbrev main_cst_7 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_cst_8 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_9 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_c_10 : Ref sig .tc := ⟨.hbm, 112, rfl⟩
abbrev main_v56 : Ref sig .tc := ⟨.hbm, 113, rfl⟩
abbrev main_v57 : Ref sig .tc := ⟨.hbm, 114, rfl⟩
abbrev main_c_11 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_c_12 : Ref sig .tc := ⟨.hbm, 121, rfl⟩
abbrev main_v63 : Ref sig .tc := ⟨.hbm, 122, rfl⟩
abbrev main_v64 : Ref sig .tc := ⟨.hbm, 123, rfl⟩
abbrev main_c_13 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71_0 : Ref sig .tc := ⟨.hbm, 131, rfl⟩
abbrev main_v71_1 : Ref sig .tc := ⟨.hbm, 132, rfl⟩
abbrev main_v71_2 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_c_14 : Ref sig .tc := ⟨.hbm, 137, rfl⟩
abbrev main_v75 : Ref sig .tc := ⟨.hbm, 138, rfl⟩
abbrev main_v76 : Ref sig .tc := ⟨.hbm, 139, rfl⟩
abbrev main_c_15 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_c_16 : Ref sig .tc := ⟨.hbm, 146, rfl⟩
abbrev main_v82 : Ref sig .tc := ⟨.hbm, 147, rfl⟩
abbrev main_v83 : Ref sig .tc := ⟨.hbm, 148, rfl⟩
abbrev main_c_17 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_c_18 : Ref sig .tc := ⟨.hbm, 155, rfl⟩
abbrev main_v89 : Ref sig .tc := ⟨.hbm, 156, rfl⟩
abbrev main_v90 : Ref sig .tc := ⟨.hbm, 157, rfl⟩
abbrev main_c_19 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_cst_20 : Ref sig .tc := ⟨.hbm, 165, rfl⟩
abbrev main_v97 : Ref sig .tc := ⟨.hbm, 166, rfl⟩
abbrev main_cst_21 : Ref sig .tc := ⟨.hbm, 167, rfl⟩
abbrev main_v98 : Ref sig .tc := ⟨.hbm, 168, rfl⟩
abbrev main_v99 : Ref sig .tc := ⟨.hbm, 169, rfl⟩
abbrev main_cst_22 : Ref sig .tc := ⟨.hbm, 170, rfl⟩
abbrev main_cst_23 : Ref sig .tc := ⟨.hbm, 171, rfl⟩
abbrev main_call1_v0 : Ref sig .tc := ⟨.hbm, 172, rfl⟩
abbrev main_call1_v1 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_cst_24 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_cst_25 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg12_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc2_stg9_0 : Ref sig .tc := ⟨.vmem, 42, rfl⟩
abbrev cc2_stg9_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc3_stg12_0 : Ref sig .tc := ⟨.vmem, 58, rfl⟩
abbrev cc3_stg12_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41
abbrev cc2_sem9_0 : DmaSem sig := 42
abbrev cc2_sem9_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem12_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1000x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1000x256 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S10000x256_S10000x8x32 : S10000x256.ShapeCasts S10000x8x32
  shapeCasts_S160000x256_S160000x8x32 : S160000x256.ShapeCasts S160000x8x32
  bcast_S_S160000 : S_.BroadcastsInDim S160000 (![] : Fin 0 → Fin S160000.rank)
  bcast_S160000_S160000x1_0 : S160000.BroadcastsInDim S160000x1 (![0] : Fin 1 → Fin S160000x1.rank)
  reducesTo_S160000x8x32_S160000x8_d2 : S160000x8x32.ReducesTo [2] S160000x8
  h_S_ : 0 < S_.numel
  bcast_S_S160000x8 : S_.BroadcastsInDim S160000x8 (![] : Fin 0 → Fin S160000x8.rank)
  bcast_S160000x8_S160000x8x1_0_1 : S160000x8.BroadcastsInDim S160000x8x1 (![0, 1] : Fin 2 → Fin S160000x8x1.rank)
  bcast_S160000x8x1_S160000x8x32_0_1_2 : S160000x8x1.BroadcastsInDim S160000x8x32 (![0, 1, 2] : Fin 3 → Fin S160000x8x32.rank)
  bcast_S_S10000x8x32 : S_.BroadcastsInDim S10000x8x32 (![] : Fin 0 → Fin S10000x8x32.rank)
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  bcast_S10000x8x1_S10000x8x32_0_1_2 : S10000x8x1.BroadcastsInDim S10000x8x32 (![0, 1, 2] : Fin 3 → Fin S10000x8x32.rank)
  shapeCasts_S10000x8x32_S10000x256 : S10000x8x32.ShapeCasts S10000x256
  shapeCasts_S1024_S1x1024 : S1024.ShapeCasts S1x1024
  shapeCasts_S1000x256_S1000x256 : S1000x256.ShapeCasts S1000x256
  reduces_S1000x256_S1000 : S1000x256.Reduces [1] S1000
  shapeCasts_S1000_S1000x1 : S1000.ShapeCasts S1000x1
  broadcasts_S1000x1_S1000x256 : S1000x1.Broadcasts S1000x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x256_S1024x256_0_0 : ∀ a, (![0, 0] : Fin 2 → Nat) a + S1024x256.size a ≤ S1024x256.size a
  h_S1024x256 : 0 < S1024x256.numel
  bcast_S_S320000 : S_.BroadcastsInDim S320000 (![] : Fin 0 → Fin S320000.rank)
  bcast_S320000_S320000x1_0 : S320000.BroadcastsInDim S320000x1 (![0] : Fin 1 → Fin S320000x1.rank)
  reducesTo_S320000x8x32_S320000x8_d2 : S320000x8x32.ReducesTo [2] S320000x8
  bcast_S_S320000x8 : S_.BroadcastsInDim S320000x8 (![] : Fin 0 → Fin S320000x8.rank)
  bcast_S320000x8_S320000x8x1_0_1 : S320000x8.BroadcastsInDim S320000x8x1 (![0, 1] : Fin 2 → Fin S320000x8x1.rank)
  bcast_S320000x8x1_S320000x8x32_0_1_2 : S320000x8x1.BroadcastsInDim S320000x8x32 (![0, 1, 2] : Fin 3 → Fin S320000x8x32.rank)
  bcast_S_S160000x8x32 : S_.BroadcastsInDim S160000x8x32 (![] : Fin 0 → Fin S160000x8x32.rank)
  shapeCasts_S160000x8x32_S160000x256 : S160000x8x32.ShapeCasts S160000x256
  dot_S1000x256_S256x256_S1000x256_1_0_0_1_n_n_wf : DotDims.WF S1000x256 S256x256 S1000x256 [1] [0] [0] [1] [] []
  gather_S10000x8x32_S160000x1_S160000x8x32_12_0_n_n_0_1_1832_wf : GatherDims.WF S10000x8x32 S160000x1 S160000x8x32 [1, 2] [0] [] [0] [] 1 ![1, 8, 32]
  scatter_S10000x8x32_S160000x1_S160000x8x32_12_0_0_1_wf : ScatterDims.WF S10000x8x32 S160000x1 S160000x8x32 [1, 2] [0] [0] 1
  scatter_S10000x8_S160000x1_S160000x8_1_0_0_1_wf : ScatterDims.WF S10000x8 S160000x1 S160000x8 [1] [0] [0] 1
  dot_S1000x256_S256x1024_S1000x1024_1_0_0_1_n_n_wf : DotDims.WF S1000x256 S256x1024 S1000x1024 [1] [0] [0] [1] [] []
  dot_S1000x1024_S1024x256_S1000x256_1_0_0_1_n_n_wf : DotDims.WF S1000x1024 S1024x256 S1000x256 [1] [0] [0] [1] [] []
  gather_S10000x256_S160000x1_S160000x256_1_0_n_n_0_1_1256_wf : GatherDims.WF S10000x256 S160000x1 S160000x256 [1] [0] [] [0] [] 1 ![1, 256]
  gather_S160000x8x32_S320000x1_S320000x8x32_12_0_n_n_0_1_1832_wf : GatherDims.WF S160000x8x32 S320000x1 S320000x8x32 [1, 2] [0] [] [0] [] 1 ![1, 8, 32]
  scatter_S160000x8x32_S320000x1_S320000x8x32_12_0_0_1_wf : ScatterDims.WF S160000x8x32 S320000x1 S320000x8x32 [1, 2] [0] [0] 1
  scatter_S160000x8_S320000x1_S320000x8_1_0_0_1_wf : ScatterDims.WF S160000x8 S320000x1 S320000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S10000x256.size a
  hwx0_6 : ∀ i : grid0.Coords, EltTy.bits .f32 = 32 ∨ (Rect.block (s := S10000x256) S1000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S10000x256.size a
  hwx0_7 : ∀ i : grid0.Coords, EltTy.bits .f32 = 32 ∨ (Rect.block (s := S10000x256) S1000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S256x1024.size a
  hwx1_6 : ∀ i : grid1.Coords, EltTy.bits .f32 = 32 ∨ (Rect.block (s := S256x1024) S256x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S1024x256.size a
  hwx1_8 : ∀ i : grid1.Coords, EltTy.bits .f32 = 32 ∨ (Rect.block (s := S1024x256) S1024x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1000x256.size a ≤ S10000x256.size a
  hwx1_12 : ∀ i : grid1.Coords, EltTy.bits .f32 = 32 ∨ (Rect.block (s := S10000x256) S1000x256.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S160000x256.size a
  hwx2_0 : ∀ i : grid2.Coords, EltTy.bits .f32 = 32 ∨ (Rect.block (s := S160000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S160000x256.size a
  hwx2_5 : ∀ i : grid2.Coords, EltTy.bits .f32 = 32 ∨ (Rect.block (s := S160000x256) S1000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S160000x256.size a
  hwx2_6 : ∀ i : grid2.Coords, EltTy.bits .f32 = 32 ∨ (Rect.block (s := S160000x256) S1000x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x256.size a ≤ S160000x256.size a
  hwx2_7 : ∀ i : grid2.Coords, EltTy.bits .f32 = 32 ∨ (Rect.block (s := S160000x256) S1000x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x256.size a ≤ S160000x256.size a
  hwx2_8 : ∀ i : grid2.Coords, EltTy.bits .f32 = 32 ∨ (Rect.block (s := S160000x256) S1000x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x256.size a ≤ S160000x256.size a
  hwx2_9 : ∀ i : grid2.Coords, EltTy.bits .f32 = 32 ∨ (Rect.block (s := S160000x256) S1000x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S160000x256.size a
  hwx3_0 : ∀ i : grid3.Coords, EltTy.bits .f32 = 32 ∨ (Rect.block (s := S160000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S160000x256.size a
  hwx3_1 : ∀ i : grid3.Coords, EltTy.bits .f32 = 32 ∨ (Rect.block (s := S160000x256) S1000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x1024.size a ≤ S256x1024.size a
  hwx3_6 : ∀ i : grid3.Coords, EltTy.bits .f32 = 32 ∨ (Rect.block (s := S256x1024) S256x1024.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1024.size a ≤ S1x1024.size a
  hwx3_7 : ∀ i : grid3.Coords, EltTy.bits .f32 = 32 ∨ (Rect.block (s := S1x1024) S1x1024.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024x256.size a ≤ S1024x256.size a
  hwx3_8 : ∀ i : grid3.Coords, EltTy.bits .f32 = 32 ∨ (Rect.block (s := S1024x256) S1024x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x256.size a ≤ S1x256.size a
  hwx3_11 : ∀ i : grid3.Coords, EltTy.bits .f32 = 32 ∨ (Rect.block (s := S1x256) S1x256.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1000x256.size a ≤ S160000x256.size a
  hwx3_12 : ∀ i : grid3.Coords, EltTy.bits .f32 = 32 ∨ (Rect.block (s := S160000x256) S1000x256.size (cc3_transform_12 i) (hinb3_12 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S10000x8x32_S160000x1_S160000x8x32_12_0_n_n_0_1_1832 : GatherDims S10000x8x32 S160000x1 S160000x8x32 where
  offsetDims := [1, 2]
  collapsedSliceDims := [0]
  operandBatchingDims := []
  startIndicesBatchingDims := []
  startIndexMap := [0]
  indexVectorDim := 1
  sliceSizes := ![1, 8, 32]
  wf := gather_S10000x8x32_S160000x1_S160000x8x32_12_0_n_n_0_1_1832_wf
def scatter_S10000x8x32_S160000x1_S160000x8x32_12_0_0_1 : ScatterDims S10000x8x32 S160000x1 S160000x8x32 where
  updateWindowDims := [1, 2]
  insertedWindowDims := [0]
  scatterDimsToOperandDims := [0]
  indexVectorDim := 1
  wf := scatter_S10000x8x32_S160000x1_S160000x8x32_12_0_0_1_wf
def scatter_S10000x8_S160000x1_S160000x8_1_0_0_1 : ScatterDims S10000x8 S160000x1 S160000x8 where
  updateWindowDims := [1]
  insertedWindowDims := [0]
  scatterDimsToOperandDims := [0]
  indexVectorDim := 1
  wf := scatter_S10000x8_S160000x1_S160000x8_1_0_0_1_wf
def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def gather_S160000x8x32_S320000x1_S320000x8x32_12_0_n_n_0_1_1832 : GatherDims S160000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S160000x8x32_S320000x1_S320000x8x32_12_0_n_n_0_1_1832_wf
def scatter_S160000x8x32_S320000x1_S320000x8x32_12_0_0_1 : ScatterDims S160000x8x32 S320000x1 S320000x8x32 where
  updateWindowDims := [1, 2]
  insertedWindowDims := [0]
  scatterDimsToOperandDims := [0]
  indexVectorDim := 1
  wf := scatter_S160000x8x32_S320000x1_S320000x8x32_12_0_0_1_wf
def scatter_S160000x8_S320000x1_S320000x8_1_0_0_1 : ScatterDims S160000x8 S320000x1 S320000x8 where
  updateWindowDims := [1]
  insertedWindowDims := [0]
  scatterDimsToOperandDims := [0]
  indexVectorDim := 1
  wf := scatter_S160000x8_S320000x1_S320000x8_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S1000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S256x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S1024x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v52) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v53) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v55) S1000x256.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_arg1) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg23) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg25) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg26) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1000x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1000x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v71_0) S1000x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v71_1) S1000x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v71_2) S1000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg1) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v114) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg27) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v115) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v116) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg31) S256x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v118) S1x1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg33) S1024x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v121) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v119) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v120) S1x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v122) S1000x256.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S10000x256 : Shape := ⟨2, ![10000, 256]⟩
abbrev S160000x256 : Shape := ⟨2, ![160000, 256]⟩
abbrev S160000 : Shape := ⟨1, ![160000]⟩
abbrev S320000 : Shape := ⟨1, ![320000]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S1x256 : Shape := ⟨2, ![1, 256]⟩
abbrev S10000x8x32 : Shape := ⟨3, ![10000, 8, 32]⟩
abbrev S160000x8x32 : Shape := ⟨3, ![160000, 8, 32]⟩
abbrev S_ : Shape := ⟨0, ![]⟩
abbrev S160000x1 : Shape := ⟨2, ![160000, 1]⟩
abbrev S160000x8 : Shape := ⟨2, ![160000, 8]⟩
abbrev S160000x8x1 : Shape := ⟨3, ![160000, 8, 1]⟩
abbrev S10000x8 : Shape := ⟨2, ![10000, 8]⟩
abbrev S10000x8x1 : Shape := ⟨3, ![10000, 8, 1]⟩
abbrev S10000 : Shape := ⟨1, ![10000]⟩
abbrev S10000x1 : Shape := ⟨2, ![10000, 1]⟩
abbrev S10000x1024 : Shape := ⟨2, ![10000, 1024]⟩
abbrev S1x1024 : Shape := ⟨2, ![1, 1024]⟩
abbrev S320000x1 : Shape := ⟨2, ![320000, 1]⟩
abbrev S320000x8x32 : Shape := ⟨3, ![320000, 8, 32]⟩
abbrev S320000x8 : Shape := ⟨2, ![320000, 8]⟩
abbrev S320000x8x1 : Shape := ⟨3, ![320000, 8, 1]⟩
abbrev S160000x1024 : Shape := ⟨2, ![160000, 1024]⟩

abbrev nBuf : Space → Nat
  | .hbm => 342
  | .vmem => 0
  | .smem => 0
  | _ => 0

abbrev hbmTy0_0 (i : Nat) : BufTy := match i % 128 with
  | 0 => ⟨S10000x256, .f32⟩
  | 1 => ⟨S160000x256, .f32⟩
  | 2 => ⟨S160000x256, .f32⟩
  | 3 => ⟨S160000, .i32⟩
  | 4 => ⟨S160000, .i32⟩
  | 5 => ⟨S320000, .i32⟩
  | 6 => ⟨S320000, .i32⟩
  | 7 => ⟨S160000, .i32⟩
  | 8 => ⟨S160000, .i32⟩
  | 9 => ⟨S256x256, .f32⟩
  | 10 => ⟨S256, .f32⟩
  | 11 => ⟨S256x256, .f32⟩
  | 12 => ⟨S256x256, .f32⟩
  | 13 => ⟨S256x256, .f32⟩
  | 14 => ⟨S256, .f32⟩
  | 15 => ⟨S256, .f32⟩
  | 16 => ⟨S256, .f32⟩
  | 17 => ⟨S256x1024, .f32⟩
  | 18 => ⟨S1024, .f32⟩
  | 19 => ⟨S1024x256, .f32⟩
  | 20 => ⟨S256, .f32⟩
  | 21 => ⟨S256, .f32⟩
  | 22 => ⟨S256, .f32⟩
  | 23 => ⟨S256x256, .f32⟩
  | 24 => ⟨S256, .f32⟩
  | 25 => ⟨S256x256, .f32⟩
  | 26 => ⟨S256x256, .f32⟩
  | 27 => ⟨S256x256, .f32⟩
  | 28 => ⟨S256, .f32⟩
  | 29 => ⟨S256, .f32⟩
  | 30 => ⟨S256, .f32⟩
  | 31 => ⟨S256x1024, .f32⟩
  | 32 => ⟨S1024, .f32⟩
  | 33 => ⟨S1024x256, .f32⟩
  | 34 => ⟨S256, .f32⟩
  | 35 => ⟨S256, .f32⟩
  | 36 => ⟨S256, .f32⟩
  | 37 => ⟨S10000x256, .f32⟩
  | 38 => ⟨S1x256, .f32⟩
  | 39 => ⟨S10000x256, .f32⟩
  | 40 => ⟨S10000x256, .f32⟩
  | 41 => ⟨S10000x8x32, .f32⟩
  | 42 => ⟨S10000x256, .f32⟩
  | 43 => ⟨S10000x8x32, .f32⟩
  | 44 => ⟨S10000x256, .f32⟩
  | 45 => ⟨S10000x8x32, .f32⟩
  | 46 => ⟨S160000x8x32, .f32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000x8x32, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x8x32, .f32⟩
  | 65 => ⟨S160000x8x32, .f32⟩
  | 66 => ⟨S160000x8x32, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000x8x32, .f32⟩
  | 76 => ⟨S160000x8x32, .f32⟩
  | 77 => ⟨S_, .f32⟩
  | 78 => ⟨S160000x8, .f32⟩
  | 79 => ⟨S_, .f32⟩
  | 80 => ⟨S160000x8, .f32⟩
  | 81 => ⟨S160000x8, .f32⟩
  | 82 => ⟨S_, .f32⟩
  | 83 => ⟨S_, .f32⟩
  | 84 => ⟨S_, .f32⟩
  | 85 => ⟨S160000x8, .f32⟩
  | 86 => ⟨S160000x8, .f32⟩
  | 87 => ⟨S_, .f32⟩
  | 88 => ⟨S160000x8, .f32⟩
  | 89 => ⟨S160000x8, .f32⟩
  | 90 => ⟨S160000x8, .f32⟩
  | 91 => ⟨S160000x8x1, .f32⟩
  | 92 => ⟨S160000x8x32, .f32⟩
  | 93 => ⟨S160000x8x32, .f32⟩
  | 94 => ⟨S_, .f32⟩
  | 95 => ⟨S10000x8x32, .f32⟩
  | 96 => ⟨S160000x1, .i32⟩
  | 97 => ⟨S10000x8x32, .f32⟩
  | 98 => ⟨S_, .f32⟩
  | 99 => ⟨S10000x8, .f32⟩
  | 100 => ⟨S160000x1, .i32⟩
  | 101 => ⟨S10000x8, .f32⟩
  | 102 => ⟨S10000x8x1, .f32⟩
  | 103 => ⟨S10000x8x32, .f32⟩
  | 104 => ⟨S10000x8x32, .f32⟩
  | 105 => ⟨S10000x256, .f32⟩
  | 106 => ⟨S10000x256, .f32⟩
  | 107 => ⟨S10000x256, .f32⟩
  | 108 => ⟨S1x256, .f32⟩
  | 109 => ⟨S10000x256, .f32⟩
  | 110 => ⟨S10000x256, .f32⟩
  | 111 => ⟨S_, .f32⟩
  | 112 => ⟨S10000, .f32⟩
  | 113 => ⟨S10000x1, .f32⟩
  | 114 => ⟨S_, .f32⟩
  | 115 => ⟨S10000x1, .f32⟩
  | 116 => ⟨S10000x1, .f32⟩
  | 117 => ⟨S10000x256, .f32⟩
  | 118 => ⟨S10000x256, .f32⟩
  | 119 => ⟨S10000x256, .f32⟩
  | 120 => ⟨S_, .f32⟩
  | 121 => ⟨S10000, .f32⟩
  | 122 => ⟨S10000x1, .f32⟩
  | 123 => ⟨S_, .f32⟩
  | 124 => ⟨S10000x1, .f32⟩
  | 125 => ⟨S10000x1, .f32⟩
  | 126 => ⟨S10000x256, .f32⟩
  | 127 => ⟨S10000x256, .f32⟩
  | _ => ⟨S10000x256, .f32⟩

abbrev hbmTy0_1 (i : Nat) : BufTy := match i % 128 with
  | 0 => ⟨S_, .f32⟩
  | 1 => ⟨S10000x1, .f32⟩
  | 2 => ⟨S10000x1, .f32⟩
  | 3 => ⟨S10000x1, .f32⟩
  | 4 => ⟨S10000x256, .f32⟩
  | 5 => ⟨S10000x256, .f32⟩
  | 6 => ⟨S1x256, .f32⟩
  | 7 => ⟨S10000x256, .f32⟩
  | 8 => ⟨S10000x256, .f32⟩
  | 9 => ⟨S1x256, .f32⟩
  | 10 => ⟨S10000x256, .f32⟩
  | 11 => ⟨S10000x256, .f32⟩
  | 12 => ⟨S10000x1024, .f32⟩
  | 13 => ⟨S1x1024, .f32⟩
  | 14 => ⟨S10000x1024, .f32⟩
  | 15 => ⟨S10000x1024, .f32⟩
  | 16 => ⟨S_, .f32⟩
  | 17 => ⟨S10000x1024, .f32⟩
  | 18 => ⟨S10000x1024, .f32⟩
  | 19 => ⟨S10000x256, .f32⟩
  | 20 => ⟨S10000x256, .f32⟩
  | 21 => ⟨S1x256, .f32⟩
  | 22 => ⟨S10000x256, .f32⟩
  | 23 => ⟨S10000x256, .f32⟩
  | 24 => ⟨S_, .f32⟩
  | 25 => ⟨S10000, .f32⟩
  | 26 => ⟨S10000x1, .f32⟩
  | 27 => ⟨S_, .f32⟩
  | 28 => ⟨S10000x1, .f32⟩
  | 29 => ⟨S10000x1, .f32⟩
  | 30 => ⟨S10000x256, .f32⟩
  | 31 => ⟨S10000x256, .f32⟩
  | 32 => ⟨S10000x256, .f32⟩
  | 33 => ⟨S_, .f32⟩
  | 34 => ⟨S10000, .f32⟩
  | 35 => ⟨S10000x1, .f32⟩
  | 36 => ⟨S_, .f32⟩
  | 37 => ⟨S10000x1, .f32⟩
  | 38 => ⟨S10000x1, .f32⟩
  | 39 => ⟨S10000x256, .f32⟩
  | 40 => ⟨S10000x256, .f32⟩
  | 41 => ⟨S_, .f32⟩
  | 42 => ⟨S10000x1, .f32⟩
  | 43 => ⟨S10000x1, .f32⟩
  | 44 => ⟨S10000x1, .f32⟩
  | 45 => ⟨S10000x256, .f32⟩
  | 46 => ⟨S10000x256, .f32⟩
  | 47 => ⟨S1x256, .f32⟩
  | 48 => ⟨S10000x256, .f32⟩
  | 49 => ⟨S10000x256, .f32⟩
  | 50 => ⟨S1x256, .f32⟩
  | 51 => ⟨S10000x256, .f32⟩
  | 52 => ⟨S10000x256, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x256, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000x256, .f32⟩
  | 71 => ⟨S160000x256, .f32⟩
  | 72 => ⟨S1x256, .f32⟩
  | 73 => ⟨S160000x256, .f32⟩
  | 74 => ⟨S160000x256, .f32⟩
  | 75 => ⟨S160000x256, .f32⟩
  | 76 => ⟨S160000x8x32, .f32⟩
  | 77 => ⟨S160000x256, .f32⟩
  | 78 => ⟨S160000x8x32, .f32⟩
  | 79 => ⟨S160000x256, .f32⟩
  | 80 => ⟨S160000x256, .f32⟩
  | 81 => ⟨S160000x8x32, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x8x32, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x8x32, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x8x32, .f32⟩
  | 109 => ⟨S320000x8x32, .f32⟩
  | 110 => ⟨S_, .f32⟩
  | 111 => ⟨S320000x8, .f32⟩
  | 112 => ⟨S_, .f32⟩
  | 113 => ⟨S320000x8, .f32⟩
  | 114 => ⟨S320000x8, .f32⟩
  | 115 => ⟨S_, .f32⟩
  | 116 => ⟨S_, .f32⟩
  | 117 => ⟨S_, .f32⟩
  | 118 => ⟨S320000x8, .f32⟩
  | 119 => ⟨S320000x8, .f32⟩
  | 120 => ⟨S_, .f32⟩
  | 121 => ⟨S320000x8, .f32⟩
  | 122 => ⟨S320000x8, .f32⟩
  | 123 => ⟨S320000x8, .f32⟩
  | 124 => ⟨S320000x8x1, .f32⟩
  | 125 => ⟨S320000x8x32, .f32⟩
  | 126 => ⟨S320000x8x32, .f32⟩
  | 127 => ⟨S_, .f32⟩
  | _ => ⟨S10000x256, .f32⟩

abbrev hbmTy0_2 (i : Nat) : BufTy := match i % 128 with
  | 0 => ⟨S160000x8x32, .f32⟩
  | 1 => ⟨S320000x1, .i32⟩
  | 2 => ⟨S160000x8x32, .f32⟩
  | 3 => ⟨S_, .f32⟩
  | 4 => ⟨S160000x8, .f32⟩
  | 5 => ⟨S320000x1, .i32⟩
  | 6 => ⟨S160000x8, .f32⟩
  | 7 => ⟨S160000x8x1, .f32⟩
  | 8 => ⟨S160000x8x32, .f32⟩
  | 9 => ⟨S160000x8x32, .f32⟩
  | 10 => ⟨S160000x256, .f32⟩
  | 11 => ⟨S160000x256, .f32⟩
  | 12 => ⟨S160000x256, .f32⟩
  | 13 => ⟨S1x256, .f32⟩
  | 14 => ⟨S160000x256, .f32⟩
  | 15 => ⟨S160000x256, .f32⟩
  | 16 => ⟨S_, .f32⟩
  | 17 => ⟨S160000, .f32⟩
  | 18 => ⟨S160000x1, .f32⟩
  | 19 => ⟨S_, .f32⟩
  | 20 => ⟨S160000x1, .f32⟩
  | 21 => ⟨S160000x1, .f32⟩
  | 22 => ⟨S160000x256, .f32⟩
  | 23 => ⟨S160000x256, .f32⟩
  | 24 => ⟨S160000x256, .f32⟩
  | 25 => ⟨S_, .f32⟩
  | 26 => ⟨S160000, .f32⟩
  | 27 => ⟨S160000x1, .f32⟩
  | 28 => ⟨S_, .f32⟩
  | 29 => ⟨S160000x1, .f32⟩
  | 30 => ⟨S160000x1, .f32⟩
  | 31 => ⟨S160000x256, .f32⟩
  | 32 => ⟨S160000x256, .f32⟩
  | 33 => ⟨S_, .f32⟩
  | 34 => ⟨S160000x1, .f32⟩
  | 35 => ⟨S160000x1, .f32⟩
  | 36 => ⟨S160000x1, .f32⟩
  | 37 => ⟨S160000x256, .f32⟩
  | 38 => ⟨S160000x256, .f32⟩
  | 39 => ⟨S1x256, .f32⟩
  | 40 => ⟨S160000x256, .f32⟩
  | 41 => ⟨S160000x256, .f32⟩
  | 42 => ⟨S1x256, .f32⟩
  | 43 => ⟨S160000x256, .f32⟩
  | 44 => ⟨S160000x256, .f32⟩
  | 45 => ⟨S160000x1024, .f32⟩
  | 46 => ⟨S1x1024, .f32⟩
  | 47 => ⟨S160000x1024, .f32⟩
  | 48 => ⟨S160000x1024, .f32⟩
  | 49 => ⟨S_, .f32⟩
  | 50 => ⟨S160000x1024, .f32⟩
  | 51 => ⟨S160000x1024, .f32⟩
  | 52 => ⟨S160000x256, .f32⟩
  | 53 => ⟨S160000x256, .f32⟩
  | 54 => ⟨S1x256, .f32⟩
  | 55 => ⟨S160000x256, .f32⟩
  | 56 => ⟨S160000x256, .f32⟩
  | 57 => ⟨S_, .f32⟩
  | 58 => ⟨S160000, .f32⟩
  | 59 => ⟨S160000x1, .f32⟩
  | 60 => ⟨S_, .f32⟩
  | 61 => ⟨S160000x1, .f32⟩
  | 62 => ⟨S160000x1, .f32⟩
  | 63 => ⟨S160000x256, .f32⟩
  | 64 => ⟨S160000x256, .f32⟩
  | 65 => ⟨S160000x256, .f32⟩
  | 66 => ⟨S_, .f32⟩
  | 67 => ⟨S160000, .f32⟩
  | 68 => ⟨S160000x1, .f32⟩
  | 69 => ⟨S_, .f32⟩
  | 70 => ⟨S160000x1, .f32⟩
  | 71 => ⟨S160000x1, .f32⟩
  | 72 => ⟨S160000x256, .f32⟩
  | 73 => ⟨S160000x256, .f32⟩
  | 74 => ⟨S_, .f32⟩
  | 75 => ⟨S160000x1, .f32⟩
  | 76 => ⟨S160000x1, .f32⟩
  | 77 => ⟨S160000x1, .f32⟩
  | 78 => ⟨S160000x256, .f32⟩
  | 79 => ⟨S160000x256, .f32⟩
  | 80 => ⟨S1x256, .f32⟩
  | 81 => ⟨S160000x256, .f32⟩
  | 82 => ⟨S160000x256, .f32⟩
  | 83 => ⟨S1x256, .f32⟩
  | 84 => ⟨S160000x256, .f32⟩
  | 85 => ⟨S160000x256, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_c : Ref sig .tc := ⟨.hbm, 47, rfl⟩
abbrev main_v10 : Ref sig .tc := ⟨.hbm, 48, rfl⟩
abbrev main_v11 : Ref sig .tc := ⟨.hbm, 49, rfl⟩
abbrev main_c_0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_c_1 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_3 : Ref sig .tc := ⟨.hbm, 67, rfl⟩
abbrev main_v26 : Ref sig .tc := ⟨.hbm, 68, rfl⟩
abbrev main_v27 : Ref sig .tc := ⟨.hbm, 69, rfl⟩
abbrev main_c_4 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst : Ref sig .tc := ⟨.hbm, 77, rfl⟩
abbrev main_v34 : Ref sig .tc := ⟨.hbm, 78, rfl⟩
abbrev main_cst_5 : Ref sig .tc := ⟨.hbm, 79, rfl⟩
abbrev main_v35 : Ref sig .tc := ⟨.hbm, 80, rfl⟩
abbrev main_v36 : Ref sig .tc := ⟨.hbm, 81, rfl⟩
abbrev main_cst_6 : Ref sig .tc := ⟨.hbm, 82, rfl⟩
abbrev main_cst_7 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_8 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_10 : Ref sig .tc := ⟨.hbm, 111, rfl⟩
abbrev main_v57 : Ref sig .tc := ⟨.hbm, 112, rfl⟩
abbrev main_v58 : Ref sig .tc := ⟨.hbm, 113, rfl⟩
abbrev main_cst_11 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_12 : Ref sig .tc := ⟨.hbm, 120, rfl⟩
abbrev main_v64 : Ref sig .tc := ⟨.hbm, 121, rfl⟩
abbrev main_v65 : Ref sig .tc := ⟨.hbm, 122, rfl⟩
abbrev main_cst_13 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_14 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_call1_cst : Ref sig .tc := ⟨.hbm, 144, rfl⟩
abbrev main_call1_v0 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_cst_15 : Ref sig .tc := ⟨.hbm, 152, rfl⟩
abbrev main_v91 : Ref sig .tc := ⟨.hbm, 153, rfl⟩
abbrev main_v92 : Ref sig .tc := ⟨.hbm, 154, rfl⟩
abbrev main_cst_16 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_17 : Ref sig .tc := ⟨.hbm, 161, rfl⟩
abbrev main_v98 : Ref sig .tc := ⟨.hbm, 162, rfl⟩
abbrev main_v99 : Ref sig .tc := ⟨.hbm, 163, rfl⟩
abbrev main_cst_18 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_19 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_c_20 : Ref sig .tc := ⟨.hbm, 181, rfl⟩
abbrev main_v115 : Ref sig .tc := ⟨.hbm, 182, rfl⟩
abbrev main_v116 : Ref sig .tc := ⟨.hbm, 183, rfl⟩
abbrev main_c_21 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_c_22 : Ref sig .tc := ⟨.hbm, 190, rfl⟩
abbrev main_v122 : Ref sig .tc := ⟨.hbm, 191, rfl⟩
abbrev main_v123 : Ref sig .tc := ⟨.hbm, 192, rfl⟩
abbrev main_c_23 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_c_24 : Ref sig .tc := ⟨.hbm, 210, rfl⟩
abbrev main_v140 : Ref sig .tc := ⟨.hbm, 211, rfl⟩
abbrev main_v141 : Ref sig .tc := ⟨.hbm, 212, rfl⟩
abbrev main_c_25 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_c_26 : Ref sig .tc := ⟨.hbm, 219, rfl⟩
abbrev main_v147 : Ref sig .tc := ⟨.hbm, 220, rfl⟩
abbrev main_v148 : Ref sig .tc := ⟨.hbm, 221, rfl⟩
abbrev main_c_27 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_c_28 : Ref sig .tc := ⟨.hbm, 228, rfl⟩
abbrev main_v154 : Ref sig .tc := ⟨.hbm, 229, rfl⟩
abbrev main_v155 : Ref sig .tc := ⟨.hbm, 230, rfl⟩
abbrev main_c_29 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_cst_30 : Ref sig .tc := ⟨.hbm, 238, rfl⟩
abbrev main_v162 : Ref sig .tc := ⟨.hbm, 239, rfl⟩
abbrev main_cst_31 : Ref sig .tc := ⟨.hbm, 240, rfl⟩
abbrev main_v163 : Ref sig .tc := ⟨.hbm, 241, rfl⟩
abbrev main_v164 : Ref sig .tc := ⟨.hbm, 242, rfl⟩
abbrev main_cst_32 : Ref sig .tc := ⟨.hbm, 243, rfl⟩
abbrev main_cst_33 : Ref sig .tc := ⟨.hbm, 244, rfl⟩
abbrev main_call2_v0 : Ref sig .tc := ⟨.hbm, 245, rfl⟩
abbrev main_call2_v1 : Ref sig .tc := ⟨.hbm, 246, rfl⟩
abbrev main_call2_v2 : Ref sig .tc := ⟨.hbm, 247, rfl⟩
abbrev main_call2_v3 : Ref sig .tc := ⟨.hbm, 248, rfl⟩
abbrev main_call2_v4 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_cst_34 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_35 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_cst_36 : Ref sig .tc := ⟨.hbm, 272, rfl⟩
abbrev main_v185 : Ref sig .tc := ⟨.hbm, 273, rfl⟩
abbrev main_v186 : Ref sig .tc := ⟨.hbm, 274, rfl⟩
abbrev main_cst_37 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_38 : Ref sig .tc := ⟨.hbm, 281, rfl⟩
abbrev main_v192 : Ref sig .tc := ⟨.hbm, 282, rfl⟩
abbrev main_v193 : Ref sig .tc := ⟨.hbm, 283, rfl⟩
abbrev main_cst_39 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_cst_40 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_call3_cst : Ref sig .tc := ⟨.hbm, 305, rfl⟩
abbrev main_call3_v0 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_cst_41 : Ref sig .tc := ⟨.hbm, 313, rfl⟩
abbrev main_v219 : Ref sig .tc := ⟨.hbm, 314, rfl⟩
abbrev main_v220 : Ref sig .tc := ⟨.hbm, 315, rfl⟩
abbrev main_cst_42 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_cst_43 : Ref sig .tc := ⟨.hbm, 322, rfl⟩
abbrev main_v226 : Ref sig .tc := ⟨.hbm, 323, rfl⟩
abbrev main_v227 : Ref sig .tc := ⟨.hbm, 324, rfl⟩
abbrev main_cst_44 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_cst_45 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S10000x256_S10000x8x32 : S10000x256.ShapeCasts S10000x8x32
  shapeCasts_S160000x256_S160000x8x32 : S160000x256.ShapeCasts S160000x8x32
  bcast_S_S160000 : S_.BroadcastsInDim S160000 (![] : Fin 0 → Fin S160000.rank)
  bcast_S160000_S160000x1_0 : S160000.BroadcastsInDim S160000x1 (![0] : Fin 1 → Fin S160000x1.rank)
  reducesTo_S160000x8x32_S160000x8_d2 : S160000x8x32.ReducesTo [2] S160000x8
  h_S_ : 0 < S_.numel
  bcast_S_S160000x8 : S_.BroadcastsInDim S160000x8 (![] : Fin 0 → Fin S160000x8.rank)
  bcast_S160000x8_S160000x8x1_0_1 : S160000x8.BroadcastsInDim S160000x8x1 (![0, 1] : Fin 2 → Fin S160000x8x1.rank)
  bcast_S160000x8x1_S160000x8x32_0_1_2 : S160000x8x1.BroadcastsInDim S160000x8x32 (![0, 1, 2] : Fin 3 → Fin S160000x8x32.rank)
  bcast_S_S10000x8x32 : S_.BroadcastsInDim S10000x8x32 (![] : Fin 0 → Fin S10000x8x32.rank)
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  bcast_S10000x8x1_S10000x8x32_0_1_2 : S10000x8x1.BroadcastsInDim S10000x8x32 (![0, 1, 2] : Fin 3 → Fin S10000x8x32.rank)
  shapeCasts_S10000x8x32_S10000x256 : S10000x8x32.ShapeCasts S10000x256
  reducesTo_S10000x256_S10000_d1 : S10000x256.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  bcast_S1x256_S160000x256_0_1 : S1x256.BroadcastsInDim S160000x256 (![0, 1] : Fin 2 → Fin S160000x256.rank)
  bcast_S_S320000 : S_.BroadcastsInDim S320000 (![] : Fin 0 → Fin S320000.rank)
  bcast_S320000_S320000x1_0 : S320000.BroadcastsInDim S320000x1 (![0] : Fin 1 → Fin S320000x1.rank)
  reducesTo_S320000x8x32_S320000x8_d2 : S320000x8x32.ReducesTo [2] S320000x8
  bcast_S_S320000x8 : S_.BroadcastsInDim S320000x8 (![] : Fin 0 → Fin S320000x8.rank)
  bcast_S320000x8_S320000x8x1_0_1 : S320000x8.BroadcastsInDim S320000x8x1 (![0, 1] : Fin 2 → Fin S320000x8x1.rank)
  bcast_S320000x8x1_S320000x8x32_0_1_2 : S320000x8x1.BroadcastsInDim S320000x8x32 (![0, 1, 2] : Fin 3 → Fin S320000x8x32.rank)
  bcast_S_S160000x8x32 : S_.BroadcastsInDim S160000x8x32 (![] : Fin 0 → Fin S160000x8x32.rank)
  shapeCasts_S160000x8x32_S160000x256 : S160000x8x32.ShapeCasts S160000x256
  reducesTo_S160000x256_S160000_d1 : S160000x256.ReducesTo [1] S160000
  bcast_S_S160000x1 : S_.BroadcastsInDim S160000x1 (![] : Fin 0 → Fin S160000x1.rank)
  bcast_S160000x1_S160000x256_0_1 : S160000x1.BroadcastsInDim S160000x256 (![0, 1] : Fin 2 → Fin S160000x256.rank)
  bcast_S1x1024_S160000x1024_0_1 : S1x1024.BroadcastsInDim S160000x1024 (![0, 1] : Fin 2 → Fin S160000x1024.rank)
  bcast_S_S160000x1024 : S_.BroadcastsInDim S160000x1024 (![] : Fin 0 → Fin S160000x1024.rank)
  dot_S10000x256_S256x256_S10000x256_1_0_0_1_n_n_wf : DotDims.WF S10000x256 S256x256 S10000x256 [1] [0] [0] [1] [] []
  gather_S10000x8x32_S160000x1_S160000x8x32_12_0_n_n_0_1_1832_wf : GatherDims.WF S10000x8x32 S160000x1 S160000x8x32 [1, 2] [0] [] [0] [] 1 ![1, 8, 32]
  scatter_S10000x8x32_S160000x1_S160000x8x32_12_0_0_1_wf : ScatterDims.WF S10000x8x32 S160000x1 S160000x8x32 [1, 2] [0] [0] 1
  scatter_S10000x8_S160000x1_S160000x8_1_0_0_1_wf : ScatterDims.WF S10000x8 S160000x1 S160000x8 [1] [0] [0] 1
  dot_S10000x256_S256x1024_S10000x1024_1_0_0_1_n_n_wf : DotDims.WF S10000x256 S256x1024 S10000x1024 [1] [0] [0] [1] [] []
  dot_S10000x1024_S1024x256_S10000x256_1_0_0_1_n_n_wf : DotDims.WF S10000x1024 S1024x256 S10000x256 [1] [0] [0] [1] [] []
  gather_S10000x256_S160000x1_S160000x256_1_0_n_n_0_1_1256_wf : GatherDims.WF S10000x256 S160000x1 S160000x256 [1] [0] [] [0] [] 1 ![1, 256]
  dot_S160000x256_S256x256_S160000x256_1_0_0_1_n_n_wf : DotDims.WF S160000x256 S256x256 S160000x256 [1] [0] [0] [1] [] []
  gather_S160000x8x32_S320000x1_S320000x8x32_12_0_n_n_0_1_1832_wf : GatherDims.WF S160000x8x32 S320000x1 S320000x8x32 [1, 2] [0] [] [0] [] 1 ![1, 8, 32]
  scatter_S160000x8x32_S320000x1_S320000x8x32_12_0_0_1_wf : ScatterDims.WF S160000x8x32 S320000x1 S320000x8x32 [1, 2] [0] [0] 1
  scatter_S160000x8_S320000x1_S320000x8_1_0_0_1_wf : ScatterDims.WF S160000x8 S320000x1 S320000x8 [1] [0] [0] 1
  dot_S160000x256_S256x1024_S160000x1024_1_0_0_1_n_n_wf : DotDims.WF S160000x256 S256x1024 S160000x1024 [1] [0] [0] [1] [] []
  dot_S160000x1024_S1024x256_S160000x256_1_0_0_1_n_n_wf : DotDims.WF S160000x1024 S1024x256 S160000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x8x32_S160000x1_S160000x8x32_12_0_n_n_0_1_1832 : GatherDims S10000x8x32 S160000x1 S160000x8x32 where
  offsetDims := [1, 2]
  collapsedSliceDims := [0]
  operandBatchingDims := []
  startIndicesBatchingDims := []
  startIndexMap := [0]
  indexVectorDim := 1
  sliceSizes := ![1, 8, 32]
  wf := gather_S10000x8x32_S160000x1_S160000x8x32_12_0_n_n_0_1_1832_wf
def scatter_S10000x8x32_S160000x1_S160000x8x32_12_0_0_1 : ScatterDims S10000x8x32 S160000x1 S160000x8x32 where
  updateWindowDims := [1, 2]
  insertedWindowDims := [0]
  scatterDimsToOperandDims := [0]
  indexVectorDim := 1
  wf := scatter_S10000x8x32_S160000x1_S160000x8x32_12_0_0_1_wf
def scatter_S10000x8_S160000x1_S160000x8_1_0_0_1 : ScatterDims S10000x8 S160000x1 S160000x8 where
  updateWindowDims := [1]
  insertedWindowDims := [0]
  scatterDimsToOperandDims := [0]
  indexVectorDim := 1
  wf := scatter_S10000x8_S160000x1_S160000x8_1_0_0_1_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def gather_S160000x8x32_S320000x1_S320000x8x32_12_0_n_n_0_1_1832 : GatherDims S160000x8x32 S320000x1 S320000x8x32 where
  offsetDims := [1, 2]
  collapsedSliceDims := [0]
  operandBatchingDims := []
  startIndicesBatchingDims := []
  startIndexMap := [0]
  indexVectorDim := 1
  sliceSizes := ![1, 8, 32]
  wf := gather_S160000x8x32_S320000x1_S320000x8x32_12_0_n_n_0_1_1832_wf
def scatter_S160000x8x32_S320000x1_S320000x8x32_12_0_0_1 : ScatterDims S160000x8x32 S320000x1 S320000x8x32 where
  updateWindowDims := [1, 2]
  insertedWindowDims := [0]
  scatterDimsToOperandDims := [0]
  indexVectorDim := 1
  wf := scatter_S160000x8x32_S320000x1_S320000x8x32_12_0_0_1_wf
def scatter_S160000x8_S320000x1_S320000x8_1_0_0_1 : ScatterDims S160000x8 S320000x1 S320000x8 where
  updateWindowDims := [1]
  insertedWindowDims := [0]
  scatterDimsToOperandDims := [0]
  indexVectorDim := 1
  wf := scatter_S160000x8_S320000x1_S320000x8_1_0_0_1_wf
def dot_S160000x256_S256x1024_S160000x1024_1_0_0_1_n_n : DotDims S160000x256 S256x1024 S160000x1024 where
  lhsContracting := [1]
  rhsContracting := [0]
  lhsNonContracting := [0]
  rhsNonContracting := [1]
  lhsBatch := []
  rhsBatch := []
  wf := dot_S160000x256_S256x1024_S160000x1024_1_0_0_1_n_n_wf
def dot_S160000x1024_S1024x256_S160000x256_1_0_0_1_n_n : DotDims S160000x1024 S1024x256 S160000x256 where
  lhsContracting := [1]
  rhsContracting := [0]
  lhsNonContracting := [0]
  rhsNonContracting := [1]
  lhsBatch := []
  rhsBatch := []
  wf := dot_S160000x1024_S1024x256_S160000x256_1_0_0_1_n_n_wf

class Facts : Prop extends Facts₀ where

variable [Facts]
-- ==== Proof.RefRun.lean ====
/-
  The reference program's run, with each result at its last stage.

  The reference is a straight line of 305 host operations. Every weakly fair execution of it terminates, nothing faulting;
  each result buffer then holds the fold of the operations over the launch memory, which read back one operation at a
  time is the composed stage of the arguments; and an argument, which no operation writes, is as launched.
-/
import proofs.«178388_j2224793059900_1_alg».proof.Proof.RunOpsP
import proofs.«178388_j2224793059900_1_alg».proof.Proof.ReadP

noncomputable section

namespace Cert.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The buffers @main's operations write, in order. -/
abbrev ops_W : List (Ref sig .tc) := [main_v0, main_v1, main_v2, main_v3, main_v4, main_v5, main_v6, main_v7, main_v8, main_v9, main_c, main_v10, main_v11, main_c_0, main_v12, main_v13, main_v14, main_v15, main_v16, main_c_1, main_v17, main_v18, main_c_2, main_v19, main_v20, main_v21, main_v22, main_v23, main_v24, main_v25, main_c_3, main_v26, main_v27, main_c_4, main_v28, main_v29, main_v30, main_v31, main_v32, main_v33, main_cst, main_v34, main_cst_5, main_v35, main_v36, main_cst_6, main_cst_7, main_call0_v0, main_call0_v1, main_call0_v2, main_call0_v3, main_call0_v4, main_v37, main_v38, main_v39, main_v40, main_v41, main_cst_8, main_v42, main_v43, main_v44, main_cst_9, main_v45, main_v46, main_v47, main_v48, main_v49, main_v50, main_v51, main_v52, main_v53, main_v54, main_v55, main_v56, main_cst_10, main_v57, main_v58, main_cst_11, main_v59, main_v60, main_v61, main_v62, main_v63, main_cst_12, main_v64, main_v65, main_cst_13, main_v66, main_v67, main_v68, main_v69, main_cst_14, main_v70, main_v71, main_v72, main_v73, main_v74, main_v75, main_v76, main_v77, main_v78, main_v79, main_v80, main_v81, main_v82, main_v83, main_v84, main_call1_cst, main_call1_v0, main_v85, main_v86, main_v87, main_v88, main_v89, main_v90, main_cst_15, main_v91, main_v92, main_cst_16, main_v93, main_v94, main_v95, main_v96, main_v97, main_cst_17, main_v98, main_v99, main_cst_18, main_v100, main_v101, main_v102, main_v103, main_cst_19, main_v104, main_v105, main_v106, main_v107, main_v108, main_v109, main_v110, main_v111, main_v112, main_v113, main_v114, main_c_20, main_v115, main_v116, main_c_21, main_v117, main_v118, main_v119, main_v120, main_v121, main_c_22, main_v122, main_v123, main_c_23, main_v124, main_v125, main_v126, main_v127, main_v128, main_v129, main_v130, main_v131, main_v132, main_v133, main_v134, main_v135, main_v136, main_v137, main_v138, main_v139, main_c_24, main_v140, main_v141, main_c_25, main_v142, main_v143, main_v144, main_v145, main_v146, main_c_26, main_v147, main_v148, main_c_27, main_v149, main_v150, main_v151, main_v152, main_v153, main_c_28, main_v154, main_v155, main_c_29, main_v156, main_v157, main_v158, main_v159, main_v160, main_v161, main_cst_30, main_v162, main_cst_31, main_v163, main_v164, main_cst_32, main_cst_33, main_call2_v0, main_call2_v1, main_call2_v2, main_call2_v3, main_call2_v4, main_v165, main_v166, main_v167, main_v168, main_v169, main_cst_34, main_v170, main_v171, main_v172, main_cst_35, main_v173, main_v174, main_v175, main_v176, main_v177, main_v178, main_v179, main_v180, main_v181, main_v182, main_v183, main_v184, main_cst_36, main_v185, main_v186, main_cst_37, main_v187, main_v188, main_v189, main_v190, main_v191, main_cst_38, main_v192, main_v193, main_cst_39, main_v194, main_v195, main_v196, main_v197, main_cst_40, main_v198, main_v199, main_v200, main_v201, main_v202, main_v203, main_v204, main_v205, main_v206, main_v207, main_v208, main_v209, main_v210, main_v211, main_v212, main_call3_cst, main_call3_v0, main_v213, main_v214, main_v215, main_v216, main_v217, main_v218, main_cst_41, main_v219, main_v220, main_cst_42, main_v221, main_v222, main_v223, main_v224, main_v225, main_cst_43, main_v226, main_v227, main_cst_44, main_v228, main_v229, main_v230, main_v231, main_cst_45, main_v232, main_v233, main_v234, main_v235, main_v236, main_v237, main_v238, main_v239, main_v240, main_v241, main_v242]
set_option maxRecDepth 16384 in
set_option maxHeartbeats 40000000 in
theorem ops_writes : (ops : List (HloOp τ sig (Elt F))).Forall fun op => op.writes ⊆ (ops_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

set_option maxRecDepth 16384 in
set_option maxHeartbeats 40000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = Cert.ReferenceIdeal.Read.val_main_v114 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v242) = Cert.ReferenceIdeal.Read.val_main_v242 (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  (θ_run defs _ _).mono (fun _ h c => ⟨(h c main_v114).trans (by after_results_simp <;> rfl),
      (h c main_v242).trans (by after_results_simp <;> rfl),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide)),
      (h c main_arg15).trans (after_of_writes_sub ops _ ops_writes (by decide)),
      (h c main_arg16).trans (after_of_writes_sub ops _ ops_writes (by decide)),
      (h c main_arg17).trans (after_of_writes_sub ops _ ops_writes (by decide)),
      (h c main_arg18).trans (after_of_writes_sub ops _ ops_writes (by decide)),
      (h c main_arg19).trans (after_of_writes_sub ops _ ops_writes (by decide)),
      (h c main_arg20).trans (after_of_writes_sub ops _ ops_writes (by decide)),
      (h c main_arg21).trans (after_of_writes_sub ops _ ops_writes (by decide)),
      (h c main_arg22).trans (after_of_writes_sub ops _ ops_writes (by decide)),
      (h c main_arg23).trans (after_of_writes_sub ops _ ops_writes (by decide)),
      (h c main_arg24).trans (after_of_writes_sub ops _ ops_writes (by decide)),
      (h c main_arg25).trans (after_of_writes_sub ops _ ops_writes (by decide)),
      (h c main_arg26).trans (after_of_writes_sub ops _ ops_writes (by decide)),
      (h c main_arg27).trans (after_of_writes_sub ops _ ops_writes (by decide)),
      (h c main_arg28).trans (after_of_writes_sub ops _ ops_writes (by decide)),
      (h c main_arg29).trans (after_of_writes_sub ops _ ops_writes (by decide)),
      (h c main_arg30).trans (after_of_writes_sub ops _ ops_writes (by decide)),
      (h c main_arg31).trans (after_of_writes_sub ops _ ops_writes (by decide)),
      (h c main_arg32).trans (after_of_writes_sub ops _ ops_writes (by decide)),
      (h c main_arg33).trans (after_of_writes_sub ops _ ops_writes (by decide)),
      (h c main_arg34).trans (after_of_writes_sub ops _ ops_writes (by decide)),
      (h c main_arg35).trans (after_of_writes_sub ops _ ops_writes (by decide)),
      (h c main_arg36).trans (after_of_writes_sub ops _ ops_writes (by decide))⟩)
    (run_seq scopedRefs_eq scopedSems_eq defs main (fun _ => ops) main_eq (fun _ => ops_sub) m ρ)

end Cert.RefRun

end
-- ==== Proof.RunVals.lean ====
/-
  The kernel program's run with its two results named.

  Every weakly fair execution of @main from a memory with zero counters terminates, nothing faulting, with the argument
  arrays as launched and with each result array at what the last segment boundary holds for it: the launch over the
  program's twelve segments, the last thread state read against the final memory.
-/
import proofs.«178388_j2224793059900_1_alg».proof.Proof.Gen.KernelIdeal.Frame

set_option maxRecDepth 16384

noncomputable section

namespace Cert.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with both results at the last boundary's contents and every argument as launched. -/
theorem run_vals : θ_run defs (onTc (τ := τ) (main (F := F))) ⟨m, fun _ => 0, ρ⟩ (fun r => ∀ c : Dev nD,
      r.2.mem ((c.tc : Thread nD τ).loc main_v55) = W12 m ρ c (Proc.devRef .tc main_v55)
      ∧ r.2.mem ((c.tc : Thread nD τ).loc main_v122) = W12 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v55 (by decide)),
       h c _ (mem_uc main_v122 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c),
       (h c _ (mem_uc main_arg29 (by decide))).trans (W12_main_arg29 m ρ c),
       (h c _ (mem_uc main_arg30 (by decide))).trans (W12_main_arg30 m ρ c),
       (h c _ (mem_uc main_arg31 (by decide))).trans (W12_main_arg31 m ρ c),
       (h c _ (mem_uc main_arg32 (by decide))).trans (W12_main_arg32 m ρ c),
       (h c _ (mem_uc main_arg33 (by decide))).trans (W12_main_arg33 m ρ c),
       (h c _ (mem_uc main_arg34 (by decide))).trans (W12_main_arg34 m ρ c),
       (h c _ (mem_uc main_arg35 (by decide))).trans (W12_main_arg35 m ρ c),
       (h c _ (mem_uc main_arg36 (by decide))).trans (W12_main_arg36 m ρ c)⟩)

end Cert.Fold

end
-- ==== Proof.Keep.lean ====
/-
  What each segment of the kernel program's @main leaves alone.

  A stretch of host operations changes only the buffers its operations write, and a pipelined region changes only its
  output arrays: an input array is read back through its window unchanged, and a buffer that is no array of the region is
  bypassed. So every argument array holds its launch contents at every segment boundary, and a result that one region
  writes is still there after every later segment that does not write it.
-/
import proofs.«178388_j2224793059900_1_alg».proof.Proof.Gen.KernelIdeal.Frame

set_option maxRecDepth 16384

noncomputable section

namespace Cert.Fold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The buffers each host stretch writes -/

/-- The buffers `hostOps0`'s operations write, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1`'s operations write, in order. -/
abbrev hostOps1_W : List (Ref sig .tc) := [main_v2, main_v3, main_v4, main_v5, main_c, main_v6, main_v7, main_c_0, main_v8, main_v9, main_v10, main_v11, main_v12, main_c_1, main_v13, main_v14, main_c_2, main_v15, main_v16, main_v17, main_v18, main_v19, main_v20, main_v21, main_c_3, main_v22, main_v23, main_c_4, main_v24, main_v25, main_v26, main_v27, main_v28, main_v29, main_cst, main_v30, main_cst_5, main_v31, main_v32, main_cst_6, main_cst_7]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_1`'s operations write, in order. -/
abbrev hostOps1_1_W : List (Ref sig .tc) := [main_call0_v0, main_call0_v1, main_call0_v2, main_call0_v3, main_call0_v4, main_v33]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1_2`'s operations write, in order. -/
abbrev hostOps1_2_W : List (Ref sig .tc) := [main_v34, main_v35, main_v36, main_v37, main_cst_8, main_v38, main_v39, main_v40, main_cst_9, main_v41, main_v42, main_v43, main_v44, main_v45, main_v46, main_v47, main_v48, main_v49, main_v50, main_v51, main_v52, main_v53, main_v54]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2`'s operations write, in order. -/
abbrev hostOps2_W : List (Ref sig .tc) := [main_c_10, main_v56, main_v57, main_c_11, main_v58, main_v59, main_v60, main_v61, main_v62, main_c_12, main_v63, main_v64, main_c_13, main_v65, main_v66, main_v67, main_v68, main_v69, main_v70]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3`'s operations write, in order. -/
abbrev hostOps3_W : List (Ref sig .tc) := [main_v72, main_v73, main_v74, main_c_14, main_v75, main_v76, main_c_15, main_v77, main_v78, main_v79, main_v80, main_v81, main_c_16, main_v82, main_v83, main_c_17, main_v84, main_v85, main_v86, main_v87, main_v88, main_c_18, main_v89, main_v90, main_c_19, main_v91, main_v92, main_v93, main_v94, main_v95, main_v96, main_cst_20, main_v97, main_cst_21, main_v98, main_v99, main_cst_22, main_cst_23]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3_1`'s operations write, in order. -/
abbrev hostOps3_1_W : List (Ref sig .tc) := [main_call1_v0, main_call1_v1, main_call1_v2, main_call1_v3, main_call1_v4, main_v100]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3_2`'s operations write, in order. -/
abbrev hostOps3_2_W : List (Ref sig .tc) := [main_v101, main_v102, main_v103, main_v104, main_cst_24, main_v105, main_v106, main_v107, main_cst_25, main_v108, main_v109, main_v110, main_v111, main_v112, main_v113, main_v114, main_v115, main_v116, main_v117, main_v118, main_v119, main_v120, main_v121]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## A host stretch keeps what it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W10_of (c : Dev nD) (r : Ref sig .tc) (h : r ∉ hostOps3_1_W) : W10 m ρ c (Proc.devRef .tc r) = W9 m ρ c (Proc.devRef .tc r) :=
  StableHlo.after_of_writes_sub hostOps3_1 _ hostOps3_1_writes h
theorem W11_of (c : Dev nD) (r : Ref sig .tc) (h : r ∉ hostOps3_2_W) : W11 m ρ c (Proc.devRef .tc r) = W10 m ρ c (Proc.devRef .tc r) :=
  StableHlo.after_of_writes_sub hostOps3_2 _ hostOps3_2_writes h

/-! ## A region keeps every buffer that is not one of its output arrays -/

/-- The output arrays of the four regions. -/
abbrev reg0_W : List (Ref sig .tc) := [main_v1_0, main_v1_1, main_v1_2]
abbrev reg1_W : List (Ref sig .tc) := [main_v55]
abbrev reg2_W : List (Ref sig .tc) := [main_v71_0, main_v71_1, main_v71_2]
abbrev reg3_W : List (Ref sig .tc) := [main_v122]

theorem in0 : ∀ w : Fin cfg0.W, Pipeline.arrRef spec0 w ∉ reg0_W → (cfg0.win w).isOut = false := by decide
theorem in1 : ∀ w : Fin cfg1.W, Pipeline.arrRef spec1 w ∉ reg1_W → (cfg1.win w).isOut = false := by decide
theorem in2 : ∀ w : Fin cfg2.W, Pipeline.arrRef spec2 w ∉ reg2_W → (cfg2.win w).isOut = false := by decide
theorem in3 : ∀ w : Fin cfg3.W, Pipeline.arrRef spec3 w ∉ reg3_W → (cfg3.win w).isOut = false := by decide

theorem W2_keep (c : Dev nD) (r : Ref sig .tc) (h : r ∉ reg0_W) : W2 m ρ c (Proc.devRef .tc r) = W1 m ρ c (Proc.devRef .tc r) := by
  by_cases hw : ∃ w, Pipeline.arrRef spec0 w = r
  · obtain ⟨w, rfl⟩ := hw
    exact (W2_arr m ρ c w).trans (((dat0 (V1 m ρ) c).arrAt_in w (in0 w h) _).trans (A_eq0 (V1 m ρ) c w))
  · exact W2_of_ne m ρ c r fun w e => hw ⟨w, e⟩
theorem W6_keep (c : Dev nD) (r : Ref sig .tc) (h : r ∉ reg1_W) : W6 m ρ c (Proc.devRef .tc r) = W5 m ρ c (Proc.devRef .tc r) := by
  by_cases hw : ∃ w, Pipeline.arrRef spec1 w = r
  · obtain ⟨w, rfl⟩ := hw
    exact (W6_arr m ρ c w).trans (((dat1 (V5 m ρ) c).arrAt_in w (in1 w h) _).trans (A_eq1 (V5 m ρ) c w))
  · exact W6_of_ne m ρ c r fun w e => hw ⟨w, e⟩
theorem W8_keep (c : Dev nD) (r : Ref sig .tc) (h : r ∉ reg2_W) : W8 m ρ c (Proc.devRef .tc r) = W7 m ρ c (Proc.devRef .tc r) := by
  by_cases hw : ∃ w, Pipeline.arrRef spec2 w = r
  · obtain ⟨w, rfl⟩ := hw
    exact (W8_arr m ρ c w).trans (((dat2 (V7 m ρ) c).arrAt_in w (in2 w h) _).trans (A_eq2 (V7 m ρ) c w))
  · exact W8_of_ne m ρ c r fun w e => hw ⟨w, e⟩
theorem W12_keep (c : Dev nD) (r : Ref sig .tc) (h : r ∉ reg3_W) : W12 m ρ c (Proc.devRef .tc r) = W11 m ρ c (Proc.devRef .tc r) := by
  by_cases hw : ∃ w, Pipeline.arrRef spec3 w = r
  · obtain ⟨w, rfl⟩ := hw
    exact (W12_arr m ρ c w).trans (((dat3 (V11 m ρ) c).arrAt_in w (in3 w h) _).trans (A_eq3 (V11 m ρ) c w))
  · exact W12_of_ne m ρ c r fun w e => hw ⟨w, e⟩

/-! ## The arguments at every boundary -/

/-- @main's thirty-seven argument arrays. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36]

theorem args_h0 : ∀ r ∈ argsL, r ∉ hostOps0_W := by decide
theorem args_h1 : ∀ r ∈ argsL, r ∉ hostOps1_W := by decide
theorem args_h1_1 : ∀ r ∈ argsL, r ∉ hostOps1_1_W := by decide
theorem args_h1_2 : ∀ r ∈ argsL, r ∉ hostOps1_2_W := by decide
theorem args_h2 : ∀ r ∈ argsL, r ∉ hostOps2_W := by decide
theorem args_h3 : ∀ r ∈ argsL, r ∉ hostOps3_W := by decide
theorem args_h3_1 : ∀ r ∈ argsL, r ∉ hostOps3_1_W := by decide
theorem args_h3_2 : ∀ r ∈ argsL, r ∉ hostOps3_2_W := by decide
theorem args_r0 : ∀ r ∈ argsL, r ∉ reg0_W := by decide
theorem args_r1 : ∀ r ∈ argsL, r ∉ reg1_W := by decide
theorem args_r2 : ∀ r ∈ argsL, r ∉ reg2_W := by decide
theorem args_r3 : ∀ r ∈ argsL, r ∉ reg3_W := by decide

theorem W1_arg (c : Dev nD) (r : Ref sig .tc) (hr : r ∈ argsL) : W1 m ρ c (Proc.devRef .tc r) = m ((c : Thread nD τ).loc r) :=
  W1_of m ρ c r (args_h0 r hr)
theorem W2_arg (c : Dev nD) (r : Ref sig .tc) (hr : r ∈ argsL) : W2 m ρ c (Proc.devRef .tc r) = m ((c : Thread nD τ).loc r) :=
  (W2_keep m ρ c r (args_r0 r hr)).trans (W1_arg m ρ c r hr)
theorem W3_arg (c : Dev nD) (r : Ref sig .tc) (hr : r ∈ argsL) : W3 m ρ c (Proc.devRef .tc r) = m ((c : Thread nD τ).loc r) :=
  (W3_of m ρ c r (args_h1 r hr)).trans (W2_arg m ρ c r hr)
theorem W4_arg (c : Dev nD) (r : Ref sig .tc) (hr : r ∈ argsL) : W4 m ρ c (Proc.devRef .tc r) = m ((c : Thread nD τ).loc r) :=
  (W4_of m ρ c r (args_h1_1 r hr)).trans (W3_arg m ρ c r hr)
theorem W5_arg (c : Dev nD) (r : Ref sig .tc) (hr : r ∈ argsL) : W5 m ρ c (Proc.devRef .tc r) = m ((c : Thread nD τ).loc r) :=
  (W5_of m ρ c r (args_h1_2 r hr)).trans (W4_arg m ρ c r hr)
theorem W6_arg (c : Dev nD) (r : Ref sig .tc) (hr : r ∈ argsL) : W6 m ρ c (Proc.devRef .tc r) = m ((c : Thread nD τ).loc r) :=
  (W6_keep m ρ c r (args_r1 r hr)).trans (W5_arg m ρ c r hr)
theorem W7_arg (c : Dev nD) (r : Ref sig .tc) (hr : r ∈ argsL) : W7 m ρ c (Proc.devRef .tc r) = m ((c : Thread nD τ).loc r) :=
  (W7_of m ρ c r (args_h2 r hr)).trans (W6_arg m ρ c r hr)
theorem W8_arg (c : Dev nD) (r : Ref sig .tc) (hr : r ∈ argsL) : W8 m ρ c (Proc.devRef .tc r) = m ((c : Thread nD τ).loc r) :=
  (W8_keep m ρ c r (args_r2 r hr)).trans (W7_arg m ρ c r hr)
theorem W9_arg (c : Dev nD) (r : Ref sig .tc) (hr : r ∈ argsL) : W9 m ρ c (Proc.devRef .tc r) = m ((c : Thread nD τ).loc r) :=
  (W9_of m ρ c r (args_h3 r hr)).trans (W8_arg m ρ c r hr)
theorem W10_arg (c : Dev nD) (r : Ref sig .tc) (hr : r ∈ argsL) : W10 m ρ c (Proc.devRef .tc r) = m ((c : Thread nD τ).loc r) :=
  (W10_of m ρ c r (args_h3_1 r hr)).trans (W9_arg m ρ c r hr)
theorem W11_arg (c : Dev nD) (r : Ref sig .tc) (hr : r ∈ argsL) : W11 m ρ c (Proc.devRef .tc r) = m ((c : Thread nD τ).loc r) :=
  (W11_of m ρ c r (args_h3_2 r hr)).trans (W10_arg m ρ c r hr)

/-! ## The first result survives the rest of the program -/

/-- The node branch's result, written by region 1, is what the last boundary holds: no later segment writes it. -/
theorem W12_v55 (c : Dev nD) : W12 m ρ c (Proc.devRef .tc main_v55) = W6 m ρ c (Proc.devRef .tc main_v55) :=
  (W12_keep m ρ c main_v55 (by decide)).trans ((W11_of m ρ c main_v55 (by decide)).trans ((W10_of m ρ c main_v55 (by decide)).trans
    ((W9_of m ρ c main_v55 (by decide)).trans ((W8_keep m ρ c main_v55 (by decide)).trans (W7_of m ρ c main_v55 (by decide))))))

end Cert.Fold

end
-- ==== Proof.Spec.lean ====
/-
  One attention layer's dense stages as functions on the extended reals, index by index.

  A projection is a matrix product with an optional bias row and an optional addend; the feed-forward block is, row
  by row: the residual plus the output projection plus its bias, a layer normalisation, a 256 → 1024 → 256 perceptron
  with a rectifier, a second residual and a second layer normalisation. Every function here reads only ONE ROW of its
  row-indexed operands for each row of its result, so it is the same function on a block of rows as on the whole array.
-/
import Idealize.ShloMosaic.PureOps.Ideal
import Idealize.ShloMosaic.Lib.ValueIdx

noncomputable section

namespace Cert.Spec

open Idealize.ShloMosaic Idealize.ShloMosaic.ValueIdx

/-- An `R×C` matrix of extended reals. -/
abbrev Mat (R C : ℕ) := (⟨2, ![R, C]⟩ : Shape).Idx → EReal
/-- A vector of `C` extended reals. -/
abbrev Vc (C : ℕ) := (⟨1, ![C]⟩ : Shape).Idx → EReal

/-- The row length as a float: 256. -/
def c256 : EReal := Ideal.ofBits .f32 0x43800000#32
/-- The variance floor inside the normalisation's inverse square root. -/
def eps : EReal := Ideal.ofBits .f32 0x3727C5AC#32
/-- The rectifier's threshold: the zero pattern. -/
def zero32 : EReal := Ideal.ofBits .f32 0x00000000#32

/-- A vector as a one-row matrix. -/
def row {C : ℕ} (b : Vc C) : Mat 1 C := fun j => b (ix1 (j 1))

/-- The matrix product. -/
def mm {R K C : ℕ} (x : Mat R K) (W : Mat K C) : Mat R C := fun j => ∑ k : Fin K, x (ix2 (j 0) k) * W (ix2 k (j 1))

/-- A projection with a bias row. -/
def qProj {R : ℕ} (x : Mat R 256) (W : Mat 256 256) (b : Mat 1 256) : Mat R 256 := fun j => mm x W j + b (ix2 0 (j 1))
/-- A projection with a bias row and an addend. -/
def qProjE {R : ℕ} (x : Mat R 256) (W : Mat 256 256) (b : Mat 1 256) (a : Mat R 256) : Mat R 256 :=
  fun j => mm x W j + b (ix2 0 (j 1)) + a j
/-- A projection with an addend. -/
def vProjE {R : ℕ} (x : Mat R 256) (W : Mat 256 256) (a : Mat R 256) : Mat R 256 := fun j => mm x W j + a j

/-- The mean of a row. -/
def meanRow (x : Fin 256 → EReal) : EReal := Ideal.div (∑ k : Fin 256, x k) c256
/-- The (biased) variance of a row. -/
def varRow (x : Fin 256 → EReal) : EReal := Ideal.div (∑ k : Fin 256, (x k - meanRow x) * (x k - meanRow x)) c256
/-- Layer normalisation of one row with gain `g` and bias `b`. -/
def lnRow (x g b : Fin 256 → EReal) : Fin 256 → EReal :=
  fun q => (x q - meanRow x) * Ideal.rsqrt (varRow x + eps) * g q + b q

/-- Residual plus output projection plus bias, one row. -/
def hpreRow (res o : Fin 256 → EReal) (Wo : Mat 256 256) (bo : Mat 1 256) : Fin 256 → EReal :=
  fun q => res q + (∑ k : Fin 256, o k * Wo (ix2 k q)) + bo (ix2 0 q)
/-- The perceptron's hidden row. -/
def hidRow (h : Fin 256 → EReal) (W1 : Mat 256 1024) (b1f : Mat 1 1024) : Fin 1024 → EReal :=
  fun r => max ((∑ k : Fin 256, h k * W1 (ix2 k r)) + b1f (ix2 0 r)) zero32
/-- The second residual: the row plus the perceptron's output with its bias. -/
def ffnRow (h : Fin 256 → EReal) (hid : Fin 1024 → EReal) (W2 : Mat 1024 256) (b2f : Mat 1 256) : Fin 256 → EReal :=
  fun q => h q + ((∑ r : Fin 1024, hid r * W2 (ix2 r q)) + b2f (ix2 0 q))

/-- The first normalised row. -/
def hRow (res o : Fin 256 → EReal) (Wo : Mat 256 256) (bo g1 b1 : Mat 1 256) : Fin 256 → EReal :=
  lnRow (hpreRow res o Wo bo) (fun q => g1 (ix2 0 q)) (fun q => b1 (ix2 0 q))

/-- The whole block on one row. -/
def blockRow (res o : Fin 256 → EReal) (Wo : Mat 256 256) (bo g1 b1 : Mat 1 256) (W1 : Mat 256 1024) (b1f : Mat 1 1024)
    (W2 : Mat 1024 256) (b2f g2 b2 : Mat 1 256) : Fin 256 → EReal :=
  lnRow (ffnRow (hRow res o Wo bo g1 b1) (hidRow (hRow res o Wo bo g1 b1) W1 b1f) W2 b2f)
    (fun q => g2 (ix2 0 q)) (fun q => b2 (ix2 0 q))

/-- The block on every row of an `R`-row pair of operands. -/
def blockOut {R : ℕ} (res o : Mat R 256) (Wo : Mat 256 256) (bo g1 b1 : Mat 1 256) (W1 : Mat 256 1024) (b1f : Mat 1 1024)
    (W2 : Mat 1024 256) (b2f g2 b2 : Mat 1 256) : Mat R 256 :=
  fun j => blockRow (fun k => res (ix2 (j 0) k)) (fun k => o (ix2 (j 0) k)) Wo bo g1 b1 W1 b1f W2 b2f g2 b2 (j 1)

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KernelPayQkv.lean ====
/-
  The six projection payloads of the two projection kernels, on the extended reals.

  Each body narrows a 1000-row block and a 256×256 weight to bf16, multiplies them on the matrix unit into a zero
  accumulator, and adds — depending on the output — a bias row repeated over the rows and an addend block. On the
  extended reals a change of float format is the identity and the product into zero is the plain contraction
  `∑ k, x (p, k) * W (k, q)`, so each payload is the corresponding projection of the specification at 1000 rows.
-/
import proofs.«178388_j2224793059900_1_alg».proof.Proof.Gen.KernelIdeal.Skeleton
import proofs.«178388_j2224793059900_1_alg».proof.Proof.Spec
import proofs.«178388_j2224793059900_1_alg».proof.Proof.LibPlainDot
import Idealize.ShloMosaic.Lib.ValueIdx
import Idealize.ShloMosaic.Lib.ValueLayout
import Idealize.ShloMosaic.Lib.Pipeline.Value

noncomputable section

namespace Cert.KernelPay

open Idealize.ShloMosaic Idealize.ShloMosaic.ValueIdx
open Cert.KernelIdeal Cert.KernelIdeal.Gen

/-- The matrix unit's product of two blocks narrowed to bf16, into a zero accumulator, is the plain matrix product:
    on the extended reals a change of float format is the identity. -/
theorem a_matmul_apply (x : Vec Ideal S1000x256 .f32) (w : Vec Ideal S256x256 .f32) (j : S1000x256.Idx) :
    matmul (F := Ideal) dot_S1000x256_S256x256_S1000x256_1_0_0_1_n_n none
        (truncf .bf16 x bitsLt_bf16_f32) (truncf .bf16 w bitsLt_bf16_f32) (constant S1000x256 .f32 0x00000000#32) j
      = Cert.Spec.mm x w j :=
  Cert.PlainDot.matmul_zero_apply 1000 256 256 (φ₁ := .bf16) (φ₂ := .bf16) none
    (truncf .bf16 x bitsLt_bf16_f32) (truncf .bf16 w bitsLt_bf16_f32) j

/-- The bias row, cast to its own shape and repeated over the 1000 rows, read at `(p, q)`: the row's entry `q`. -/
theorem a_bias_apply (b : Vec Ideal S1x256 .f32) (p : Fin 1000) (q : Fin 256) :
    broadcastTo S1000x256 (shapeCast S1x256 b shapeCasts_S1x256_S1x256) broadcasts_S1x256_S1000x256 (ix2 p q)
      = b (ix2 0 q) := by
  rw [shapeCast_self]
  exact broadcastTo_1b_ab_apply b broadcasts_S1x256_S1000x256 p q

/-- A projection with a bias row. -/
theorem k0_pay1_eq (x0 : Vec Ideal S1000x256 .f32) (x1 : Vec Ideal S256x256 .f32) (x5 : Vec Ideal S1x256 .f32) :
    k0_pay1 (F := Ideal) x0 x1 x5 = Cert.Spec.qProj (R := 1000) x0 x1 x5 := by
  funext j
  obtain ⟨p, q, rfl⟩ : ∃ (p : Fin 1000) (q : Fin 256), j = ix2 p q := ⟨j 0, j 1, eq_ix2 j⟩
  unfold k0_pay1 Cert.Spec.qProj
  refine (addf_apply _ _ _).trans ?_
  exact congrArg₂ (· + ·) (a_matmul_apply x0 x1 (ix2 p q)) (a_bias_apply x5 p q)

/-- A plain projection. -/
theorem k0_pay2_eq (x0 : Vec Ideal S1000x256 .f32) (x10 : Vec Ideal S256x256 .f32) :
    k0_pay2 (F := Ideal) x0 x10 = Cert.Spec.mm x0 x10 := by
  funext j
  unfold k0_pay2
  exact a_matmul_apply x0 x10 j

/-- A plain projection. -/
theorem k0_pay3_eq (x0 : Vec Ideal S1000x256 .f32) (x15 : Vec Ideal S256x256 .f32) :
    k0_pay3 (F := Ideal) x0 x15 = Cert.Spec.mm x0 x15 := by
  funext j
  unfold k0_pay3
  exact a_matmul_apply x0 x15 j

/-- A projection with a bias row and an addend block. -/
theorem k2_pay1_eq (x0 : Vec Ideal S1000x256 .f32) (x1 : Vec Ideal S256x256 .f32) (x5 : Vec Ideal S1x256 .f32)
    (x9 : Vec Ideal S1000x256 .f32) :
    k2_pay1 (F := Ideal) x0 x1 x5 x9 = Cert.Spec.qProjE (R := 1000) x0 x1 x5 x9 := by
  funext j
  obtain ⟨p, q, rfl⟩ : ∃ (p : Fin 1000) (q : Fin 256), j = ix2 p q := ⟨j 0, j 1, eq_ix2 j⟩
  unfold k2_pay1 Cert.Spec.qProjE
  refine (addf_apply _ _ _).trans ?_
  refine congrArg₂ (· + ·) ((addf_apply _ _ _).trans ?_) (congrFun (shapeCast_self x9 shapeCasts_S1000x256_S1000x256) _)
  exact congrArg₂ (· + ·) (a_matmul_apply x0 x1 (ix2 p q)) (a_bias_apply x5 p q)

/-- A plain projection. -/
theorem k2_pay2_eq (x0 : Vec Ideal S1000x256 .f32) (x13 : Vec Ideal S256x256 .f32) :
    k2_pay2 (F := Ideal) x0 x13 = Cert.Spec.mm x0 x13 := by
  funext j
  unfold k2_pay2
  exact a_matmul_apply x0 x13 j

/-- A projection with an addend block. -/
theorem k2_pay3_eq (x0 : Vec Ideal S1000x256 .f32) (x18 : Vec Ideal S256x256 .f32) (x22 : Vec Ideal S1000x256 .f32) :
    k2_pay3 (F := Ideal) x0 x18 x22 = Cert.Spec.vProjE (R := 1000) x0 x18 x22 := by
  funext j
  unfold k2_pay3 Cert.Spec.vProjE
  refine (addf_apply _ _ _).trans ?_
  exact congrArg₂ (· + ·) (a_matmul_apply x0 x18 j) (congrFun (shapeCast_self x22 shapeCasts_S1000x256_S1000x256) _)

end Cert.KernelPay

end
-- ==== Proof.Blocks02.lean ====
/-
  Regions 0 and 2: each projection output ARRAY after the region is the specification's projection of the arrays the
  region finds.

  Both regions walk their row operands in blocks of 1000 rows (10 blocks of the 10000 node rows, 160 blocks of the
  160000 edge rows); the weight and bias windows are the whole arrays at every point. Point `t` stores, through each
  output window, the body's payload of the input blocks at `t` over the whole block. An entry `(p, q)` of a projection
  depends only on row `p` of its row operands, and row `p` of block `t` is row `1000 t + p` of the array, so what
  point `t` writes back is block `t` of the projection of the whole arrays; the blocks of the points `r / 1000` cover
  every row `r`, so the array ends holding that projection.
-/
import proofs.«178388_j2224793059900_1_alg».proof.Proof.Gen.KernelIdeal.Frame
import proofs.«178388_j2224793059900_1_alg».proof.Proof.Spec
import proofs.«178388_j2224793059900_1_alg».proof.Proof.KernelPayQkv
import Idealize.ShloMosaic.Lib.Pipeline.Value
import Idealize.ShloMosaic.Lib.ValueIdx
import Idealize.ShloMosaic.Lib.Tactic

noncomputable section

namespace Cert.Blocks02

open Idealize.ShloMosaic Idealize.ShloMosaic.TcCoe Idealize.SL.Sem Idealize.ShloMosaic.ValueIdx
open Idealize.ShloMosaic.Pipeline (Dat)
open Cert.KernelIdeal Cert.KernelIdeal.Gen

/-! ## The projections read only one row of their row-indexed operands

Each entry `(p, q)` of a projection depends on row `p` of the left operand (and of the addend) only, so a projection of
a block of rows is the corresponding block of the projection of the whole array. -/

/-- Two plain products agree at two indices of the same column when the left operands' rows there agree. -/
theorem a_mm_rows {R R' : ℕ} (A : Cert.Spec.Mat R' 256) (W : Cert.Spec.Mat 256 256)
    (xb : Cert.Spec.Mat R 256) (j : (⟨2, ![R, 256]⟩ : Shape).Idx) (i : (⟨2, ![R', 256]⟩ : Shape).Idx)
    (h1 : (i 1).val = (j 1).val) (hx : ∀ k : Fin 256, xb (ix2 (j 0) k) = A (ix2 (i 0) k)) :
    Cert.Spec.mm xb W j = Cert.Spec.mm A W i := by
  obtain ⟨p, q, rfl⟩ : ∃ (p : Fin R) (q : Fin 256), j = ix2 p q := ⟨j 0, j 1, eq_ix2 j⟩
  obtain ⟨r, q', rfl⟩ : ∃ (r : Fin R') (q' : Fin 256), i = ix2 r q' := ⟨i 0, i 1, eq_ix2 i⟩
  obtain rfl : q' = q := Fin.ext h1
  unfold Cert.Spec.mm
  exact Finset.sum_congr rfl fun k _ => congrArg₂ (· * ·) (hx k) rfl

/-- The same with a bias row. -/
theorem a_qProj_rows {R R' : ℕ} (A : Cert.Spec.Mat R' 256) (W : Cert.Spec.Mat 256 256) (b : Cert.Spec.Mat 1 256)
    (xb : Cert.Spec.Mat R 256) (j : (⟨2, ![R, 256]⟩ : Shape).Idx) (i : (⟨2, ![R', 256]⟩ : Shape).Idx)
    (h1 : (i 1).val = (j 1).val) (hx : ∀ k : Fin 256, xb (ix2 (j 0) k) = A (ix2 (i 0) k)) :
    Cert.Spec.qProj xb W b j = Cert.Spec.qProj A W b i := by
  obtain ⟨p, q, rfl⟩ : ∃ (p : Fin R) (q : Fin 256), j = ix2 p q := ⟨j 0, j 1, eq_ix2 j⟩
  obtain ⟨r, q', rfl⟩ : ∃ (r : Fin R') (q' : Fin 256), i = ix2 r q' := ⟨i 0, i 1, eq_ix2 i⟩
  obtain rfl : q' = q := Fin.ext h1
  unfold Cert.Spec.qProj Cert.Spec.mm
  exact congrArg₂ (· + ·) (Finset.sum_congr rfl fun k _ => congrArg₂ (· * ·) (hx k) rfl) rfl

/-- The same with a bias row and an addend, whose entries at the two indices agree. -/
theorem a_qProjE_rows {R R' : ℕ} (A : Cert.Spec.Mat R' 256) (W : Cert.Spec.Mat 256 256) (b : Cert.Spec.Mat 1 256)
    (E : Cert.Spec.Mat R' 256) (xb eb : Cert.Spec.Mat R 256) (j : (⟨2, ![R, 256]⟩ : Shape).Idx) (i : (⟨2, ![R', 256]⟩ : Shape).Idx)
    (h1 : (i 1).val = (j 1).val) (hx : ∀ k : Fin 256, xb (ix2 (j 0) k) = A (ix2 (i 0) k)) (he : eb j = E i) :
    Cert.Spec.qProjE xb W b eb j = Cert.Spec.qProjE A W b E i := by
  obtain ⟨p, q, rfl⟩ : ∃ (p : Fin R) (q : Fin 256), j = ix2 p q := ⟨j 0, j 1, eq_ix2 j⟩
  obtain ⟨r, q', rfl⟩ : ∃ (r : Fin R') (q' : Fin 256), i = ix2 r q' := ⟨i 0, i 1, eq_ix2 i⟩
  obtain rfl : q' = q := Fin.ext h1
  unfold Cert.Spec.qProjE Cert.Spec.mm
  exact congrArg₂ (· + ·) (congrArg₂ (· + ·) (Finset.sum_congr rfl fun k _ => congrArg₂ (· * ·) (hx k) rfl) rfl) he

/-- The same with an addend and no bias. -/
theorem a_vProjE_rows {R R' : ℕ} (A : Cert.Spec.Mat R' 256) (W : Cert.Spec.Mat 256 256)
    (E : Cert.Spec.Mat R' 256) (xb eb : Cert.Spec.Mat R 256) (j : (⟨2, ![R, 256]⟩ : Shape).Idx) (i : (⟨2, ![R', 256]⟩ : Shape).Idx)
    (h1 : (i 1).val = (j 1).val) (hx : ∀ k : Fin 256, xb (ix2 (j 0) k) = A (ix2 (i 0) k)) (he : eb j = E i) :
    Cert.Spec.vProjE xb W eb j = Cert.Spec.vProjE A W E i := by
  obtain ⟨p, q, rfl⟩ : ∃ (p : Fin R) (q : Fin 256), j = ix2 p q := ⟨j 0, j 1, eq_ix2 j⟩
  obtain ⟨r, q', rfl⟩ : ∃ (r : Fin R') (q' : Fin 256), i = ix2 r q' := ⟨i 0, i 1, eq_ix2 i⟩
  obtain rfl : q' = q := Fin.ext h1
  unfold Cert.Spec.vProjE Cert.Spec.mm
  exact congrArg₂ (· + ·) (Finset.sum_congr rfl fun k _ => congrArg₂ (· * ·) (hx k) rfl) he

variable (V : (c : Dev nD) → (b : Ref sig .tc) → Buf (Elt Ideal) ((c : Thread nD τ).loc b))

/-- Every access of the two bodies is at offset `(0, 0)` of its buffer. -/
theorem a_hz : (![0, 0] : Fin 2 → Nat) = fun _ => 0 := funext fun a => by fin_cases a <;> rfl

/-! ## Region 0: the node projections, ten blocks of 1000 rows -/

/-- The index maps over the grid: every row window (the row inputs and the three outputs) is at block `(t, 0)`, the
    weight and bias windows at block `(0, 0)`. -/
theorem a_idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row `x 0` of window 0's block at point `t` is row `1000 t + x 0` of its array. -/
theorem a_iblk0_0 (c : Dev nD) (t : Fin cfg0.N) (x : S1000x256.Idx) (k : S10000x256.Idx)
    (hk0 : (k 0).val = 1000 * t.val + (x 0).val) (hk1 : (k 1).val = (x 1).val) :
    (iblk0 V c 0 t : Vec Ideal S1000x256 .f32) x = (V c main_arg0 : S10000x256.Idx → EReal) k := by
  obtain ⟨⟨e0, e1⟩, -⟩ := a_idx0 t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * (x 0).val = (k 0).val; rw [e0, hk0]; omega
  | ⟨1, _⟩ => show win0_0.index t (1 : Fin 2) * 256 + 1 * (x 1).val = (k 1).val; rw [e1, hk1]; omega

/-- Window 1's block is its whole array at every point. -/
theorem a_iblk0_1 (c : Dev nD) (t : Fin cfg0.N) :
    (iblk0 V c 1 t : Vec Ideal S256x256 .f32) = (V c main_arg9 : S256x256.Idx → EReal) := by
  obtain ⟨-, ⟨e0, e1⟩, -⟩ := a_idx0 t
  funext x
  unfold iblk0
  rw [View.read_apply]
  show V c main_arg9 _ = V c main_arg9 _
  refine congrArg (V c main_arg9) (funext fun a => Fin.ext ?_)
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- Window 2's block is its whole array at every point. -/
theorem a_iblk0_2 (c : Dev nD) (t : Fin cfg0.N) :
    (iblk0 V c 2 t : Vec Ideal S1x256 .f32) = (V c main_v0 : S1x256.Idx → EReal) := by
  obtain ⟨-, -, ⟨e0, e1⟩, -⟩ := a_idx0 t
  funext x
  unfold iblk0
  rw [View.read_apply]
  show V c main_v0 _ = V c main_v0 _
  refine congrArg (V c main_v0) (funext fun a => Fin.ext ?_)
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- Window 3's block is its whole array at every point. -/
theorem a_iblk0_3 (c : Dev nD) (t : Fin cfg0.N) :
    (iblk0 V c 3 t : Vec Ideal S256x256 .f32) = (V c main_arg11 : S256x256.Idx → EReal) := by
  obtain ⟨-, -, -, ⟨e0, e1⟩, -⟩ := a_idx0 t
  funext x
  unfold iblk0
  rw [View.read_apply]
  show V c main_arg11 _ = V c main_arg11 _
  refine congrArg (V c main_arg11) (funext fun a => Fin.ext ?_)
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- Window 4's block is its whole array at every point. -/
theorem a_iblk0_4 (c : Dev nD) (t : Fin cfg0.N) :
    (iblk0 V c 4 t : Vec Ideal S256x256 .f32) = (V c main_arg12 : S256x256.Idx → EReal) := by
  obtain ⟨-, -, -, -, ⟨e0, e1⟩, -⟩ := a_idx0 t
  funext x
  unfold iblk0
  rw [View.read_apply]
  show V c main_arg12 _ = V c main_arg12 _
  refine congrArg (V c main_arg12) (funext fun a => Fin.ext ?_)
  match a with
  | ⟨0, _⟩ => show win0_4.index t (0 : Fin 2) * 256 + 1 * (x 0).val = (x 0).val; rw [e0]; omega
  | ⟨1, _⟩ => show win0_4.index t (1 : Fin 2) * 256 + 1 * (x 1).val = (x 1).val; rw [e1]; omega

/-- What point `t` writes back through window 5 is block `t` of the projection of the whole arrays. -/
theorem a_flushed0_5 (c : Dev nD) (t : Fin cfg0.N) :
    (dat0 (F := Ideal) V c).flushed 5 t = ((cfg0.win 5).blk t).view.read (Elt Ideal) (Cert.Spec.qProj (R := 10000) (V c main_arg0) (V c main_arg9) (V c main_v0)) := by
  show (cfg0.win 5).cut (grid0.coords t) ((dat0 V c).after 5 t) = _
  rw [after0_5]
  unfold out0_5
  rw [View.canon_unit_zero a_hz]
  simp only [View.ld_unit_zero (S := S1000x256) a_hz, View.ld_unit_zero (S := S256x256) a_hz, View.ld_unit_zero (S := S1x256) a_hz]
  rw [Cert.KernelPay.k0_pay1_eq, a_iblk0_1 V c t, a_iblk0_2 V c t]
  obtain ⟨-, -, -, -, -, ⟨e0, e1⟩, -⟩ := a_idx0 t
  funext j
  show Cert.Spec.qProj (R := 1000) (iblk0 V c 0 t) (V c main_arg9) (V c main_v0) j = Cert.Spec.qProj (R := 10000) (V c main_arg0) (V c main_arg9) (V c main_v0) (((cfg0.win 5).blk t).view.emb j)
  have h0 : ((((cfg0.win 5).blk t).view.emb j) 0).val = 1000 * t.val + (j 0).val := by
    show win0_5.index t (0 : Fin 2) * 1000 + 1 * (j 0).val = 1000 * t.val + (j 0).val
    rw [e0]; omega
  have h1 : ((((cfg0.win 5).blk t).view.emb j) 1).val = (j 1).val := by
    show win0_5.index t (1 : Fin 2) * 256 + 1 * (j 1).val = (j 1).val
    rw [e1]; omega
  refine a_qProj_rows (V c main_arg0) (V c main_arg9) (V c main_v0) (iblk0 V c 0 t) j (((cfg0.win 5).blk t).view.emb j) h1 (fun k => ?_)
  · exact a_iblk0_0 V c t (ix2 (j 0) k) (ix2 ((((cfg0.win 5).blk t).view.emb j) 0) k) h0 rfl

/-- An index of the array is in point `t`'s block iff each coordinate is in the block's range on its axis. -/
theorem a_mem_blk0_5 (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v1_0).slice (win0_5.rect t)).set ↔ _
  rw [View.set_slice_whole, Rect.mem_set_unit]
  exact Iff.rfl

/-- Row `r` of the array is in the block of point `r / 1000`. -/
theorem a_cover0_5 (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 10 := N_0
  have ht : (i 0).val / 1000 < cfg0.N := by rw [hN]; omega
  refine ⟨⟨(i 0).val / 1000, ht⟩, flush0_5 _, ?_⟩
  rw [a_mem_blk0_5]
  obtain ⟨-, -, -, -, -, ⟨e0, e1⟩, -⟩ := a_idx0 ⟨(i 0).val / 1000, ht⟩
  intro a
  match a with
  | ⟨0, _⟩ =>
    show win0_5.index _ (0 : Fin 2) * 1000 ≤ (i 0).val ∧ (i 0).val < win0_5.index _ (0 : Fin 2) * 1000 + 1000
    rw [e0]
    show (i 0).val / 1000 * 1000 ≤ (i 0).val ∧ (i 0).val < (i 0).val / 1000 * 1000 + 1000
    omega
  | ⟨1, _⟩ =>
    show win0_5.index _ (1 : Fin 2) * 256 ≤ (i 1).val ∧ (i 1).val < win0_5.index _ (1 : Fin 2) * 256 + 256
    rw [e1]; omega

/-- The output array after the region: the projection of the region-entry arrays. -/
theorem final0_5 (c : Dev nD) : (dat0 (F := Ideal) V c).arrAt 5 cfg0.N = Cert.Spec.qProj (R := 10000) (V c main_arg0) (V c main_arg9) (V c main_v0) :=
  (dat0 (F := Ideal) V c).arrAt_eq_of_cover 5 _ (fun t _ => a_flushed0_5 V c t) a_cover0_5

/-- What point `t` writes back through window 6 is block `t` of the projection of the whole arrays. -/
theorem a_flushed0_6 (c : Dev nD) (t : Fin cfg0.N) :
    (dat0 (F := Ideal) V c).flushed 6 t = ((cfg0.win 6).blk t).view.read (Elt Ideal) (Cert.Spec.mm (V c main_arg0) (V c main_arg11)) := by
  show (cfg0.win 6).cut (grid0.coords t) ((dat0 V c).after 6 t) = _
  rw [after0_6]
  unfold out0_6
  rw [View.canon_unit_zero a_hz]
  simp only [View.ld_unit_zero (S := S1000x256) a_hz, View.ld_unit_zero (S := S256x256) a_hz, View.ld_unit_zero (S := S1x256) a_hz]
  rw [Cert.KernelPay.k0_pay2_eq, a_iblk0_3 V c t]
  obtain ⟨-, -, -, -, -, -, ⟨e0, e1⟩, -⟩ := a_idx0 t
  funext j
  show Cert.Spec.mm (iblk0 V c 0 t) (V c main_arg11) j = Cert.Spec.mm (V c main_arg0) (V c main_arg11) (((cfg0.win 6).blk t).view.emb j)
  have h0 : ((((cfg0.win 6).blk t).view.emb j) 0).val = 1000 * t.val + (j 0).val := by
    show win0_6.index t (0 : Fin 2) * 1000 + 1 * (j 0).val = 1000 * t.val + (j 0).val
    rw [e0]; omega
  have h1 : ((((cfg0.win 6).blk t).view.emb j) 1).val = (j 1).val := by
    show win0_6.index t (1 : Fin 2) * 256 + 1 * (j 1).val = (j 1).val
    rw [e1]; omega
  refine a_mm_rows (V c main_arg0) (V c main_arg11) (iblk0 V c 0 t) j (((cfg0.win 6).blk t).view.emb j) h1 (fun k => ?_)
  · exact a_iblk0_0 V c t (ix2 (j 0) k) (ix2 ((((cfg0.win 6).blk t).view.emb j) 0) k) h0 rfl

/-- An index of the array is in point `t`'s block iff each coordinate is in the block's range on its axis. -/
theorem a_mem_blk0_6 (t : Fin cfg0.N) (i : S10000x256.Idx) :
    i ∈ ((cfg0.win 6).blk t).view.set ↔ ∀ a : Fin 2, win0_6.index t a * S1000x256.size a ≤ (i a).val ∧ (i a).val < win0_6.index t a * S1000x256.size a + S1000x256.size a := by
  show i ∈ ((View.whole main_v1_1).slice (win0_6.rect t)).set ↔ _
  rw [View.set_slice_whole, Rect.mem_set_unit]
  exact Iff.rfl

/-- Row `r` of the array is in the block of point `r / 1000`. -/
theorem a_cover0_6 (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  have hN : cfg0.N = 10 := N_0
  have ht : (i 0).val / 1000 < cfg0.N := by rw [hN]; omega
  refine ⟨⟨(i 0).val / 1000, ht⟩, flush0_6 _, ?_⟩
  rw [a_mem_blk0_6]
  obtain ⟨-, -, -, -, -, -, ⟨e0, e1⟩, -⟩ := a_idx0 ⟨(i 0).val / 1000, ht⟩
  intro a
  match a with
  | ⟨0, _⟩ =>
    show win0_6.index _ (0 : Fin 2) * 1000 ≤ (i 0).val ∧ (i 0).val < win0_6.index _ (0 : Fin 2) * 1000 + 1000
    rw [e0]
    show (i 0).val / 1000 * 1000 ≤ (i 0).val ∧ (i 0).val < (i 0).val / 1000 * 1000 + 1000
    omega
  | ⟨1, _⟩ =>
    show win0_6.index _ (1 : Fin 2) * 256 ≤ (i 1).val ∧ (i 1).val < win0_6.index _ (1 : Fin 2) * 256 + 256
    rw [e1]; omega

/-- The output array after the region: the projection of the region-entry arrays. -/
theorem final0_6 (c : Dev nD) : (dat0 (F := Ideal) V c).arrAt 6 cfg0.N = Cert.Spec.mm (V c main_arg0) (V c main_arg11) :=
  (dat0 (F := Ideal) V c).arrAt_eq_of_cover 6 _ (fun t _ => a_flushed0_6 V c t) a_cover0_6

/-- What point `t` writes back through window 7 is block `t` of the projection of the whole arrays. -/
theorem a_flushed0_7 (c : Dev nD) (t : Fin cfg0.N) :
    (dat0 (F := Ideal) V c).flushed 7 t = ((cfg0.win 7).blk t).view.read (Elt Ideal) (Cert.Spec.mm (V c main_arg0) (V c main_arg12)) := by
  show (cfg0.win 7).cut (grid0.coords t) ((dat0 V c).after 7 t) = _
  rw [after0_7]
  unfold out0_7
  rw [View.canon_unit_zero a_hz]
  simp only [View.ld_unit_zero (S := S1000x256) a_hz, View.ld_unit_zero (S := S256x256) a_hz, View.ld_unit_zero (S := S1x256) a_hz]
  rw [Cert.KernelPay.k0_pay3_eq, a_iblk0_4 V c t]
  obtain ⟨-, -, -, -, -, -, -, ⟨e0, e1⟩⟩ := a_idx0 t
  funext j
  show Cert.Spec.mm (iblk0 V c 0 t) (V c main_arg12) j = Cert.Spec.mm (V c main_arg0) (V c main_arg12) (((cfg0.win 7).blk t).view.emb j)
  have h0 : ((((cfg0.win 7).blk t).view.emb j) 0).val = 1000 * t.val + (j 0).val := by
    show win0_7.index t (0 : Fin 2) * 1000 + 1 * (j 0).val = 1000 * t.val + (j 0).val
    rw [e0]; omega
  have h1 : ((((cfg0.win 7).blk t).view.emb j) 1).val = (j 1).val := by
    show win0_7.index t (1 : Fin 2) * 256 + 1 * (j 1).val = (j 1).val
    rw [e1]; omega
  refine a_mm_rows (V c main_arg0) (V c main_arg12) (iblk0 V c 0 t) j (((cfg0.win 7).blk t).view.emb j) h1 (fun k => ?_)
  · exact a_iblk0_0 V c t (ix2 (j 0) k) (ix2 ((((cfg0.win 7).blk t).view.emb j) 0) k) h0 rfl

/-- An index of the array is in point `t`'s block iff each coordinate is in the block's range on its axis. -/
theorem a_mem_blk0_7 (t : Fin cfg0.N) (i : S10000x256.Idx) :
    i ∈ ((cfg0.win 7).blk t).view.set ↔ ∀ a : Fin 2, win0_7.index t a * S1000x256.size a ≤ (i a).val ∧ (i a).val < win0_7.index t a * S1000x256.size a + S1000x256.size a := by
  show i ∈ ((View.whole main_v1_2).slice (win0_7.rect t)).set ↔ _
  rw [View.set_slice_whole, Rect.mem_set_unit]
  exact Iff.rfl

/-- Row `r` of the array is in the block of point `r / 1000`. -/
theorem a_cover0_7 (i : S10000x256.Idx) : ∃ t : Fin cfg0.N, (cfg0.win 7).flush t = true ∧ i ∈ ((cfg0.win 7).blk t).view.set := by
  have hi0 : (i 0).val < 10000 := (i 0).isLt
  have hi1 : (i 1).val < 256 := (i 1).isLt
  have hN : cfg0.N = 10 := N_0
  have ht : (i 0).val / 1000 < cfg0.N := by rw [hN]; omega
  refine ⟨⟨(i 0).val / 1000, ht⟩, flush0_7 _, ?_⟩
  rw [a_mem_blk0_7]
  obtain ⟨-, -, -, -, -, -, -, ⟨e0, e1⟩⟩ := a_idx0 ⟨(i 0).val / 1000, ht⟩
  intro a
  match a with
  | ⟨0, _⟩ =>
    show win0_7.index _ (0 : Fin 2) * 1000 ≤ (i 0).val ∧ (i 0).val < win0_7.index _ (0 : Fin 2) * 1000 + 1000
    rw [e0]
    show (i 0).val / 1000 * 1000 ≤ (i 0).val ∧ (i 0).val < (i 0).val / 1000 * 1000 + 1000
    omega
  | ⟨1, _⟩ =>
    show win0_7.index _ (1 : Fin 2) * 256 ≤ (i 1).val ∧ (i 1).val < win0_7.index _ (1 : Fin 2) * 256 + 256
    rw [e1]; omega

/-- The output array after the region: the projection of the region-entry arrays. -/
theorem final0_7 (c : Dev nD) : (dat0 (F := Ideal) V c).arrAt 7 cfg0.N = Cert.Spec.mm (V c main_arg0) (V c main_arg12) :=
  (dat0 (F := Ideal) V c).arrAt_eq_of_cover 7 _ (fun t _ => a_flushed0_7 V c t) a_cover0_7

/-! ## Region 2: the edge projections, 160 blocks of 1000 rows -/

/-- The index maps over the grid: every row window (the row inputs and the three outputs) is at block `(t, 0)`, the
    weight and bias windows at block `(0, 0)`. -/
theorem a_idx2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0)
    ∧ (win2_9.index t (0 : Fin 2) = t.val ∧ win2_9.index t (1 : Fin 2) = 0) :=
  (by decide +kernel : ∀ t : Fin grid2.N, _)

/-- Row `x 0` of window 0's block at point `t` is row `1000 t + x 0` of its array. -/
theorem a_iblk2_0 (c : Dev nD) (t : Fin cfg2.N) (x : S1000x256.Idx) (k : S160000x256.Idx)
    (hk0 : (k 0).val = 1000 * t.val + (x 0).val) (hk1 : (k 1).val = (x 1).val) :
    (iblk2 V c 0 t : Vec Ideal S1000x256 .f32) x = (V c main_arg1 : S160000x256.Idx → EReal) k := by
  obtain ⟨⟨e0, e1⟩, -⟩ := a_idx2 t
  unfold iblk2
  rw [View.read_apply]
  show V c main_arg1 _ = V c main_arg1 _
  refine congrArg (V c main_arg1) (funext fun a => Fin.ext ?_)
  match a with
  | ⟨0, _⟩ => show win2_0.index t (0 : Fin 2) * 1000 + 1 * (x 0).val = (k 0).val; rw [e0, hk0]; omega
  | ⟨1, _⟩ => show win2_0.index t (1 : Fin 2) * 256 + 1 * (x 1).val = (k 1).val; rw [e1, hk1]; omega

/-- Window 1's block is its whole array at every point. -/
theorem a_iblk2_1 (c : Dev nD) (t : Fin cfg2.N) :
    (iblk2 V c 1 t : Vec Ideal S256x256 .f32) = (V c main_arg23 : S256x256.Idx → EReal) := by
  obtain ⟨-, ⟨e0, e1⟩, -⟩ := a_idx2 t
  funext x
  unfold iblk2
  rw [View.read_apply]
  show V c main_arg23 _ = V c main_arg23 _
  refine congrArg (V c main_arg23) (funext fun a => Fin.ext ?_)
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega

/-- Window 2's block is its whole array at every point. -/
theorem a_iblk2_2 (c : Dev nD) (t : Fin cfg2.N) :
    (iblk2 V c 2 t : Vec Ideal S1x256 .f32) = (V c main_v70 : S1x256.Idx → EReal) := by
  obtain ⟨-, -, ⟨e0, e1⟩, -⟩ := a_idx2 t
  funext x
  unfold iblk2
  rw [View.read_apply]
  show V c main_v70 _ = V c main_v70 _
  refine congrArg (V c main_v70) (funext fun a => Fin.ext ?_)
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- Window 3's block is its whole array at every point. -/
theorem a_iblk2_3 (c : Dev nD) (t : Fin cfg2.N) :
    (iblk2 V c 3 t : Vec Ideal S256x256 .f32) = (V c main_arg25 : S256x256.Idx → EReal) := by
  obtain ⟨-, -, -, ⟨e0, e1⟩, -⟩ := a_idx2 t
  funext x
  unfold iblk2
  rw [View.read_apply]
  show V c main_arg25 _ = V c main_arg25 _
  refine congrArg (V c main_arg25) (funext fun a => Fin.ext ?_)
  match a with
  | ⟨0, _⟩ => show win2_3.index t (0 : Fin 2) * 256 + 1 * (x 0).val = (x 0).val; rw [e0]; omega
  | ⟨1, _⟩ => show win2_3.index t (1 : Fin 2) * 256 + 1 * (x 1).val = (x 1).val; rw [e1]; omega

/-- Window 4's block is its whole array at every point. -/
theorem a_iblk2_4 (c : Dev nD) (t : Fin cfg2.N) :
    (iblk2 V c 4 t : Vec Ideal S256x256 .f32) = (V c main_arg26 : S256x256.Idx → EReal) := by
  obtain ⟨-, -, -, -, ⟨e0, e1⟩, -⟩ := a_idx2 t
  funext x
  unfold iblk2
  rw [View.read_apply]
  show V c main_arg26 _ = V c main_arg26 _
  refine congrArg (V c main_arg26) (funext fun a => Fin.ext ?_)
  match a with
  | ⟨0, _⟩ => show win2_4.index t (0 : Fin 2) * 256 + 1 * (x 0).val = (x 0).val; rw [e0]; omega
  | ⟨1, _⟩ => show win2_4.index t (1 : Fin 2) * 256 + 1 * (x 1).val = (x 1).val; rw [e1]; omega

/-- Row `x 0` of window 5's block at point `t` is row `1000 t + x 0` of its array. -/
theorem a_iblk2_5 (c : Dev nD) (t : Fin cfg2.N) (x : S1000x256.Idx) (k : S160000x256.Idx)
    (hk0 : (k 0).val = 1000 * t.val + (x 0).val) (hk1 : (k 1).val = (x 1).val) :
    (iblk2 V c 5 t : Vec Ideal S1000x256 .f32) x = (V c main_v62 : S160000x256.Idx → EReal) k := by
  obtain ⟨-, -, -, -, -, ⟨e0, e1⟩, -⟩ := a_idx2 t
  unfold iblk2
  rw [View.read_apply]
  show V c main_v62 _ = V c main_v62 _
  refine congrArg (V c main_v62) (funext fun a => Fin.ext ?_)
  match a with
  | ⟨0, _⟩ => show win2_5.index t (0 : Fin 2) * 1000 + 1 * (x 0).val = (k 0).val; rw [e0, hk0]; omega
  | ⟨1, _⟩ => show win2_5.index t (1 : Fin 2) * 256 + 1 * (x 1).val = (k 1).val; rw [e1, hk1]; omega

/-- Row `x 0` of window 6's block at point `t` is row `1000 t + x 0` of its array. -/
theorem a_iblk2_6 (c : Dev nD) (t : Fin cfg2.N) (x : S1000x256.Idx) (k : S160000x256.Idx)
    (hk0 : (k 0).val = 1000 * t.val + (x 0).val) (hk1 : (k 1).val = (x 1).val) :
    (iblk2 V c 6 t : Vec Ideal S1000x256 .f32) x = (V c main_v69 : S160000x256.Idx → EReal) k := by
  obtain ⟨-, -, -, -, -, -, ⟨e0, e1⟩, -⟩ := a_idx2 t
  unfold iblk2
  rw [View.read_apply]
  show V c main_v69 _ = V c main_v69 _
  refine congrArg (V c main_v69) (funext fun a => Fin.ext ?_)
  match a with
  | ⟨0, _⟩ => show win2_6.index t (0 : Fin 2) * 1000 + 1 * (x 0).val = (k 0).val; rw [e0, hk0]; omega
  | ⟨1, _⟩ => show win2_6.index t (1 : Fin 2) * 256 + 1 * (x 1).val = (k 1).val; rw [e1, hk1]; omega

/-- What point `t` writes back through window 7 is block `t` of the projection of the whole arrays. -/
theorem a_flushed2_7 (c : Dev nD) (t : Fin cfg2.N) :
    (dat2 (F := Ideal) V c).flushed 7 t = ((cfg2.win 7).blk t).view.read (Elt Ideal) (Cert.Spec.qProjE (R := 160000) (V c main_arg1) (V c main_arg23) (V c main_v70) (V c main_v62)) := by
  show (cfg2.win 7).cut (grid2.coords t) ((dat2 V c).after 7 t) = _
  rw [after2_7]
  unfold out2_7
  rw [View.canon_unit_zero a_hz]
  simp only [View.ld_unit_zero (S := S1000x256) a_hz, View.ld_unit_zero (S := S256x256) a_hz, View.ld_unit_zero (S := S1x256) a_hz]
  rw [Cert.KernelPay.k2_pay1_eq, a_iblk2_1 V c t, a_iblk2_2 V c t]
  obtain ⟨-, -, -, -, -, -, -, ⟨e0, e1⟩, -⟩ := a_idx2 t
  funext j
  show Cert.Spec.qProjE (R := 1000) (iblk2 V c 0 t) (V c main_arg23) (V c main_v70) (iblk2 V c 5 t) j = Cert.Spec.qProjE (R := 160000) (V c main_arg1) (V c main_arg23) (V c main_v70) (V c main_v62) (((cfg2.win 7).blk t).view.emb j)
  have h0 : ((((cfg2.win 7).blk t).view.emb j) 0).val = 1000 * t.val + (j 0).val := by
    show win2_7.index t (0 : Fin 2) * 1000 + 1 * (j 0).val = 1000 * t.val + (j 0).val
    rw [e0]; omega
  have h1 : ((((cfg2.win 7).blk t).view.emb j) 1).val = (j 1).val := by
    show win2_7.index t (1 : Fin 2) * 256 + 1 * (j 1).val = (j 1).val
    rw [e1]; omega
  refine a_qProjE_rows (V c main_arg1) (V c main_arg23) (V c main_v70) (V c main_v62) (iblk2 V c 0 t) (iblk2 V c 5 t) j (((cfg2.win 7).blk t).view.emb j) h1 (fun k => ?_) ?_
  · exact a_iblk2_0 V c t (ix2 (j 0) k) (ix2 ((((cfg2.win 7).blk t).view.emb j) 0) k) h0 rfl
  · exact a_iblk2_5 V c t j (((cfg2.win 7).blk t).view.emb j) h0 h1

/-- An index of the array is in point `t`'s block iff each coordinate is in the block's range on its axis. -/
theorem a_mem_blk2_7 (t : Fin cfg2.N) (i : S160000x256.Idx) :
    i ∈ ((cfg2.win 7).blk t).view.set ↔ ∀ a : Fin 2, win2_7.index t a * S1000x256.size a ≤ (i a).val ∧ (i a).val < win2_7.index t a * S1000x256.size a + S1000x256.size a := by
  show i ∈ ((View.whole main_v71_0).slice (win2_7.rect t)).set ↔ _
  rw [View.set_slice_whole, Rect.mem_set_unit]
  exact Iff.rfl

/-- Row `r` of the array is in the block of point `r / 1000`. -/
theorem a_cover2_7 (i : S160000x256.Idx) : ∃ t : Fin cfg2.N, (cfg2.win 7).flush t = true ∧ i ∈ ((cfg2.win 7).blk t).view.set := by
  have hi0 : (i 0).val < 160000 := (i 0).isLt
  have hi1 : (i 1).val < 256 := (i 1).isLt
  have hN : cfg2.N = 160 := N_2
  have ht : (i 0).val / 1000 < cfg2.N := by rw [hN]; omega
  refine ⟨⟨(i 0).val / 1000, ht⟩, flush2_7 _, ?_⟩
  rw [a_mem_blk2_7]
  obtain ⟨-, -, -, -, -, -, -, ⟨e0, e1⟩, -⟩ := a_idx2 ⟨(i 0).val / 1000, ht⟩
  intro a
  match a with
  | ⟨0, _⟩ =>
    show win2_7.index _ (0 : Fin 2) * 1000 ≤ (i 0).val ∧ (i 0).val < win2_7.index _ (0 : Fin 2) * 1000 + 1000
    rw [e0]
    show (i 0).val / 1000 * 1000 ≤ (i 0).val ∧ (i 0).val < (i 0).val / 1000 * 1000 + 1000
    omega
  | ⟨1, _⟩ =>
    show win2_7.index _ (1 : Fin 2) * 256 ≤ (i 1).val ∧ (i 1).val < win2_7.index _ (1 : Fin 2) * 256 + 256
    rw [e1]; omega

/-- The output array after the region: the projection of the region-entry arrays. -/
theorem final2_7 (c : Dev nD) : (dat2 (F := Ideal) V c).arrAt 7 cfg2.N = Cert.Spec.qProjE (R := 160000) (V c main_arg1) (V c main_arg23) (V c main_v70) (V c main_v62) :=
  (dat2 (F := Ideal) V c).arrAt_eq_of_cover 7 _ (fun t _ => a_flushed2_7 V c t) a_cover2_7

/-- What point `t` writes back through window 8 is block `t` of the projection of the whole arrays. -/
theorem a_flushed2_8 (c : Dev nD) (t : Fin cfg2.N) :
    (dat2 (F := Ideal) V c).flushed 8 t = ((cfg2.win 8).blk t).view.read (Elt Ideal) (Cert.Spec.mm (V c main_arg1) (V c main_arg25)) := by
  show (cfg2.win 8).cut (grid2.coords t) ((dat2 V c).after 8 t) = _
  rw [after2_8]
  unfold out2_8
  rw [View.canon_unit_zero a_hz]
  simp only [View.ld_unit_zero (S := S1000x256) a_hz, View.ld_unit_zero (S := S256x256) a_hz, View.ld_unit_zero (S := S1x256) a_hz]
  rw [Cert.KernelPay.k2_pay2_eq, a_iblk2_3 V c t]
  obtain ⟨-, -, -, -, -, -, -, -, ⟨e0, e1⟩, -⟩ := a_idx2 t
  funext j
  show Cert.Spec.mm (iblk2 V c 0 t) (V c main_arg25) j = Cert.Spec.mm (V c main_arg1) (V c main_arg25) (((cfg2.win 8).blk t).view.emb j)
  have h0 : ((((cfg2.win 8).blk t).view.emb j) 0).val = 1000 * t.val + (j 0).val := by
    show win2_8.index t (0 : Fin 2) * 1000 + 1 * (j 0).val = 1000 * t.val + (j 0).val
    rw [e0]; omega
  have h1 : ((((cfg2.win 8).blk t).view.emb j) 1).val = (j 1).val := by
    show win2_8.index t (1 : Fin 2) * 256 + 1 * (j 1).val = (j 1).val
    rw [e1]; omega
  refine a_mm_rows (V c main_arg1) (V c main_arg25) (iblk2 V c 0 t) j (((cfg2.win 8).blk t).view.emb j) h1 (fun k => ?_)
  · exact a_iblk2_0 V c t (ix2 (j 0) k) (ix2 ((((cfg2.win 8).blk t).view.emb j) 0) k) h0 rfl

/-- An index of the array is in point `t`'s block iff each coordinate is in the block's range on its axis. -/
theorem a_mem_blk2_8 (t : Fin cfg2.N) (i : S160000x256.Idx) :
    i ∈ ((cfg2.win 8).blk t).view.set ↔ ∀ a : Fin 2, win2_8.index t a * S1000x256.size a ≤ (i a).val ∧ (i a).val < win2_8.index t a * S1000x256.size a + S1000x256.size a := by
  show i ∈ ((View.whole main_v71_1).slice (win2_8.rect t)).set ↔ _
  rw [View.set_slice_whole, Rect.mem_set_unit]
  exact Iff.rfl

/-- Row `r` of the array is in the block of point `r / 1000`. -/
theorem a_cover2_8 (i : S160000x256.Idx) : ∃ t : Fin cfg2.N, (cfg2.win 8).flush t = true ∧ i ∈ ((cfg2.win 8).blk t).view.set := by
  have hi0 : (i 0).val < 160000 := (i 0).isLt
  have hi1 : (i 1).val < 256 := (i 1).isLt
  have hN : cfg2.N = 160 := N_2
  have ht : (i 0).val / 1000 < cfg2.N := by rw [hN]; omega
  refine ⟨⟨(i 0).val / 1000, ht⟩, flush2_8 _, ?_⟩
  rw [a_mem_blk2_8]
  obtain ⟨-, -, -, -, -, -, -, -, ⟨e0, e1⟩, -⟩ := a_idx2 ⟨(i 0).val / 1000, ht⟩
  intro a
  match a with
  | ⟨0, _⟩ =>
    show win2_8.index _ (0 : Fin 2) * 1000 ≤ (i 0).val ∧ (i 0).val < win2_8.index _ (0 : Fin 2) * 1000 + 1000
    rw [e0]
    show (i 0).val / 1000 * 1000 ≤ (i 0).val ∧ (i 0).val < (i 0).val / 1000 * 1000 + 1000
    omega
  | ⟨1, _⟩ =>
    show win2_8.index _ (1 : Fin 2) * 256 ≤ (i 1).val ∧ (i 1).val < win2_8.index _ (1 : Fin 2) * 256 + 256
    rw [e1]; omega

/-- The output array after the region: the projection of the region-entry arrays. -/
theorem final2_8 (c : Dev nD) : (dat2 (F := Ideal) V c).arrAt 8 cfg2.N = Cert.Spec.mm (V c main_arg1) (V c main_arg25) :=
  (dat2 (F := Ideal) V c).arrAt_eq_of_cover 8 _ (fun t _ => a_flushed2_8 V c t) a_cover2_8

/-- What point `t` writes back through window 9 is block `t` of the projection of the whole arrays. -/
theorem a_flushed2_9 (c : Dev nD) (t : Fin cfg2.N) :
    (dat2 (F := Ideal) V c).flushed 9 t = ((cfg2.win 9).blk t).view.read (Elt Ideal) (Cert.Spec.vProjE (R := 160000) (V c main_arg1) (V c main_arg26) (V c main_v69)) := by
  show (cfg2.win 9).cut (grid2.coords t) ((dat2 V c).after 9 t) = _
  rw [after2_9]
  unfold out2_9
  rw [View.canon_unit_zero a_hz]
  simp only [View.ld_unit_zero (S := S1000x256) a_hz, View.ld_unit_zero (S := S256x256) a_hz, View.ld_unit_zero (S := S1x256) a_hz]
  rw [Cert.KernelPay.k2_pay3_eq, a_iblk2_4 V c t]
  obtain ⟨-, -, -, -, -, -, -, -, -, ⟨e0, e1⟩⟩ := a_idx2 t
  funext j
  show Cert.Spec.vProjE (R := 1000) (iblk2 V c 0 t) (V c main_arg26) (iblk2 V c 6 t) j = Cert.Spec.vProjE (R := 160000) (V c main_arg1) (V c main_arg26) (V c main_v69) (((cfg2.win 9).blk t).view.emb j)
  have h0 : ((((cfg2.win 9).blk t).view.emb j) 0).val = 1000 * t.val + (j 0).val := by
    show win2_9.index t (0 : Fin 2) * 1000 + 1 * (j 0).val = 1000 * t.val + (j 0).val
    rw [e0]; omega
  have h1 : ((((cfg2.win 9).blk t).view.emb j) 1).val = (j 1).val := by
    show win2_9.index t (1 : Fin 2) * 256 + 1 * (j 1).val = (j 1).val
    rw [e1]; omega
  refine a_vProjE_rows (V c main_arg1) (V c main_arg26) (V c main_v69) (iblk2 V c 0 t) (iblk2 V c 6 t) j (((cfg2.win 9).blk t).view.emb j) h1 (fun k => ?_) ?_
  · exact a_iblk2_0 V c t (ix2 (j 0) k) (ix2 ((((cfg2.win 9).blk t).view.emb j) 0) k) h0 rfl
  · exact a_iblk2_6 V c t j (((cfg2.win 9).blk t).view.emb j) h0 h1

/-- An index of the array is in point `t`'s block iff each coordinate is in the block's range on its axis. -/
theorem a_mem_blk2_9 (t : Fin cfg2.N) (i : S160000x256.Idx) :
    i ∈ ((cfg2.win 9).blk t).view.set ↔ ∀ a : Fin 2, win2_9.index t a * S1000x256.size a ≤ (i a).val ∧ (i a).val < win2_9.index t a * S1000x256.size a + S1000x256.size a := by
  show i ∈ ((View.whole main_v71_2).slice (win2_9.rect t)).set ↔ _
  rw [View.set_slice_whole, Rect.mem_set_unit]
  exact Iff.rfl

/-- Row `r` of the array is in the block of point `r / 1000`. -/
theorem a_cover2_9 (i : S160000x256.Idx) : ∃ t : Fin cfg2.N, (cfg2.win 9).flush t = true ∧ i ∈ ((cfg2.win 9).blk t).view.set := by
  have hi0 : (i 0).val < 160000 := (i 0).isLt
  have hi1 : (i 1).val < 256 := (i 1).isLt
  have hN : cfg2.N = 160 := N_2
  have ht : (i 0).val / 1000 < cfg2.N := by rw [hN]; omega
  refine ⟨⟨(i 0).val / 1000, ht⟩, flush2_9 _, ?_⟩
  rw [a_mem_blk2_9]
  obtain ⟨-, -, -, -, -, -, -, -, -, ⟨e0, e1⟩⟩ := a_idx2 ⟨(i 0).val / 1000, ht⟩
  intro a
  match a with
  | ⟨0, _⟩ =>
    show win2_9.index _ (0 : Fin 2) * 1000 ≤ (i 0).val ∧ (i 0).val < win2_9.index _ (0 : Fin 2) * 1000 + 1000
    rw [e0]
    show (i 0).val / 1000 * 1000 ≤ (i 0).val ∧ (i 0).val < (i 0).val / 1000 * 1000 + 1000
    omega
  | ⟨1, _⟩ =>
    show win2_9.index _ (1 : Fin 2) * 256 ≤ (i 1).val ∧ (i 1).val < win2_9.index _ (1 : Fin 2) * 256 + 256
    rw [e1]; omega

/-- The output array after the region: the projection of the region-entry arrays. -/
theorem final2_9 (c : Dev nD) : (dat2 (F := Ideal) V c).arrAt 9 cfg2.N = Cert.Spec.vProjE (R := 160000) (V c main_arg1) (V c main_arg26) (V c main_v69) :=
  (dat2 (F := Ideal) V c).arrAt_eq_of_cover 9 _ (fun t _ => a_flushed2_9 V c t) a_cover2_9

end Cert.Blocks02

end
-- ==== Proof.Blocks13.lean ====
/-
  The two feed-forward block regions, from blocks to the whole array.

  Each region runs the block body on consecutive blocks of 1000 rows: point `t` reads rows `1000 t … 1000 t + 999` of
  the two row-indexed operands and the ten weight and bias arrays whole, and writes rows `1000 t … 1000 t + 999` of the
  result. The block function computes each row of its result from the same row of its two row-indexed operands, so the
  block function of the blocks at `t` is block `t` of the block function of the whole arrays; the blocks of the points
  cover all rows, hence the result array ends holding the block function of the arrays the region found. The body's
  payload being the block function on a block of 1000 rows is a hypothesis here.
-/
import proofs.«178388_j2224793059900_1_alg».proof.Proof.Gen.KernelIdeal.Frame
import proofs.«178388_j2224793059900_1_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Blocks13

open Cert.KernelIdeal Cert.KernelIdeal.Gen

/-- The zero offsets, however spelt. -/
theorem d_hz : (![0, 0] : Fin 2 → Nat) = fun _ => 0 := funext fun a => by fin_cases a <;> rfl

/-- The block function reads one row of its two row-indexed operands: operands that agree on the rows two indices
    name (and equal weights), at indices with the same column, give the same value. -/
theorem d_blockOut_congr {R R' : ℕ} (res o : Cert.Spec.Mat R 256) (res' o' : Cert.Spec.Mat R' 256)
    {Wo Wo' : Cert.Spec.Mat 256 256} {bo bo' g1 g1' b1 b1' : Cert.Spec.Mat 1 256} {W1 W1' : Cert.Spec.Mat 256 1024}
    {b1f b1f' : Cert.Spec.Mat 1 1024} {W2 W2' : Cert.Spec.Mat 1024 256} {b2f b2f' g2 g2' b2 b2' : Cert.Spec.Mat 1 256}
    (hWo : Wo = Wo') (hbo : bo = bo') (hg1 : g1 = g1') (hb1 : b1 = b1') (hW1 : W1 = W1') (hb1f : b1f = b1f')
    (hW2 : W2 = W2') (hb2f : b2f = b2f') (hg2 : g2 = g2') (hb2 : b2 = b2')
    (j : (⟨2, ![R, 256]⟩ : Shape).Idx) (j' : (⟨2, ![R', 256]⟩ : Shape).Idx)
    (hres : ∀ k : Fin 256, res (ix2 (j 0) k) = res' (ix2 (j' 0) k))
    (ho : ∀ k : Fin 256, o (ix2 (j 0) k) = o' (ix2 (j' 0) k))
    (h1 : (j 1 : Fin 256) = (j' 1 : Fin 256)) :
    Cert.Spec.blockOut res o Wo bo g1 b1 W1 b1f W2 b2f g2 b2 j = Cert.Spec.blockOut res' o' Wo' bo' g1' b1' W1' b1f' W2' b2f' g2' b2' j' := by
  subst hWo hbo hg1 hb1 hW1 hb1f hW2 hb2f hg2 hb2
  unfold Cert.Spec.blockOut
  rw [funext hres, funext ho, h1]

/-! ## Region 1: the feed-forward block on blocks of 1000 rows of 10000 -/

section Region1

variable (V : (c : Dev nD) → (b : Ref sig .tc) → Buf (Elt Ideal) ((c : Thread nD τ).loc b))

/-- Window 0's block index at a point, decided over the grid: the point's number along the rows, zero along the columns. -/
theorem d_idx1_0 : ∀ t : Fin cfg1.N, win1_0.index t (0 : Fin 2) = t.val ∧ win1_0.index t (1 : Fin 2) = 0 :=
  (by decide +kernel : ∀ t : Fin grid1.N, _)

/-- Window 1's block index at a point, decided over the grid: the point's number along the rows, zero along the columns. -/
theorem d_idx1_1 : ∀ t : Fin cfg1.N, win1_1.index t (0 : Fin 2) = t.val ∧ win1_1.index t (1 : Fin 2) = 0 :=
  (by decide +kernel : ∀ t : Fin grid1.N, _)

/-- Window 2's block index at a point, decided over the grid: zero along the rows, zero along the columns. -/
theorem d_idx1_2 : ∀ t : Fin cfg1.N, win1_2.index t (0 : Fin 2) = 0 ∧ win1_2.index t (1 : Fin 2) = 0 :=
  (by decide +kernel : ∀ t : Fin grid1.N, _)

/-- Window 3's block index at a point, decided over the grid: zero along the rows, zero along the columns. -/
theorem d_idx1_3 : ∀ t : Fin cfg1.N, win1_3.index t (0 : Fin 2) = 0 ∧ win1_3.index t (1 : Fin 2) = 0 :=
  (by decide +kernel : ∀ t : Fin grid1.N, _)

/-- Window 4's block index at a point, decided over the grid: zero along the rows, zero along the columns. -/
theorem d_idx1_4 : ∀ t : Fin cfg1.N, win1_4.index t (0 : Fin 2) = 0 ∧ win1_4.index t (1 : Fin 2) = 0 :=
  (by decide +kernel : ∀ t : Fin grid1.N, _)

/-- Window 5's block index at a point, decided over the grid: zero along the rows, zero along the columns. -/
theorem d_idx1_5 : ∀ t : Fin cfg1.N, win1_5.index t (0 : Fin 2) = 0 ∧ win1_5.index t (1 : Fin 2) = 0 :=
  (by decide +kernel : ∀ t : Fin grid1.N, _)

/-- Window 6's block index at a point, decided over the grid: zero along the rows, zero along the columns. -/
theorem d_idx1_6 : ∀ t : Fin cfg1.N, win1_6.index t (0 : Fin 2) = 0 ∧ win1_6.index t (1 : Fin 2) = 0 :=
  (by decide +kernel : ∀ t : Fin grid1.N, _)

/-- Window 7's block index at a point, decided over the grid: zero along the rows, zero along the columns. -/
theorem d_idx1_7 : ∀ t : Fin cfg1.N, win1_7.index t (0 : Fin 2) = 0 ∧ win1_7.index t (1 : Fin 2) = 0 :=
  (by decide +kernel : ∀ t : Fin grid1.N, _)

/-- Window 8's block index at a point, decided over the grid: zero along the rows, zero along the columns. -/
theorem d_idx1_8 : ∀ t : Fin cfg1.N, win1_8.index t (0 : Fin 2) = 0 ∧ win1_8.index t (1 : Fin 2) = 0 :=
  (by decide +kernel : ∀ t : Fin grid1.N, _)

/-- Window 9's block index at a point, decided over the grid: zero along the rows, zero along the columns. -/
theorem d_idx1_9 : ∀ t : Fin cfg1.N, win1_9.index t (0 : Fin 2) = 0 ∧ win1_9.index t (1 : Fin 2) = 0 :=
  (by decide +kernel : ∀ t : Fin grid1.N, _)

/-- Window 10's block index at a point, decided over the grid: zero along the rows, zero along the columns. -/
theorem d_idx1_10 : ∀ t : Fin cfg1.N, win1_10.index t (0 : Fin 2) = 0 ∧ win1_10.index t (1 : Fin 2) = 0 :=
  (by decide +kernel : ∀ t : Fin grid1.N, _)

/-- Window 11's block index at a point, decided over the grid: zero along the rows, zero along the columns. -/
theorem d_idx1_11 : ∀ t : Fin cfg1.N, win1_11.index t (0 : Fin 2) = 0 ∧ win1_11.index t (1 : Fin 2) = 0 :=
  (by decide +kernel : ∀ t : Fin grid1.N, _)

/-- Window 12's block index at a point, decided over the grid: the point's number along the rows, zero along the columns. -/
theorem d_idx1_12 : ∀ t : Fin cfg1.N, win1_12.index t (0 : Fin 2) = t.val ∧ win1_12.index t (1 : Fin 2) = 0 :=
  (by decide +kernel : ∀ t : Fin grid1.N, _)

/-- Row `p` of window 0's block at point `t` is row `1000 t + p` of its array. -/
theorem d_rows1_0 (c : Dev nD) (t : Fin cfg1.N) (x : S1000x256.Idx) (k : S10000x256.Idx)
    (hk0 : (k 0).val = 1000 * t.val + (x 0).val) (hk1 : (k 1).val = (x 1).val) :
    (iblk1 V c 0 t : Vec Ideal S1000x256 .f32) x = (V c main_arg0 : S10000x256.Idx → Elt Ideal .f32) k := by
  obtain ⟨e0, e1⟩ := d_idx1_0 t
  unfold iblk1
  rw [View.read_apply]
  show V c main_arg0 _ = V c main_arg0 _
  congr 1
  funext a
  apply Fin.ext
  match a with
  | ⟨0, _⟩ => show win1_0.index t (0 : Fin 2) * 1000 + 1 * (x 0).val = (k 0).val; rw [e0, hk0]; omega
  | ⟨1, _⟩ => show win1_0.index t (1 : Fin 2) * 256 + 1 * (x 1).val = (k 1).val; rw [e1, hk1]; omega

/-- Row `p` of window 1's block at point `t` is row `1000 t + p` of its array. -/
theorem d_rows1_1 (c : Dev nD) (t : Fin cfg1.N) (x : S1000x256.Idx) (k : S10000x256.Idx)
    (hk0 : (k 0).val = 1000 * t.val + (x 0).val) (hk1 : (k 1).val = (x 1).val) :
    (iblk1 V c 1 t : Vec Ideal S1000x256 .f32) x = (V c main_v47 : S10000x256.Idx → Elt Ideal .f32) k := by
  obtain ⟨e0, e1⟩ := d_idx1_1 t
  unfold iblk1
  rw [View.read_apply]
  show V c main_v47 _ = V c main_v47 _
  congr 1
  funext a
  apply Fin.ext
  match a with
  | ⟨0, _⟩ => show win1_1.index t (0 : Fin 2) * 1000 + 1 * (x 0).val = (k 0).val; rw [e0, hk0]; omega
  | ⟨1, _⟩ => show win1_1.index t (1 : Fin 2) * 256 + 1 * (x 1).val = (k 1).val; rw [e1, hk1]; omega

/-- Window 2's block at any point is its whole array. -/
theorem d_whole1_2 (c : Dev nD) (t : Fin cfg1.N) :
    (iblk1 V c 2 t : Vec Ideal S256x256 .f32) = (V c main_arg13 : S256x256.Idx → Elt Ideal .f32) := by
  obtain ⟨e0, e1⟩ := d_idx1_2 t
  funext x
  unfold iblk1
  rw [View.read_apply]
  show V c main_arg13 _ = V c main_arg13 x
  congr 1
  funext a
  apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- Window 3's block at any point is its whole array. -/
theorem d_whole1_3 (c : Dev nD) (t : Fin cfg1.N) :
    (iblk1 V c 3 t : Vec Ideal S1x256 .f32) = (V c main_v48 : S1x256.Idx → Elt Ideal .f32) := by
  obtain ⟨e0, e1⟩ := d_idx1_3 t
  funext x
  unfold iblk1
  rw [View.read_apply]
  show V c main_v48 _ = V c main_v48 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

/-- Window 4's block at any point is its whole array. -/
theorem d_whole1_4 (c : Dev nD) (t : Fin cfg1.N) :
    (iblk1 V c 4 t : Vec Ideal S1x256 .f32) = (V c main_v49 : S1x256.Idx → Elt Ideal .f32) := by
  obtain ⟨e0, e1⟩ := d_idx1_4 t
  funext x
  unfold iblk1
  rw [View.read_apply]
  show V c main_v49 _ = V c main_v49 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- Window 5's block at any point is its whole array. -/
theorem d_whole1_5 (c : Dev nD) (t : Fin cfg1.N) :
    (iblk1 V c 5 t : Vec Ideal S1x256 .f32) = (V c main_v50 : S1x256.Idx → Elt Ideal .f32) := by
  obtain ⟨e0, e1⟩ := d_idx1_5 t
  funext x
  unfold iblk1
  rw [View.read_apply]
  show V c main_v50 _ = V c main_v50 x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 256 + 1 * (x 1).val = (x 1).val; rw [e1]; omega

/-- Window 6's block at any point is its whole array. -/
theorem d_whole1_6 (c : Dev nD) (t : Fin cfg1.N) :
    (iblk1 V c 6 t : Vec Ideal S256x1024 .f32) = (V c main_arg17 : S256x1024.Idx → Elt Ideal .f32) := by
  obtain ⟨e0, e1⟩ := d_idx1_6 t
  funext x
  unfold iblk1
  rw [View.read_apply]
  show V c main_arg17 _ = V c main_arg17 x
  congr 1
  funext a
  apply Fin.ext
  match a with
  | ⟨0, _⟩ => show win1_6.index t (0 : Fin 2) * 256 + 1 * (x 0).val = (x 0).val; rw [e0]; omega
  | ⟨1, _⟩ => show win1_6.index t (1 : Fin 2) * 1024 + 1 * (x 1).val = (x 1).val; rw [e1]; omega

/-- Window 7's block at any point is its whole array. -/
theorem d_whole1_7 (c : Dev nD) (t : Fin cfg1.N) :
    (iblk1 V c 7 t : Vec Ideal S1x1024 .f32) = (V c main_v51 : S1x1024.Idx → Elt Ideal .f32) := by
  obtain ⟨e0, e1⟩ := d_idx1_7 t
  funext x
  unfold iblk1
  rw [View.read_apply]
  show V c main_v51 _ = V c main_v51 x
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 1024 + 1 * (x 1).val = (x 1).val; rw [e1]; omega

/-- Window 8's block at any point is its whole array. -/
theorem d_whole1_8 (c : Dev nD) (t : Fin cfg1.N) :
    (iblk1 V c 8 t : Vec Ideal S1024x256 .f32) = (V c main_arg19 : S1024x256.Idx → Elt Ideal .f32) := by
  obtain ⟨e0, e1⟩ := d_idx1_8 t
  funext x
  unfold iblk1
  rw [View.read_apply]
  show V c main_arg19 _ = V c main_arg19 x
  congr 1
  funext a
  apply Fin.ext
  match a with
  | ⟨0, _⟩ => show win1_8.index t (0 : Fin 2) * 1024 + 1 * (x 0).val = (x 0).val; rw [e0]; omega
  | ⟨1, _⟩ => show win1_8.index t (1 : Fin 2) * 256 + 1 * (x 1).val = (x 1).val; rw [e1]; omega

/-- Window 9's block at any point is its whole array. -/
theorem d_whole1_9 (c : Dev nD) (t : Fin cfg1.N) :
    (iblk1 V c 9 t : Vec Ideal S1x256 .f32) = (V c main_v54 : S1x256.Idx → Elt Ideal .f32) := by
  obtain ⟨e0, e1⟩ := d_idx1_9 t
  funext x
  unfold iblk1
  rw [View.read_apply]
  show V c main_v54 _ = V c main_v54 x
  congr 1
  funext a
  apply Fin.ext
  match a with
  | ⟨0, _⟩ => show win1_9.index t (0 : Fin 2) * 1 + 1 * (x 0).val = (x 0).val; rw [e0]; omega
  | ⟨1, _⟩ => show win1_9.index t (1 : Fin 2) * 256 + 1 * (x 1).val = (x 1).val; rw [e1]; omega

/-- Window 10's block at any point is its whole array. -/
theorem d_whole1_10 (c : Dev nD) (t : Fin cfg1.N) :
    (iblk1 V c 10 t : Vec Ideal S1x256 .f32) = (V c main_v52 : S1x256.Idx → Elt Ideal .f32) := by
  obtain ⟨e0, e1⟩ := d_idx1_10 t
  funext x
  unfold iblk1
  rw [View.read_apply]
  show V c main_v52 _ = V c main_v52 x
  congr 1
  funext a
  apply Fin.ext
  match a with
  | ⟨0, _⟩ => show win1_10.index t (0 : Fin 2) * 1 + 1 * (x 0).val = (x 0).val; rw [e0]; omega
  | ⟨1, _⟩ => show win1_10.index t (1 : Fin 2) * 256 + 1 * (x 1).val = (x 1).val; rw [e1]; omega

/-- Window 11's block at any point is its whole array. -/
theorem d_whole1_11 (c : Dev nD) (t : Fin cfg1.N) :
    (iblk1 V c 11 t : Vec Ideal S1x256 .f32) = (V c main_v53 : S1x256.Idx → Elt Ideal .f32) := by
  obtain ⟨e0, e1⟩ := d_idx1_11 t
  funext x
  unfold iblk1
  rw [View.read_apply]
  show V c main_v53 _ = V c main_v53 x
  congr 1
  funext a
  apply Fin.ext
  match a with
  | ⟨0, _⟩ => show win1_11.index t (0 : Fin 2) * 1 + 1 * (x 0).val = (x 0).val; rw [e0]; omega
  | ⟨1, _⟩ => show win1_11.index t (1 : Fin 2) * 256 + 1 * (x 1).val = (x 1).val; rw [e1]; omega

/-- What point `t` writes back is block `t` of the block function of the arrays as the region finds them. -/
theorem d_flushed1
    (hpay : ∀ (x0 x1 : Vec Ideal S1000x256 .f32) (x2 : Vec Ideal S256x256 .f32) (x3 x4 x5 : Vec Ideal S1x256 .f32) (x6 : Vec Ideal S256x1024 .f32)
      (x7 : Vec Ideal S1x1024 .f32) (x8 : Vec Ideal S1024x256 .f32) (x9 x10 x11 : Vec Ideal S1x256 .f32),
      k1_pay1 (F := Ideal) (k1_pay3 x11) (k1_pay4 (k1_pay2 x0 x1 x2 x3 x4 x5) x6 x7 x8 x9 x10) = Cert.Spec.blockOut (R := 1000) x0 x1 x2 x3 x4 x5 x6 x7 x8 x9 x10 x11)
    (c : Dev nD) (t : Fin cfg1.N) :
    (dat1 (F := Ideal) V c).flushed 12 t
      = ((cfg1.win 12).blk t).view.read (Elt Ideal) (Cert.Spec.blockOut (R := 10000) (V c main_arg0) (V c main_v47) (V c main_arg13) (V c main_v48) (V c main_v49) (V c main_v50) (V c main_arg17) (V c main_v51) (V c main_arg19) (V c main_v54) (V c main_v52) (V c main_v53)) := by
  show (cfg1.win 12).cut (grid1.coords t) ((dat1 (F := Ideal) V c).after 12 t) = _
  rw [after1_12]
  unfold out1_12
  rw [View.canon_unit_zero d_hz]
  simp only [View.ld_unit_zero (S := S1000x256) d_hz, View.ld_unit_zero (S := S256x256) d_hz, View.ld_unit_zero (S := S1x256) d_hz, View.ld_unit_zero (S := S256x1024) d_hz, View.ld_unit_zero (S := S1x1024) d_hz, View.ld_unit_zero (S := S1024x256) d_hz]
  rw [hpay]
  obtain ⟨e0, e1⟩ := d_idx1_12 t
  funext j
  show Cert.Spec.blockOut (R := 1000) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) ((cfg1.win 12).xinj (grid1.coords t) j)
      = Cert.Spec.blockOut (R := 10000) (V c main_arg0) (V c main_v47) (V c main_arg13) (V c main_v48) (V c main_v49) (V c main_v50) (V c main_arg17) (V c main_v51) (V c main_arg19) (V c main_v54) (V c main_v52) (V c main_v53) (((cfg1.win 12).blk t).view.emb j)
  refine d_blockOut_congr _ _ _ _ (d_whole1_2 V c t) (d_whole1_3 V c t) (d_whole1_4 V c t) (d_whole1_5 V c t) (d_whole1_6 V c t) (d_whole1_7 V c t) (d_whole1_8 V c t) (d_whole1_9 V c t) (d_whole1_10 V c t) (d_whole1_11 V c t) _ _ (fun k => ?_) (fun k => ?_)
    (Fin.ext (by show (j 1).val = win1_12.index t (1 : Fin 2) * 256 + 1 * (j 1).val; rw [e1]; omega))
  · exact d_rows1_0 V c t _ _ (by show win1_12.index t (0 : Fin 2) * 1000 + 1 * (j 0).val = 1000 * t.val + (j 0).val; rw [e0]; omega) rfl
  · exact d_rows1_1 V c t _ _ (by show win1_12.index t (0 : Fin 2) * 1000 + 1 * (j 0).val = 1000 * t.val + (j 0).val; rw [e0]; omega) rfl

/-- An index of the array is in point `t`'s block iff each coordinate is in the block's range on its axis. -/
theorem d_mem1 (t : Fin cfg1.N) (i : S10000x256.Idx) :
    i ∈ ((cfg1.win 12).blk t).view.set ↔ ∀ a : Fin 2, win1_12.index t a * S1000x256.size a ≤ (i a).val ∧ (i a).val < win1_12.index t a * S1000x256.size a + S1000x256.size a := by
  show i ∈ ((View.whole main_v55).slice (win1_12.rect t)).set ↔ _
  rw [View.set_slice_whole, Rect.mem_set_unit]
  exact Iff.rfl

/-- Every row of the array is in the block of the point numbered by the row over 1000. -/
theorem d_cover1 (i : S10000x256.Idx) : ∃ t : Fin cfg1.N, (cfg1.win 12).flush t = true ∧ i ∈ ((cfg1.win 12).blk t).view.set := by
  have hi0 : (i 0).val < 10000 := (i 0).isLt
  have hi1 : (i 1).val < 256 := (i 1).isLt
  have hN : (i 0).val / 1000 < cfg1.N := by rw [show cfg1.N = 10 from N_1]; omega
  refine ⟨⟨(i 0).val / 1000, hN⟩, flush1_12 _, ?_⟩
  rw [d_mem1]
  obtain ⟨e0, e1⟩ := d_idx1_12 ⟨(i 0).val / 1000, hN⟩
  have e0' : win1_12.index ⟨(i 0).val / 1000, hN⟩ (0 : Fin 2) = (i 0).val / 1000 := e0
  intro a
  match a with
  | ⟨0, _⟩ => show win1_12.index ⟨(i 0).val / 1000, hN⟩ (0 : Fin 2) * 1000 ≤ (i 0).val ∧ (i 0).val < win1_12.index ⟨(i 0).val / 1000, hN⟩ (0 : Fin 2) * 1000 + 1000; rw [e0']; omega
  | ⟨1, _⟩ => show win1_12.index ⟨(i 0).val / 1000, hN⟩ (1 : Fin 2) * 256 ≤ (i 1).val ∧ (i 1).val < win1_12.index ⟨(i 0).val / 1000, hN⟩ (1 : Fin 2) * 256 + 256; rw [e1]; omega

end Region1

/-! ## Region 3: the feed-forward block on blocks of 1000 rows of 160000 -/

section Region3

variable (V : (c : Dev nD) → (b : Ref sig .tc) → Buf (Elt Ideal) ((c : Thread nD τ).loc b))

/-- Window 0's block index at a point, decided over the grid: the point's number along the rows, zero along the columns. -/
theorem d_idx3_0 : ∀ t : Fin cfg3.N, win3_0.index t (0 : Fin 2) = t.val ∧ win3_0.index t (1 : Fin 2) = 0 :=
  (by decide +kernel : ∀ t : Fin grid3.N, _)

/-- Window 1's block index at a point, decided over the grid: the point's number along the rows, zero along the columns. -/
theorem d_idx3_1 : ∀ t : Fin cfg3.N, win3_1.index t (0 : Fin 2) = t.val ∧ win3_1.index t (1 : Fin 2) = 0 :=
  (by decide +kernel : ∀ t : Fin grid3.N, _)

/-- Window 2's block index at a point, decided over the grid: zero along the rows, zero along the columns. -/
theorem d_idx3_2 : ∀ t : Fin cfg3.N, win3_2.index t (0 : Fin 2) = 0 ∧ win3_2.index t (1 : Fin 2) = 0 :=
  (by decide +kernel : ∀ t : Fin grid3.N, _)

/-- Window 3's block index at a point, decided over the grid: zero along the rows, zero along the columns. -/
theorem d_idx3_3 : ∀ t : Fin cfg3.N, win3_3.index t (0 : Fin 2) = 0 ∧ win3_3.index t (1 : Fin 2) = 0 :=
  (by decide +kernel : ∀ t : Fin grid3.N, _)

/-- Window 4's block index at a point, decided over the grid: zero along the rows, zero along the columns. -/
theorem d_idx3_4 : ∀ t : Fin cfg3.N, win3_4.index t (0 : Fin 2) = 0 ∧ win3_4.index t (1 : Fin 2) = 0 :=
  (by decide +kernel : ∀ t : Fin grid3.N, _)

/-- Window 5's block index at a point, decided over the grid: zero along the rows, zero along the columns. -/
theorem d_idx3_5 : ∀ t : Fin cfg3.N, win3_5.index t (0 : Fin 2) = 0 ∧ win3_5.index t (1 : Fin 2) = 0 :=
  (by decide +kernel : ∀ t : Fin grid3.N, _)

/-- Window 6's block index at a point, decided over the grid: zero along the rows, zero along the columns. -/
theorem d_idx3_6 : ∀ t : Fin cfg3.N, win3_6.index t (0 : Fin 2) = 0 ∧ win3_6.index t (1 : Fin 2) = 0 :=
  (by decide +kernel : ∀ t : Fin grid3.N, _)

/-- Window 7's block index at a point, decided over the grid: zero along the rows, zero along the columns. -/
theorem d_idx3_7 : ∀ t : Fin cfg3.N, win3_7.index t (0 : Fin 2) = 0 ∧ win3_7.index t (1 : Fin 2) = 0 :=
  (by decide +kernel : ∀ t : Fin grid3.N, _)

/-- Window 8's block index at a point, decided over the grid: zero along the rows, zero along the columns. -/
theorem d_idx3_8 : ∀ t : Fin cfg3.N, win3_8.index t (0 : Fin 2) = 0 ∧ win3_8.index t (1 : Fin 2) = 0 :=
  (by decide +kernel : ∀ t : Fin grid3.N, _)

/-- Window 9's block index at a point, decided over the grid: zero along the rows, zero along the columns. -/
theorem d_idx3_9 : ∀ t : Fin cfg3.N, win3_9.index t (0 : Fin 2) = 0 ∧ win3_9.index t (1 : Fin 2) = 0 :=
  (by decide +kernel : ∀ t : Fin grid3.N, _)

/-- Window 10's block index at a point, decided over the grid: zero along the rows, zero along the columns. -/
theorem d_idx3_10 : ∀ t : Fin cfg3.N, win3_10.index t (0 : Fin 2) = 0 ∧ win3_10.index t (1 : Fin 2) = 0 :=
  (by decide +kernel : ∀ t : Fin grid3.N, _)

/-- Window 11's block index at a point, decided over the grid: zero along the rows, zero along the columns. -/
theorem d_idx3_11 : ∀ t : Fin cfg3.N, win3_11.index t (0 : Fin 2) = 0 ∧ win3_11.index t (1 : Fin 2) = 0 :=
  (by decide +kernel : ∀ t : Fin grid3.N, _)

/-- Window 12's block index at a point, decided over the grid: the point's number along the rows, zero along the columns. -/
theorem d_idx3_12 : ∀ t : Fin cfg3.N, win3_12.index t (0 : Fin 2) = t.val ∧ win3_12.index t (1 : Fin 2) = 0 :=
  (by decide +kernel : ∀ t : Fin grid3.N, _)

/-- Row `p` of window 0's block at point `t` is row `1000 t + p` of its array. -/
theorem d_rows3_0 (c : Dev nD) (t : Fin cfg3.N) (x : S1000x256.Idx) (k : S160000x256.Idx)
    (hk0 : (k 0).val = 1000 * t.val + (x 0).val) (hk1 : (k 1).val = (x 1).val) :
    (iblk3 V c 0 t : Vec Ideal S1000x256 .f32) x = (V c main_arg1 : S160000x256.Idx → Elt Ideal .f32) k := by
  obtain ⟨e0, e1⟩ := d_idx3_0 t
  unfold iblk3
  rw [View.read_apply]
  show V c main_arg1 _ = V c main_arg1 _
  congr 1
  funext a
  apply Fin.ext
  match a with
  | ⟨0, _⟩ => show win3_0.index t (0 : Fin 2) * 1000 + 1 * (x 0).val = (k 0).val; rw [e0, hk0]; omega
  | ⟨1, _⟩ => show win3_0.index t (1 : Fin 2) * 256 + 1 * (x 1).val = (k 1).val; rw [e1, hk1]; omega

/-- Row `p` of window 1's block at point `t` is row `1000 t + p` of its array. -/
theorem d_rows3_1 (c : Dev nD) (t : Fin cfg3.N) (x : S1000x256.Idx) (k : S160000x256.Idx)
    (hk0 : (k 0).val = 1000 * t.val + (x 0).val) (hk1 : (k 1).val = (x 1).val) :
    (iblk3 V c 1 t : Vec Ideal S1000x256 .f32) x = (V c main_v114 : S160000x256.Idx → Elt Ideal .f32) k := by
  obtain ⟨e0, e1⟩ := d_idx3_1 t
  unfold iblk3
  rw [View.read_apply]
  show V c main_v114 _ = V c main_v114 _
  congr 1
  funext a
  apply Fin.ext
  match a with
  | ⟨0, _⟩ => show win3_1.index t (0 : Fin 2) * 1000 + 1 * (x 0).val = (k 0).val; rw [e0, hk0]; omega
  | ⟨1, _⟩ => show win3_1.index t (1 : Fin 2) * 256 + 1 * (x 1).val = (k 1).val; rw [e1, hk1]; omega

/-- Window 2's block at any point is its whole array. -/
theorem d_whole3_2 (c : Dev nD) (t : Fin cfg3.N) :
    (iblk3 V c 2 t : Vec Ideal S256x256 .f32) = (V c main_arg27 : S256x256.Idx → Elt Ideal .f32) := by
  obtain ⟨e0, e1⟩ := d_idx3_2 t
  funext x
  unfold iblk3
  rw [View.read_apply]
  show V c main_arg27 _ = V c main_arg27 x
  congr 1
  funext a
  apply Fin.ext
  match a with
  | ⟨0, _⟩ => show win3_2.index t (0 : Fin 2) * 256 + 1 * (x 0).val = (x 0).val; rw [e0]; omega
  | ⟨1, _⟩ => show win3_2.index t (1 : Fin 2) * 256 + 1 * (x 1).val = (x 1).val; rw [e1]; omega

/-- Window 3's block at any point is its whole array. -/
theorem d_whole3_3 (c : Dev nD) (t : Fin cfg3.N) :
    (iblk3 V c 3 t : Vec Ideal S1x256 .f32) = (V c main_v115 : S1x256.Idx → Elt Ideal .f32) := by
  obtain ⟨e0, e1⟩ := d_idx3_3 t
  funext x
  unfold iblk3
  rw [View.read_apply]
  show V c main_v115 _ = V c main_v115 x
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 256 + 1 * (x 1).val = (x 1).val; rw [e1]; omega

/-- Window 4's block at any point is its whole array. -/
theorem d_whole3_4 (c : Dev nD) (t : Fin cfg3.N) :
    (iblk3 V c 4 t : Vec Ideal S1x256 .f32) = (V c main_v116 : S1x256.Idx → Elt Ideal .f32) := by
  obtain ⟨e0, e1⟩ := d_idx3_4 t
  funext x
  unfold iblk3
  rw [View.read_apply]
  show V c main_v116 _ = V c main_v116 x
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 256 + 1 * (x 1).val = (x 1).val; rw [e1]; omega

/-- Window 5's block at any point is its whole array. -/
theorem d_whole3_5 (c : Dev nD) (t : Fin cfg3.N) :
    (iblk3 V c 5 t : Vec Ideal S1x256 .f32) = (V c main_v117 : S1x256.Idx → Elt Ideal .f32) := by
  obtain ⟨e0, e1⟩ := d_idx3_5 t
  funext x
  unfold iblk3
  rw [View.read_apply]
  show V c main_v117 _ = V c main_v117 x
  congr 1
  funext a
  apply Fin.ext
  match a with
  | ⟨0, _⟩ => show win3_5.index t (0 : Fin 2) * 1 + 1 * (x 0).val = (x 0).val; rw [e0]; omega
  | ⟨1, _⟩ => show win3_5.index t (1 : Fin 2) * 256 + 1 * (x 1).val = (x 1).val; rw [e1]; omega

/-- Window 6's block at any point is its whole array. -/
theorem d_whole3_6 (c : Dev nD) (t : Fin cfg3.N) :
    (iblk3 V c 6 t : Vec Ideal S256x1024 .f32) = (V c main_arg31 : S256x1024.Idx → Elt Ideal .f32) := by
  obtain ⟨e0, e1⟩ := d_idx3_6 t
  funext x
  unfold iblk3
  rw [View.read_apply]
  show V c main_arg31 _ = V c main_arg31 x
  congr 1
  funext a
  apply Fin.ext
  match a with
  | ⟨0, _⟩ => show win3_6.index t (0 : Fin 2) * 256 + 1 * (x 0).val = (x 0).val; rw [e0]; omega
  | ⟨1, _⟩ => show win3_6.index t (1 : Fin 2) * 1024 + 1 * (x 1).val = (x 1).val; rw [e1]; omega

/-- Window 7's block at any point is its whole array. -/
theorem d_whole3_7 (c : Dev nD) (t : Fin cfg3.N) :
    (iblk3 V c 7 t : Vec Ideal S1x1024 .f32) = (V c main_v118 : S1x1024.Idx → Elt Ideal .f32) := by
  obtain ⟨e0, e1⟩ := d_idx3_7 t
  funext x
  unfold iblk3
  rw [View.read_apply]
  show V c main_v118 _ = V c main_v118 x
  congr 1
  funext a
  apply Fin.ext
  match a with
  | ⟨0, _⟩ => show win3_7.index t (0 : Fin 2) * 1 + 1 * (x 0).val = (x 0).val; rw [e0]; omega
  | ⟨1, _⟩ => show win3_7.index t (1 : Fin 2) * 1024 + 1 * (x 1).val = (x 1).val; rw [e1]; omega

/-- Window 8's block at any point is its whole array. -/
theorem d_whole3_8 (c : Dev nD) (t : Fin cfg3.N) :
    (iblk3 V c 8 t : Vec Ideal S1024x256 .f32) = (V c main_arg33 : S1024x256.Idx → Elt Ideal .f32) := by
  obtain ⟨e0, e1⟩ := d_idx3_8 t
  funext x
  unfold iblk3
  rw [View.read_apply]
  show V c main_arg33 _ = V c main_arg33 x
  congr 1
  funext a
  apply Fin.ext
  match a with
  | ⟨0, _⟩ => show win3_8.index t (0 : Fin 2) * 1024 + 1 * (x 0).val = (x 0).val; rw [e0]; omega
  | ⟨1, _⟩ => show win3_8.index t (1 : Fin 2) * 256 + 1 * (x 1).val = (x 1).val; rw [e1]; omega

/-- Window 9's block at any point is its whole array. -/
theorem d_whole3_9 (c : Dev nD) (t : Fin cfg3.N) :
    (iblk3 V c 9 t : Vec Ideal S1x256 .f32) = (V c main_v121 : S1x256.Idx → Elt Ideal .f32) := by
  obtain ⟨e0, e1⟩ := d_idx3_9 t
  funext x
  unfold iblk3
  rw [View.read_apply]
  show V c main_v121 _ = V c main_v121 x
  congr 1
  funext a
  apply Fin.ext
  match a with
  | ⟨0, _⟩ => show win3_9.index t (0 : Fin 2) * 1 + 1 * (x 0).val = (x 0).val; rw [e0]; omega
  | ⟨1, _⟩ => show win3_9.index t (1 : Fin 2) * 256 + 1 * (x 1).val = (x 1).val; rw [e1]; omega

/-- Window 10's block at any point is its whole array. -/
theorem d_whole3_10 (c : Dev nD) (t : Fin cfg3.N) :
    (iblk3 V c 10 t : Vec Ideal S1x256 .f32) = (V c main_v119 : S1x256.Idx → Elt Ideal .f32) := by
  obtain ⟨e0, e1⟩ := d_idx3_10 t
  funext x
  unfold iblk3
  rw [View.read_apply]
  show V c main_v119 _ = V c main_v119 x
  congr 1
  funext a
  apply Fin.ext
  match a with
  | ⟨0, _⟩ => show win3_10.index t (0 : Fin 2) * 1 + 1 * (x 0).val = (x 0).val; rw [e0]; omega
  | ⟨1, _⟩ => show win3_10.index t (1 : Fin 2) * 256 + 1 * (x 1).val = (x 1).val; rw [e1]; omega

/-- Window 11's block at any point is its whole array. -/
theorem d_whole3_11 (c : Dev nD) (t : Fin cfg3.N) :
    (iblk3 V c 11 t : Vec Ideal S1x256 .f32) = (V c main_v120 : S1x256.Idx → Elt Ideal .f32) := by
  obtain ⟨e0, e1⟩ := d_idx3_11 t
  funext x
  unfold iblk3
  rw [View.read_apply]
  show V c main_v120 _ = V c main_v120 x
  congr 1
  funext a
  apply Fin.ext
  match a with
  | ⟨0, _⟩ => show win3_11.index t (0 : Fin 2) * 1 + 1 * (x 0).val = (x 0).val; rw [e0]; omega
  | ⟨1, _⟩ => show win3_11.index t (1 : Fin 2) * 256 + 1 * (x 1).val = (x 1).val; rw [e1]; omega

/-- What point `t` writes back is block `t` of the block function of the arrays as the region finds them. -/
theorem d_flushed3
    (hpay : ∀ (x0 x1 : Vec Ideal S1000x256 .f32) (x2 : Vec Ideal S256x256 .f32) (x3 x4 x5 : Vec Ideal S1x256 .f32) (x6 : Vec Ideal S256x1024 .f32)
      (x7 : Vec Ideal S1x1024 .f32) (x8 : Vec Ideal S1024x256 .f32) (x9 x10 x11 : Vec Ideal S1x256 .f32),
      k3_pay1 (F := Ideal) (k3_pay3 x11) (k3_pay4 (k3_pay2 x0 x1 x2 x3 x4 x5) x6 x7 x8 x9 x10) = Cert.Spec.blockOut (R := 1000) x0 x1 x2 x3 x4 x5 x6 x7 x8 x9 x10 x11)
    (c : Dev nD) (t : Fin cfg3.N) :
    (dat3 (F := Ideal) V c).flushed 12 t
      = ((cfg3.win 12).blk t).view.read (Elt Ideal) (Cert.Spec.blockOut (R := 160000) (V c main_arg1) (V c main_v114) (V c main_arg27) (V c main_v115) (V c main_v116) (V c main_v117) (V c main_arg31) (V c main_v118) (V c main_arg33) (V c main_v121) (V c main_v119) (V c main_v120)) := by
  show (cfg3.win 12).cut (grid3.coords t) ((dat3 (F := Ideal) V c).after 12 t) = _
  rw [after3_12]
  unfold out3_12
  rw [View.canon_unit_zero d_hz]
  simp only [View.ld_unit_zero (S := S1000x256) d_hz, View.ld_unit_zero (S := S256x256) d_hz, View.ld_unit_zero (S := S1x256) d_hz, View.ld_unit_zero (S := S256x1024) d_hz, View.ld_unit_zero (S := S1x1024) d_hz, View.ld_unit_zero (S := S1024x256) d_hz]
  rw [hpay]
  obtain ⟨e0, e1⟩ := d_idx3_12 t
  funext j
  show Cert.Spec.blockOut (R := 1000) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) ((cfg3.win 12).xinj (grid3.coords t) j)
      = Cert.Spec.blockOut (R := 160000) (V c main_arg1) (V c main_v114) (V c main_arg27) (V c main_v115) (V c main_v116) (V c main_v117) (V c main_arg31) (V c main_v118) (V c main_arg33) (V c main_v121) (V c main_v119) (V c main_v120) (((cfg3.win 12).blk t).view.emb j)
  refine d_blockOut_congr _ _ _ _ (d_whole3_2 V c t) (d_whole3_3 V c t) (d_whole3_4 V c t) (d_whole3_5 V c t) (d_whole3_6 V c t) (d_whole3_7 V c t) (d_whole3_8 V c t) (d_whole3_9 V c t) (d_whole3_10 V c t) (d_whole3_11 V c t) _ _ (fun k => ?_) (fun k => ?_)
    (Fin.ext (by show (j 1).val = win3_12.index t (1 : Fin 2) * 256 + 1 * (j 1).val; rw [e1]; omega))
  · exact d_rows3_0 V c t _ _ (by show win3_12.index t (0 : Fin 2) * 1000 + 1 * (j 0).val = 1000 * t.val + (j 0).val; rw [e0]; omega) rfl
  · exact d_rows3_1 V c t _ _ (by show win3_12.index t (0 : Fin 2) * 1000 + 1 * (j 0).val = 1000 * t.val + (j 0).val; rw [e0]; omega) rfl

/-- An index of the array is in point `t`'s block iff each coordinate is in the block's range on its axis. -/
theorem d_mem3 (t : Fin cfg3.N) (i : S160000x256.Idx) :
    i ∈ ((cfg3.win 12).blk t).view.set ↔ ∀ a : Fin 2, win3_12.index t a * S1000x256.size a ≤ (i a).val ∧ (i a).val < win3_12.index t a * S1000x256.size a + S1000x256.size a := by
  show i ∈ ((View.whole main_v122).slice (win3_12.rect t)).set ↔ _
  rw [View.set_slice_whole, Rect.mem_set_unit]
  exact Iff.rfl

/-- Every row of the array is in the block of the point numbered by the row over 1000. -/
theorem d_cover3 (i : S160000x256.Idx) : ∃ t : Fin cfg3.N, (cfg3.win 12).flush t = true ∧ i ∈ ((cfg3.win 12).blk t).view.set := by
  have hi0 : (i 0).val < 160000 := (i 0).isLt
  have hi1 : (i 1).val < 256 := (i 1).isLt
  have hN : (i 0).val / 1000 < cfg3.N := by rw [show cfg3.N = 160 from N_3]; omega
  refine ⟨⟨(i 0).val / 1000, hN⟩, flush3_12 _, ?_⟩
  rw [d_mem3]
  obtain ⟨e0, e1⟩ := d_idx3_12 ⟨(i 0).val / 1000, hN⟩
  have e0' : win3_12.index ⟨(i 0).val / 1000, hN⟩ (0 : Fin 2) = (i 0).val / 1000 := e0
  intro a
  match a with
  | ⟨0, _⟩ => show win3_12.index ⟨(i 0).val / 1000, hN⟩ (0 : Fin 2) * 1000 ≤ (i 0).val ∧ (i 0).val < win3_12.index ⟨(i 0).val / 1000, hN⟩ (0 : Fin 2) * 1000 + 1000; rw [e0']; omega
  | ⟨1, _⟩ => show win3_12.index ⟨(i 0).val / 1000, hN⟩ (1 : Fin 2) * 256 ≤ (i 1).val ∧ (i 1).val < win3_12.index ⟨(i 0).val / 1000, hN⟩ (1 : Fin 2) * 256 + 256; rw [e1]; omega

end Region3

variable (V : (c : Dev nD) → (b : Ref sig .tc) → Buf (Elt Ideal) ((c : Thread nD τ).loc b))

/-- The output array after region 1: the block function of the arrays the region found, on all 10000 rows. -/
theorem final1_12
    (hpay : ∀ (x0 x1 : Vec Ideal S1000x256 .f32) (x2 : Vec Ideal S256x256 .f32) (x3 x4 x5 : Vec Ideal S1x256 .f32) (x6 : Vec Ideal S256x1024 .f32)
      (x7 : Vec Ideal S1x1024 .f32) (x8 : Vec Ideal S1024x256 .f32) (x9 x10 x11 : Vec Ideal S1x256 .f32),
      k1_pay1 (F := Ideal) (k1_pay3 x11) (k1_pay4 (k1_pay2 x0 x1 x2 x3 x4 x5) x6 x7 x8 x9 x10) = Cert.Spec.blockOut (R := 1000) x0 x1 x2 x3 x4 x5 x6 x7 x8 x9 x10 x11)
    (c : Dev nD) :
    (dat1 (F := Ideal) V c).arrAt 12 cfg1.N = Cert.Spec.blockOut (R := 10000) (V c main_arg0) (V c main_v47) (V c main_arg13) (V c main_v48) (V c main_v49) (V c main_v50) (V c main_arg17) (V c main_v51) (V c main_arg19) (V c main_v54) (V c main_v52) (V c main_v53) :=
  (dat1 (F := Ideal) V c).arrAt_eq_of_cover 12 (Cert.Spec.blockOut (R := 10000) (V c main_arg0) (V c main_v47) (V c main_arg13) (V c main_v48) (V c main_v49) (V c main_v50) (V c main_arg17) (V c main_v51) (V c main_arg19) (V c main_v54) (V c main_v52) (V c main_v53)) (fun t _ => d_flushed1 V hpay c t) (fun i => d_cover1 i)

/-- The output array after region 3: the block function of the arrays the region found, on all 160000 rows. -/
theorem final3_12
    (hpay : ∀ (x0 x1 : Vec Ideal S1000x256 .f32) (x2 : Vec Ideal S256x256 .f32) (x3 x4 x5 : Vec Ideal S1x256 .f32) (x6 : Vec Ideal S256x1024 .f32)
      (x7 : Vec Ideal S1x1024 .f32) (x8 : Vec Ideal S1024x256 .f32) (x9 x10 x11 : Vec Ideal S1x256 .f32),
      k3_pay1 (F := Ideal) (k3_pay3 x11) (k3_pay4 (k3_pay2 x0 x1 x2 x3 x4 x5) x6 x7 x8 x9 x10) = Cert.Spec.blockOut (R := 1000) x0 x1 x2 x3 x4 x5 x6 x7 x8 x9 x10 x11)
    (c : Dev nD) :
    (dat3 (F := Ideal) V c).arrAt 12 cfg3.N = Cert.Spec.blockOut (R := 160000) (V c main_arg1) (V c main_v114) (V c main_arg27) (V c main_v115) (V c main_v116) (V c main_v117) (V c main_arg31) (V c main_v118) (V c main_arg33) (V c main_v121) (V c main_v119) (V c main_v120) :=
  (dat3 (F := Ideal) V c).arrAt_eq_of_cover 12 (Cert.Spec.blockOut (R := 160000) (V c main_arg1) (V c main_v114) (V c main_arg27) (V c main_v115) (V c main_v116) (V c main_v117) (V c main_arg31) (V c main_v118) (V c main_arg33) (V c main_v121) (V c main_v119) (V c main_v120)) (fun t _ => d_flushed3 V hpay c t) (fun i => d_cover3 i)

end Cert.Blocks13

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KernelPayBlock.lean ====
/-
  The feed-forward block kernel's stored value, index by index on the extended reals.

  The kernel body is, row by row: the residual plus the output projection plus its bias, a layer normalisation
  (row mean and biased row variance taken as sums over axis 1 kept as a column, divided by 256, the inverse square
  root of the variance plus a floor, a gain row and a bias row), a 256 → 1024 → 256 perceptron with a rectifier, a
  second residual and a second normalisation. Each piece is first written once as a function of its operands and read
  at a coordinate pair (p, q); the printed payloads are those pieces composed, by unfolding.
-/
import proofs.«178388_j2224793059900_1_alg».proof.Proof.Gen.KernelIdeal.Skeleton
import proofs.«178388_j2224793059900_1_alg».proof.Proof.Spec
import proofs.«178388_j2224793059900_1_alg».proof.Proof.LibKeepdims
import proofs.«178388_j2224793059900_1_alg».proof.Proof.LibPlainDot
import Idealize.ShloMosaic.Lib.ValueLayout

noncomputable section

namespace Cert.KernelPay

open Idealize.ShloMosaic Idealize.ShloMosaic.ValueIdx Cert.KernelIdeal Cert.KernelIdeal.Gen

/-! ## The row mean kept as a column -/

/-- The sums of the rows (axis 1), cast to a column and divided by the splat 256. -/
def b_mean (X : FVec Ideal S1000x256 .f32) : FVec Ideal S1000x1 .f32 :=
  divf (shapeCast S1000x1 (multiReduction .add [1] S1000 X 0x00000000#32 reduces_S1000x256_S1000 (.inl rfl) rfl)
      shapeCasts_S1000_S1000x1)
    (broadcast S1000x1 (Scalar.ofBits (F := Ideal) .f32 0x43800000#32))

/-- At row `p` it is the mean of that row. -/
theorem b_mean_apply (X : FVec Ideal S1000x256 .f32) (p : Fin 1000) (u : Fin 1) :
    b_mean X (ix2 p u) = Cert.Spec.meanRow (fun k => X (ix2 p k)) := by
  unfold b_mean Cert.Spec.meanRow Cert.Spec.c256
  rw [divf_apply, broadcast_apply]
  refine congrArg (Ideal.div · (Ideal.ofBits .f32 0x43800000#32)) ?_
  exact (Cert.Keepdims.shapeCast_a_a1_apply _ shapeCasts_S1000_S1000x1 p u).trans
    (Cert.Keepdims.sum_axis1_apply X 0x00000000#32 reduces_S1000x256_S1000 (.inl rfl) rfl p)

/-! ## The layer normalisation -/

/-- The normalisation of every row of `X` with a gain row `g` and a bias row `b`. -/
def b_ln (X : FVec Ideal S1000x256 .f32) (g b : FVec Ideal S1x256 .f32) : FVec Ideal S1000x256 .f32 :=
  addf (mulf (mulf (subf X (broadcastTo S1000x256 (b_mean X) broadcasts_S1000x1_S1000x256))
        (broadcastTo S1000x256
          (rsqrt (addf (b_mean (mulf (subf X (broadcastTo S1000x256 (b_mean X) broadcasts_S1000x1_S1000x256))
                (subf X (broadcastTo S1000x256 (b_mean X) broadcasts_S1000x1_S1000x256))))
            (broadcast S1000x1 (Scalar.ofBits (F := Ideal) .f32 0x3727C5AC#32))))
          broadcasts_S1000x1_S1000x256))
      (broadcastTo S1000x256 g broadcasts_S1x256_S1000x256))
    (broadcastTo S1000x256 b broadcasts_S1x256_S1000x256)

/-- A row minus its broadcast mean, at `(p, k)`. -/
theorem b_centred_apply (X : FVec Ideal S1000x256 .f32) (p : Fin 1000) (k : Fin 256) :
    subf X (broadcastTo S1000x256 (b_mean X) broadcasts_S1000x1_S1000x256) (ix2 p k)
      = X (ix2 p k) - Cert.Spec.meanRow (fun k => X (ix2 p k)) := by
  rw [subf_apply, Cert.Keepdims.broadcastTo_a1_ab_apply, b_mean_apply]

/-- The mean of the squared centred row is the row's variance. -/
theorem b_var_apply (X : FVec Ideal S1000x256 .f32) (p : Fin 1000) (u : Fin 1) :
    b_mean (mulf (subf X (broadcastTo S1000x256 (b_mean X) broadcasts_S1000x1_S1000x256))
        (subf X (broadcastTo S1000x256 (b_mean X) broadcasts_S1000x1_S1000x256))) (ix2 p u)
      = Cert.Spec.varRow (fun k => X (ix2 p k)) := by
  rw [b_mean_apply]
  unfold Cert.Spec.varRow
  show Cert.Spec.meanRow _ = Cert.Spec.meanRow _
  refine congrArg Cert.Spec.meanRow (funext fun k => ?_)
  rw [mulf_apply, b_centred_apply]

/-- The normalisation at `(p, q)` is the normalisation of row `p`. -/
theorem b_ln_apply (X : FVec Ideal S1000x256 .f32) (g b : FVec Ideal S1x256 .f32) (p : Fin 1000) (q : Fin 256) :
    b_ln X g b (ix2 p q)
      = Cert.Spec.lnRow (fun k => X (ix2 p k)) (fun k => g (ix2 0 k)) (fun k => b (ix2 0 k)) q := by
  unfold b_ln Cert.Spec.lnRow
  rw [addf_apply, mulf_apply, mulf_apply, b_centred_apply, broadcastTo_1b_ab_apply, broadcastTo_1b_ab_apply,
    Cert.Keepdims.broadcastTo_a1_ab_apply]
  show _ * Ideal.rsqrt (b_mean _ (ix2 p 0) + Cert.Spec.eps) * _ + _ = _
  rw [b_var_apply]

/-! ## The residual plus the output projection plus its bias -/

/-- The first residual: `x0` plus the product of `x1` by `x2` into a zero accumulator, plus the bias row `x3`. -/
def b_pre (x0 x1 : Vec Ideal S1000x256 .f32) (x2 : Vec Ideal S256x256 .f32) (x3 : Vec Ideal S1x256 .f32) :
    FVec Ideal S1000x256 .f32 :=
  addf (addf x0 (matmul dot_S1000x256_S256x256_S1000x256_1_0_0_1_n_n none
        (truncf .bf16 (shapeCast S1000x256 x1 shapeCasts_S1000x256_S1000x256) bitsLt_bf16_f32)
        (truncf .bf16 x2 bitsLt_bf16_f32) (constant S1000x256 .f32 0x00000000#32)))
    (broadcastTo S1000x256 (shapeCast S1x256 x3 shapeCasts_S1x256_S1x256) broadcasts_S1x256_S1000x256)

/-- At `(p, q)` it reads row `p` of the two row-indexed operands only. -/
theorem b_pre_apply (x0 x1 : Vec Ideal S1000x256 .f32) (x2 : Vec Ideal S256x256 .f32) (x3 : Vec Ideal S1x256 .f32)
    (p : Fin 1000) (q : Fin 256) :
    b_pre x0 x1 x2 x3 (ix2 p q)
      = Cert.Spec.hpreRow (fun k => x0 (ix2 p k)) (fun k => x1 (ix2 p k)) x2 x3 q := by
  unfold b_pre Cert.Spec.hpreRow
  rw [addf_apply, addf_apply, broadcastTo_1b_ab_apply, shapeCast_self, shapeCast_self]
  refine congrArg (· + x3 (ix2 0 q)) (congrArg (x0 (ix2 p q) + ·) ?_)
  exact Cert.PlainDot.matmul_zero_apply 1000 256 256 (φ₁ := .bf16) (φ₂ := .bf16) none
    (truncf .bf16 x1 bitsLt_bf16_f32) (truncf .bf16 x2 bitsLt_bf16_f32) (ix2 p q)

/-! ## The perceptron and the second residual -/

/-- The hidden layer: the product of `H` by `x6` plus the bias row `x7`, rectified against the zero splat. -/
def b_hid (H : FVec Ideal S1000x256 .f32) (x6 : Vec Ideal S256x1024 .f32) (x7 : Vec Ideal S1x1024 .f32) :
    FVec Ideal S1000x1024 .f32 :=
  maximumf (addf (matmul dot_S1000x256_S256x1024_S1000x1024_1_0_0_1_n_n none (truncf .bf16 H bitsLt_bf16_f32)
        (truncf .bf16 x6 bitsLt_bf16_f32) (constant S1000x1024 .f32 0x00000000#32))
      (broadcastTo S1000x1024 (shapeCast S1x1024 x7 shapeCasts_S1x1024_S1x1024) broadcasts_S1x1024_S1000x1024))
    (broadcast S1000x1024 (Scalar.ofBits (F := Ideal) .f32 0x00000000#32))

/-- At `(p, r)` it is the hidden row of row `p`. -/
theorem b_hid_apply (H : FVec Ideal S1000x256 .f32) (x6 : Vec Ideal S256x1024 .f32) (x7 : Vec Ideal S1x1024 .f32)
    (p : Fin 1000) (r : Fin 1024) :
    b_hid H x6 x7 (ix2 p r) = Cert.Spec.hidRow (fun k => H (ix2 p k)) x6 x7 r := by
  unfold b_hid Cert.Spec.hidRow Cert.Spec.zero32
  rw [maximumf_apply, addf_apply, broadcast_apply, broadcastTo_1b_ab_apply, shapeCast_self]
  refine congrArg (max · (Ideal.ofBits .f32 0x00000000#32)) (congrArg (· + x7 (ix2 0 r)) ?_)
  exact Cert.PlainDot.matmul_zero_apply 1000 256 1024 (φ₁ := .bf16) (φ₂ := .bf16) none
    (truncf .bf16 H bitsLt_bf16_f32) (truncf .bf16 x6 bitsLt_bf16_f32) (ix2 p r)

/-- The second residual: `H` plus the product of the hidden layer by `x8` plus the bias row `x9`. -/
def b_ffn (H : FVec Ideal S1000x256 .f32) (x6 : Vec Ideal S256x1024 .f32) (x7 : Vec Ideal S1x1024 .f32)
    (x8 : Vec Ideal S1024x256 .f32) (x9 : Vec Ideal S1x256 .f32) : FVec Ideal S1000x256 .f32 :=
  addf H (addf (matmul dot_S1000x1024_S1024x256_S1000x256_1_0_0_1_n_n none
        (truncf .bf16 (b_hid H x6 x7) bitsLt_bf16_f32) (truncf .bf16 x8 bitsLt_bf16_f32)
        (constant S1000x256 .f32 0x00000000#32))
      (broadcastTo S1000x256 (shapeCast S1x256 x9 shapeCasts_S1x256_S1x256) broadcasts_S1x256_S1000x256))

/-- At `(p, q)` it is the second residual of row `p`. -/
theorem b_ffn_apply (H : FVec Ideal S1000x256 .f32) (x6 : Vec Ideal S256x1024 .f32) (x7 : Vec Ideal S1x1024 .f32)
    (x8 : Vec Ideal S1024x256 .f32) (x9 : Vec Ideal S1x256 .f32) (p : Fin 1000) (q : Fin 256) :
    b_ffn H x6 x7 x8 x9 (ix2 p q)
      = Cert.Spec.ffnRow (fun k => H (ix2 p k)) (Cert.Spec.hidRow (fun k => H (ix2 p k)) x6 x7) x8 x9 q := by
  unfold b_ffn Cert.Spec.ffnRow
  rw [addf_apply, addf_apply, broadcastTo_1b_ab_apply, shapeCast_self]
  refine congrArg (H (ix2 p q) + ·) (congrArg (· + x9 (ix2 0 q)) ?_)
  refine (Cert.PlainDot.matmul_zero_apply 1000 1024 256 (φ₁ := .bf16) (φ₂ := .bf16) none
    (truncf .bf16 (b_hid H x6 x7) bitsLt_bf16_f32) (truncf .bf16 x8 bitsLt_bf16_f32) (ix2 p q)).trans ?_
  refine Finset.sum_congr rfl fun r _ => ?_
  exact congrArg (· * x8 (ix2 r q)) (b_hid_apply H x6 x7 p r)

/-! ## The whole block -/

/-- The first normalised array: the normalisation of the first residual with gain row `x4` and bias row `x5`. -/
def b_h (x0 x1 : Vec Ideal S1000x256 .f32) (x2 : Vec Ideal S256x256 .f32) (x3 x4 x5 : Vec Ideal S1x256 .f32) : FVec Ideal S1000x256 .f32 :=
  b_ln (b_pre x0 x1 x2 x3) (shapeCast S1x256 x4 shapeCasts_S1x256_S1x256) (shapeCast S1x256 x5 shapeCasts_S1x256_S1x256)

/-- At `(p, q)` it is the first normalised row of row `p`. -/
theorem b_h_apply (x0 x1 : Vec Ideal S1000x256 .f32) (x2 : Vec Ideal S256x256 .f32) (x3 x4 x5 : Vec Ideal S1x256 .f32) (p : Fin 1000) (q : Fin 256) :
    b_h x0 x1 x2 x3 x4 x5 (ix2 p q)
      = Cert.Spec.hRow (fun k => x0 (ix2 p k)) (fun k => x1 (ix2 p k)) x2 x3 x4 x5 q := by
  unfold b_h Cert.Spec.hRow
  rw [b_ln_apply, shapeCast_self, shapeCast_self]
  have hP : (fun k => b_pre x0 x1 x2 x3 (ix2 p k))
      = Cert.Spec.hpreRow (fun k => x0 (ix2 p k)) (fun k => x1 (ix2 p k)) x2 x3 :=
    funext fun k => b_pre_apply x0 x1 x2 x3 p k
  rw [hP]

/-- The block: the normalisation of the second residual with gain row `x10` and bias row `x11`. -/
def b_block (x0 x1 : Vec Ideal S1000x256 .f32) (x2 : Vec Ideal S256x256 .f32) (x3 x4 x5 : Vec Ideal S1x256 .f32)
    (x6 : Vec Ideal S256x1024 .f32) (x7 : Vec Ideal S1x1024 .f32) (x8 : Vec Ideal S1024x256 .f32)
    (x9 x10 x11 : Vec Ideal S1x256 .f32) : FVec Ideal S1000x256 .f32 :=
  b_ln (b_ffn (b_h x0 x1 x2 x3 x4 x5) x6 x7 x8 x9) (shapeCast S1x256 x10 shapeCasts_S1x256_S1x256)
    (shapeCast S1x256 x11 shapeCasts_S1x256_S1x256)

/-- At `(p, q)` it is the block on row `p`. -/
theorem b_block_apply (x0 x1 : Vec Ideal S1000x256 .f32) (x2 : Vec Ideal S256x256 .f32) (x3 x4 x5 : Vec Ideal S1x256 .f32)
    (x6 : Vec Ideal S256x1024 .f32) (x7 : Vec Ideal S1x1024 .f32) (x8 : Vec Ideal S1024x256 .f32)
    (x9 x10 x11 : Vec Ideal S1x256 .f32) (p : Fin 1000) (q : Fin 256) :
    b_block x0 x1 x2 x3 x4 x5 x6 x7 x8 x9 x10 x11 (ix2 p q)
      = Cert.Spec.blockRow (fun k => x0 (ix2 p k)) (fun k => x1 (ix2 p k)) x2 x3 x4 x5 x6 x7 x8 x9 x10 x11 q := by
  unfold b_block Cert.Spec.blockRow
  rw [b_ln_apply, shapeCast_self, shapeCast_self]
  have hH : (fun k => b_h x0 x1 x2 x3 x4 x5 (ix2 p k))
      = Cert.Spec.hRow (fun k => x0 (ix2 p k)) (fun k => x1 (ix2 p k)) x2 x3 x4 x5 :=
    funext fun k => b_h_apply x0 x1 x2 x3 x4 x5 p k
  have hF : (fun k => b_ffn (b_h x0 x1 x2 x3 x4 x5) x6 x7 x8 x9 (ix2 p k))
      = Cert.Spec.ffnRow (Cert.Spec.hRow (fun k => x0 (ix2 p k)) (fun k => x1 (ix2 p k)) x2 x3 x4 x5)
          (Cert.Spec.hidRow (Cert.Spec.hRow (fun k => x0 (ix2 p k)) (fun k => x1 (ix2 p k)) x2 x3 x4 x5) x6 x7)
          x8 x9 := by
    funext k
    rw [b_ffn_apply, hH]
  rw [hF]

/-- The block is the specification's block on 1000 rows. -/
theorem b_block_eq (x0 x1 : Vec Ideal S1000x256 .f32) (x2 : Vec Ideal S256x256 .f32) (x3 x4 x5 : Vec Ideal S1x256 .f32)
    (x6 : Vec Ideal S256x1024 .f32) (x7 : Vec Ideal S1x1024 .f32) (x8 : Vec Ideal S1024x256 .f32)
    (x9 x10 x11 : Vec Ideal S1x256 .f32) :
    b_block x0 x1 x2 x3 x4 x5 x6 x7 x8 x9 x10 x11
      = Cert.Spec.blockOut (R := 1000) x0 x1 x2 x3 x4 x5 x6 x7 x8 x9 x10 x11 := by
  funext j
  obtain ⟨p, q, rfl⟩ : ∃ p q, j = ix2 p q := ⟨j 0, j 1, eq_ix2 j⟩
  exact b_block_apply x0 x1 x2 x3 x4 x5 x6 x7 x8 x9 x10 x11 p q

/-! ## The printed payloads of the first block kernel are these pieces composed -/

/-- The first payload is the first normalised array, by unfolding. -/
theorem b_k1_pay2_eq (x0 x1 : Vec Ideal S1000x256 .f32) (x2 : Vec Ideal S256x256 .f32) (x3 x4 x5 : Vec Ideal S1x256 .f32) :
    k1_pay2 (F := Ideal) x0 x1 x2 x3 x4 x5 = b_h x0 x1 x2 x3 x4 x5 := rfl

/-- The stored value over any first normalised array `H` is the normalisation of its second residual, by unfolding. -/
theorem b_k1_out_eq (H : FVec Ideal S1000x256 .f32) (x6 : Vec Ideal S256x1024 .f32) (x7 : Vec Ideal S1x1024 .f32)
    (x8 : Vec Ideal S1024x256 .f32) (x9 x10 x11 : Vec Ideal S1x256 .f32) :
    k1_pay1 (F := Ideal) (k1_pay3 x11) (k1_pay4 H x6 x7 x8 x9 x10)
      = b_ln (b_ffn H x6 x7 x8 x9) (shapeCast S1x256 x10 shapeCasts_S1x256_S1x256)
          (shapeCast S1x256 x11 shapeCasts_S1x256_S1x256) := rfl

/-- The stored value of the block kernel is the specification's block on its twelve loaded blocks. -/
theorem block1_eq (x0 x1 : Vec Ideal S1000x256 .f32) (x2 : Vec Ideal S256x256 .f32) (x3 x4 x5 : Vec Ideal S1x256 .f32)
    (x6 : Vec Ideal S256x1024 .f32) (x7 : Vec Ideal S1x1024 .f32) (x8 : Vec Ideal S1024x256 .f32)
    (x9 x10 x11 : Vec Ideal S1x256 .f32) :
    k1_pay1 (F := Ideal) (k1_pay3 x11) (k1_pay4 (k1_pay2 x0 x1 x2 x3 x4 x5) x6 x7 x8 x9 x10)
      = Cert.Spec.blockOut (R := 1000) x0 x1 x2 x3 x4 x5 x6 x7 x8 x9 x10 x11 :=
  (b_k1_out_eq (k1_pay2 x0 x1 x2 x3 x4 x5) x6 x7 x8 x9 x10 x11).trans
    ((congrArg (fun H => b_ln (b_ffn H x6 x7 x8 x9) (shapeCast S1x256 x10 shapeCasts_S1x256_S1x256)
        (shapeCast S1x256 x11 shapeCasts_S1x256_S1x256)) (b_k1_pay2_eq x0 x1 x2 x3 x4 x5)).trans
      (b_block_eq x0 x1 x2 x3 x4 x5 x6 x7 x8 x9 x10 x11))

/-! ## The printed payloads of the second block kernel are these pieces composed -/

/-- The first payload is the first normalised array, by unfolding. -/
theorem b_k3_pay2_eq (x0 x1 : Vec Ideal S1000x256 .f32) (x2 : Vec Ideal S256x256 .f32) (x3 x4 x5 : Vec Ideal S1x256 .f32) :
    k3_pay2 (F := Ideal) x0 x1 x2 x3 x4 x5 = b_h x0 x1 x2 x3 x4 x5 := rfl

/-- The stored value over any first normalised array `H` is the normalisation of its second residual, by unfolding. -/
theorem b_k3_out_eq (H : FVec Ideal S1000x256 .f32) (x6 : Vec Ideal S256x1024 .f32) (x7 : Vec Ideal S1x1024 .f32)
    (x8 : Vec Ideal S1024x256 .f32) (x9 x10 x11 : Vec Ideal S1x256 .f32) :
    k3_pay1 (F := Ideal) (k3_pay3 x11) (k3_pay4 H x6 x7 x8 x9 x10)
      = b_ln (b_ffn H x6 x7 x8 x9) (shapeCast S1x256 x10 shapeCasts_S1x256_S1x256)
          (shapeCast S1x256 x11 shapeCasts_S1x256_S1x256) := rfl

/-- The stored value of the block kernel is the specification's block on its twelve loaded blocks. -/
theorem block3_eq (x0 x1 : Vec Ideal S1000x256 .f32) (x2 : Vec Ideal S256x256 .f32) (x3 x4 x5 : Vec Ideal S1x256 .f32)
    (x6 : Vec Ideal S256x1024 .f32) (x7 : Vec Ideal S1x1024 .f32) (x8 : Vec Ideal S1024x256 .f32)
    (x9 x10 x11 : Vec Ideal S1x256 .f32) :
    k3_pay1 (F := Ideal) (k3_pay3 x11) (k3_pay4 (k3_pay2 x0 x1 x2 x3 x4 x5) x6 x7 x8 x9 x10)
      = Cert.Spec.blockOut (R := 1000) x0 x1 x2 x3 x4 x5 x6 x7 x8 x9 x10 x11 :=
  (b_k3_out_eq (k3_pay2 x0 x1 x2 x3 x4 x5) x6 x7 x8 x9 x10 x11).trans
    ((congrArg (fun H => b_ln (b_ffn H x6 x7 x8 x9) (shapeCast S1x256 x10 shapeCasts_S1x256_S1x256)
        (shapeCast S1x256 x11 shapeCasts_S1x256_S1x256)) (b_k3_pay2_eq x0 x1 x2 x3 x4 x5)).trans
      (b_block_eq x0 x1 x2 x3 x4 x5 x6 x7 x8 x9 x10 x11))

end Cert.KernelPay

end
-- ==== Proof.RefStagesQkv.lean ====
/-
  The reference's six projection stages are the specification's projections: each stage, read at an index, is the
  sum over the contracted axis of the products of the operands' entries, plus the bias entry of the column and the
  addend's entry where the stage has them.
-/
import proofs.«178388_j2224793059900_1_alg».proof.Proof.ReadP
import proofs.«178388_j2224793059900_1_alg».proof.Proof.Spec

noncomputable section

open Idealize.ShloMosaic Idealize.ShloMosaic.ValueIdx

namespace Cert.RefStages

open Cert.ReferenceIdeal Cert.ReferenceIdeal.Read

/-- The node query projection: the product with the weight plus the bias row. -/
theorem v3_eq (x0 : (⟨S10000x256, .f32⟩ : BufTy).Contents (Elt Ideal)) (x9 : (⟨S256x256, .f32⟩ : BufTy).Contents (Elt Ideal)) (x10 : (⟨S256, .f32⟩ : BufTy).Contents (Elt Ideal)) :
    val_main_v3 (F := Ideal) x0 x9 x10 = Cert.Spec.qProj (R := 10000) x0 x9 (Cert.Spec.row x10) := by
  funext j
  obtain ⟨i, q, rfl⟩ : ∃ (i : Fin 10000) (q : Fin 256), j = ix2 i q := ⟨j 0, j 1, eq_ix2 j⟩
  rw [val_main_v3_apply, val_main_v0_apply, val_main_v2_apply, val_main_v1_apply]
  have el : ∀ k : Fin 256, lidx_main_v0 (ix2 i q) k = ix2 i k := fun k => funext fun a => Fin.ext (by match a with | ⟨0, _⟩ => rfl | ⟨1, _⟩ => rfl)
  have er : ∀ k : Fin 256, ridx_main_v0 (ix2 i q) k = ix2 k q := fun k => funext fun a => Fin.ext (by match a with | ⟨0, _⟩ => rfl | ⟨1, _⟩ => rfl)
  have eb : idx_main_v1 (idx_main_v2 (ix2 i q)) = ix1 q := funext fun a => Fin.ext (by match a with | ⟨0, _⟩ => rfl)
  unfold Cert.Spec.qProj Cert.Spec.mm Cert.Spec.row
  rw [eb]
  show (∑ k : Fin 256, x0 (lidx_main_v0 (ix2 i q) k) * x9 (ridx_main_v0 (ix2 i q) k)) + x10 (ix1 q) = (∑ k : Fin 256, x0 (ix2 i k) * x9 (ix2 k q)) + x10 (ix1 q)
  rw [Finset.sum_congr rfl fun k _ => by rw [el, er]]

/-- The node key projection: the product with the weight. -/
theorem v5_eq (x0 : (⟨S10000x256, .f32⟩ : BufTy).Contents (Elt Ideal)) (x11 : (⟨S256x256, .f32⟩ : BufTy).Contents (Elt Ideal)) :
    val_main_v5 (F := Ideal) x0 x11 = Cert.Spec.mm x0 x11 := by
  funext j
  obtain ⟨i, q, rfl⟩ : ∃ (i : Fin 10000) (q : Fin 256), j = ix2 i q := ⟨j 0, j 1, eq_ix2 j⟩
  rw [val_main_v5_apply]
  have el : ∀ k : Fin 256, lidx_main_v5 (ix2 i q) k = ix2 i k := fun k => funext fun a => Fin.ext (by match a with | ⟨0, _⟩ => rfl | ⟨1, _⟩ => rfl)
  have er : ∀ k : Fin 256, ridx_main_v5 (ix2 i q) k = ix2 k q := fun k => funext fun a => Fin.ext (by match a with | ⟨0, _⟩ => rfl | ⟨1, _⟩ => rfl)
  unfold Cert.Spec.mm
  exact Finset.sum_congr rfl fun k _ => by rw [el, er]

/-- The node value projection: the product with the weight. -/
theorem v7_eq (x0 : (⟨S10000x256, .f32⟩ : BufTy).Contents (Elt Ideal)) (x12 : (⟨S256x256, .f32⟩ : BufTy).Contents (Elt Ideal)) :
    val_main_v7 (F := Ideal) x0 x12 = Cert.Spec.mm x0 x12 := by
  funext j
  obtain ⟨i, q, rfl⟩ : ∃ (i : Fin 10000) (q : Fin 256), j = ix2 i q := ⟨j 0, j 1, eq_ix2 j⟩
  rw [val_main_v7_apply]
  have el : ∀ k : Fin 256, lidx_main_v7 (ix2 i q) k = ix2 i k := fun k => funext fun a => Fin.ext (by match a with | ⟨0, _⟩ => rfl | ⟨1, _⟩ => rfl)
  have er : ∀ k : Fin 256, ridx_main_v7 (ix2 i q) k = ix2 k q := fun k => funext fun a => Fin.ext (by match a with | ⟨0, _⟩ => rfl | ⟨1, _⟩ => rfl)
  unfold Cert.Spec.mm
  exact Finset.sum_congr rfl fun k _ => by rw [el, er]

/-- The edge query projection: the product with the weight plus the bias row plus the gathered rows. -/
theorem v133_eq (x0 : (⟨S10000x256, .f32⟩ : BufTy).Contents (Elt Ideal)) (x1 : (⟨S160000x256, .f32⟩ : BufTy).Contents (Elt Ideal)) (x7 : (⟨S160000, .i32⟩ : BufTy).Contents (Elt Ideal)) (x23 : (⟨S256x256, .f32⟩ : BufTy).Contents (Elt Ideal)) (x24 : (⟨S256, .f32⟩ : BufTy).Contents (Elt Ideal)) :
    val_main_v133 (F := Ideal) x0 x1 x7 x23 x24
      = Cert.Spec.qProjE (R := 160000) x1 x23 (Cert.Spec.row x24) (val_main_v121 (F := Ideal) x0 x7) := by
  funext j
  obtain ⟨i, q, rfl⟩ : ∃ (i : Fin 160000) (q : Fin 256), j = ix2 i q := ⟨j 0, j 1, eq_ix2 j⟩
  rw [val_main_v133_apply, val_main_v132_apply, val_main_v129_apply, val_main_v131_apply, val_main_v130_apply]
  generalize val_main_v121 (F := Ideal) x0 x7 = g
  have el : ∀ k : Fin 256, lidx_main_v129 (ix2 i q) k = ix2 i k := fun k => funext fun a => Fin.ext (by match a with | ⟨0, _⟩ => rfl | ⟨1, _⟩ => rfl)
  have er : ∀ k : Fin 256, ridx_main_v129 (ix2 i q) k = ix2 k q := fun k => funext fun a => Fin.ext (by match a with | ⟨0, _⟩ => rfl | ⟨1, _⟩ => rfl)
  have eb : idx_main_v130 (idx_main_v131 (ix2 i q)) = ix1 q := funext fun a => Fin.ext (by match a with | ⟨0, _⟩ => rfl)
  have es : (∑ k : Fin 256, x1 (lidx_main_v129 (ix2 i q) k) * x23 (ridx_main_v129 (ix2 i q) k)) = ∑ k : Fin 256, x1 (ix2 i k) * x23 (ix2 k q) :=
    Finset.sum_congr rfl fun k _ => by rw [el, er]
  unfold Cert.Spec.qProjE Cert.Spec.mm Cert.Spec.row
  rw [eb, es]
  rfl

/-- The edge key projection: the product with the weight. -/
theorem v135_eq (x1 : (⟨S160000x256, .f32⟩ : BufTy).Contents (Elt Ideal)) (x25 : (⟨S256x256, .f32⟩ : BufTy).Contents (Elt Ideal)) :
    val_main_v135 (F := Ideal) x1 x25 = Cert.Spec.mm x1 x25 := by
  funext j
  obtain ⟨i, q, rfl⟩ : ∃ (i : Fin 160000) (q : Fin 256), j = ix2 i q := ⟨j 0, j 1, eq_ix2 j⟩
  rw [val_main_v135_apply]
  have el : ∀ k : Fin 256, lidx_main_v135 (ix2 i q) k = ix2 i k := fun k => funext fun a => Fin.ext (by match a with | ⟨0, _⟩ => rfl | ⟨1, _⟩ => rfl)
  have er : ∀ k : Fin 256, ridx_main_v135 (ix2 i q) k = ix2 k q := fun k => funext fun a => Fin.ext (by match a with | ⟨0, _⟩ => rfl | ⟨1, _⟩ => rfl)
  unfold Cert.Spec.mm
  exact Finset.sum_congr rfl fun k _ => by rw [el, er]

/-- The edge value projection: the product with the weight plus the gathered rows. -/
theorem v138_eq (x0 : (⟨S10000x256, .f32⟩ : BufTy).Contents (Elt Ideal)) (x1 : (⟨S160000x256, .f32⟩ : BufTy).Contents (Elt Ideal)) (x8 : (⟨S160000, .i32⟩ : BufTy).Contents (Elt Ideal)) (x26 : (⟨S256x256, .f32⟩ : BufTy).Contents (Elt Ideal)) :
    val_main_v138 (F := Ideal) x0 x1 x8 x26
      = Cert.Spec.vProjE (R := 160000) x1 x26 (val_main_v128 (F := Ideal) x0 x8) := by
  funext j
  obtain ⟨i, q, rfl⟩ : ∃ (i : Fin 160000) (q : Fin 256), j = ix2 i q := ⟨j 0, j 1, eq_ix2 j⟩
  rw [val_main_v138_apply, val_main_v137_apply]
  generalize val_main_v128 (F := Ideal) x0 x8 = g
  have el : ∀ k : Fin 256, lidx_main_v137 (ix2 i q) k = ix2 i k := fun k => funext fun a => Fin.ext (by match a with | ⟨0, _⟩ => rfl | ⟨1, _⟩ => rfl)
  have er : ∀ k : Fin 256, ridx_main_v137 (ix2 i q) k = ix2 k q := fun k => funext fun a => Fin.ext (by match a with | ⟨0, _⟩ => rfl | ⟨1, _⟩ => rfl)
  have es : (∑ k : Fin 256, x1 (lidx_main_v137 (ix2 i q) k) * x26 (ridx_main_v137 (ix2 i q) k)) = ∑ k : Fin 256, x1 (ix2 i k) * x26 (ix2 k q) :=
    Finset.sum_congr rfl fun k _ => by rw [el, er]
  unfold Cert.Spec.vProjE Cert.Spec.mm
  rw [es]
  rfl

end Cert.RefStages

end
-- ==== Proof.RefStagesBlock.lean ====
/-
  The reference's two feed-forward blocks, read index by index.

  Each block takes a residual array and an attention array and produces, row by row: the residual plus the attention row
  times the output weights plus a bias; a layer normalisation; a 256 → 1024 → 256 perceptron with a rectifier, added back
  with its bias; a second layer normalisation. Every stage below is read at explicit coordinates (row `i`, column `q`) from
  the stage before it, with the attention array kept as an opaque function. The only algebra is one reassociation: the
  reference adds the perceptron's output to the row first and the bias second, the specification the other way round.
-/
import proofs.«178388_j2224793059900_1_alg».proof.Proof.ReadP
import proofs.«178388_j2224793059900_1_alg».proof.Proof.Spec

noncomputable section

namespace Cert.RefStages

open Cert.ReferenceIdeal Cert.ReferenceIdeal.Gen Cert.ReferenceIdeal.Read Idealize.ShloMosaic Idealize.ShloMosaic.ValueIdx

section Node
variable (x0 : (⟨S10000x256, .f32⟩ : BufTy).Contents (Elt Ideal)) (x1 : (⟨S160000x256, .f32⟩ : BufTy).Contents (Elt Ideal)) (x3 x4 : (⟨S160000, .i32⟩ : BufTy).Contents (Elt Ideal)) (x9 : (⟨S256x256, .f32⟩ : BufTy).Contents (Elt Ideal)) (x10 : (⟨S256, .f32⟩ : BufTy).Contents (Elt Ideal)) (x11 x12 x13 : (⟨S256x256, .f32⟩ : BufTy).Contents (Elt Ideal)) (x14 x15 x16 : (⟨S256, .f32⟩ : BufTy).Contents (Elt Ideal)) (x17 : (⟨S256x1024, .f32⟩ : BufTy).Contents (Elt Ideal)) (x18 : (⟨S1024, .f32⟩ : BufTy).Contents (Elt Ideal)) (x19 : (⟨S1024x256, .f32⟩ : BufTy).Contents (Elt Ideal)) (x20 x21 x22 : (⟨S256, .f32⟩ : BufTy).Contents (Elt Ideal))

/-- First residual: the row plus the projected attention row plus the bias (stages %52..%56). -/
theorem c_n_hpre (i : Fin 10000) (q : Fin 256) :
    val_main_v56 (F := Ideal) x0 x1 x3 x4 x9 x10 x11 x12 x13 x14 (ix2 i q)
      = Cert.Spec.hpreRow (fun k => x0 (ix2 i k)) (fun k => val_main_v51 (F := Ideal) x0 x1 x3 x4 x9 x10 x11 x12 (ix2 i k)) x13 (Cert.Spec.row x14) q := by
  rw [val_main_v56_apply, val_main_v53_apply, val_main_v52_apply, val_main_v55_apply, val_main_v54_apply,
    show idx_main_v54 (idx_main_v55 (ix2 i q)) = ix1 q from funext fun a => Fin.ext (by match a with | ⟨0, _⟩ => rfl)]
  unfold Cert.Spec.hpreRow Cert.Spec.row
  simp only [Ideal.addf_def]
  refine congrArg (fun t => x0 (ix2 i q) + t + x14 (ix1 q)) (Finset.sum_congr rfl fun k _ => ?_)
  rw [show lidx_main_v52 (ix2 i q) k = ix2 i k from funext fun a => Fin.ext (by match a with | ⟨0, _⟩ => rfl | ⟨1, _⟩ => rfl),
    show ridx_main_v52 (ix2 i q) k = ix2 k q from funext fun a => Fin.ext (by match a with | ⟨0, _⟩ => rfl | ⟨1, _⟩ => rfl)]

/-- The row mean read at the column shape (stages %57..%60). -/
theorem c_n_mean1 (i : Fin 10000) (P : Fin 256 → EReal) (hP : ∀ k : Fin 256, val_main_v56 (F := Ideal) x0 x1 x3 x4 x9 x10 x11 x12 x13 x14 (ix2 i k) = P k) :
    val_main_v60 (F := Ideal) x0 x1 x3 x4 x9 x10 x11 x12 x13 x14 (ix2 i (0 : Fin 1)) = Cert.Spec.meanRow P := by
  rw [val_main_v60_apply, val_main_v58_apply, val_main_v57_apply, val_main_cst_10_apply, val_main_v59_apply, val_main_cst_11_apply]
  unfold Cert.Spec.meanRow Cert.Spec.c256
  simp only [Ideal.hostDivf_def, Ideal.ofBits_def, Ideal.ofBits_zero_f32, zero_add]
  refine congrArg (fun t => Ideal.div t _) (Finset.sum_congr rfl fun k _ => ?_)
  rw [show idx_main_v57 (idx_main_v58 (ix2 i (0 : Fin 1))) k = ix2 i k from funext fun a => Fin.ext (by match a with | ⟨0, _⟩ => rfl | ⟨1, _⟩ => rfl)]
  exact hP k

/-- The mean broadcast along the row (stage %61). -/
theorem c_n_meanA1 (i : Fin 10000) (q : Fin 256) (P : Fin 256 → EReal) (hP : ∀ k : Fin 256, val_main_v56 (F := Ideal) x0 x1 x3 x4 x9 x10 x11 x12 x13 x14 (ix2 i k) = P k) :
    val_main_v61 (F := Ideal) x0 x1 x3 x4 x9 x10 x11 x12 x13 x14 (ix2 i q) = Cert.Spec.meanRow P := by
  rw [val_main_v61_apply, show idx_main_v61 (ix2 i q) = ix2 i (0 : Fin 1) from funext fun a => Fin.ext (by match a with | ⟨0, _⟩ => rfl | ⟨1, _⟩ => rfl)]
  exact c_n_mean1 x0 x1 x3 x4 x9 x10 x11 x12 x13 x14 i P hP

/-- The same broadcast, second copy (stage %68). -/
theorem c_n_meanB1 (i : Fin 10000) (q : Fin 256) (P : Fin 256 → EReal) (hP : ∀ k : Fin 256, val_main_v56 (F := Ideal) x0 x1 x3 x4 x9 x10 x11 x12 x13 x14 (ix2 i k) = P k) :
    val_main_v68 (F := Ideal) x0 x1 x3 x4 x9 x10 x11 x12 x13 x14 (ix2 i q) = Cert.Spec.meanRow P := by
  rw [val_main_v68_apply, show idx_main_v68 (ix2 i q) = ix2 i (0 : Fin 1) from funext fun a => Fin.ext (by match a with | ⟨0, _⟩ => rfl | ⟨1, _⟩ => rfl)]
  exact c_n_mean1 x0 x1 x3 x4 x9 x10 x11 x12 x13 x14 i P hP

/-- The row variance at the column shape (stages %62..%67). -/
theorem c_n_var1 (i : Fin 10000) (P : Fin 256 → EReal) (hP : ∀ k : Fin 256, val_main_v56 (F := Ideal) x0 x1 x3 x4 x9 x10 x11 x12 x13 x14 (ix2 i k) = P k) :
    val_main_v67 (F := Ideal) x0 x1 x3 x4 x9 x10 x11 x12 x13 x14 (ix2 i (0 : Fin 1)) = Cert.Spec.varRow P := by
  rw [val_main_v67_apply, val_main_v65_apply, val_main_v64_apply, val_main_cst_12_apply, val_main_v66_apply, val_main_cst_13_apply]
  unfold Cert.Spec.varRow Cert.Spec.c256
  simp only [Ideal.hostDivf_def, Ideal.ofBits_def, Ideal.ofBits_zero_f32, zero_add]
  refine congrArg (fun t => Ideal.div t _) (Finset.sum_congr rfl fun k _ => ?_)
  rw [show idx_main_v64 (idx_main_v65 (ix2 i (0 : Fin 1))) k = ix2 i k from funext fun a => Fin.ext (by match a with | ⟨0, _⟩ => rfl | ⟨1, _⟩ => rfl),
    val_main_v63_apply, val_main_v62_apply, c_n_meanA1 x0 x1 x3 x4 x9 x10 x11 x12 x13 x14 i k P hP, hP k]
  simp only [Ideal.mulf_def, Ideal.subf_def]

/-- The normalised row (stages %69..%80). -/
theorem c_n_ln1 (i : Fin 10000) (q : Fin 256) (P : Fin 256 → EReal) (hP : ∀ k : Fin 256, val_main_v56 (F := Ideal) x0 x1 x3 x4 x9 x10 x11 x12 x13 x14 (ix2 i k) = P k) :
    val_main_v80 (F := Ideal) x0 x1 x3 x4 x9 x10 x11 x12 x13 x14 x15 x16 (ix2 i q)
      = Cert.Spec.lnRow P (fun q => Cert.Spec.row x15 (ix2 0 q)) (fun q => Cert.Spec.row x16 (ix2 0 q)) q := by
  rw [val_main_v80_apply, val_main_v77_apply, val_main_v74_apply, val_main_v69_apply, c_n_meanB1 x0 x1 x3 x4 x9 x10 x11 x12 x13 x14 i q P hP, hP q,
    val_main_v73_apply, show idx_main_v73 (ix2 i q) = ix2 i (0 : Fin 1) from funext fun a => Fin.ext (by match a with | ⟨0, _⟩ => rfl | ⟨1, _⟩ => rfl),
    val_main_v72_apply, val_main_v71_apply, c_n_var1 x0 x1 x3 x4 x9 x10 x11 x12 x13 x14 i P hP, val_main_v70_apply, val_main_cst_14_apply,
    val_main_v76_apply, val_main_v75_apply, val_main_v79_apply, val_main_v78_apply,
    show idx_main_v75 (idx_main_v76 (ix2 i q)) = ix1 q from funext fun a => Fin.ext (by match a with | ⟨0, _⟩ => rfl),
    show idx_main_v78 (idx_main_v79 (ix2 i q)) = ix1 q from funext fun a => Fin.ext (by match a with | ⟨0, _⟩ => rfl)]
  unfold Cert.Spec.lnRow Cert.Spec.row Cert.Spec.eps
  simp only [Ideal.addf_def, Ideal.mulf_def, Ideal.subf_def, Ideal.hostUnary_rsqrt_def, Ideal.ofBits_def]

/-- The perceptron's hidden row (stages %81..%85). -/
theorem c_n_hid (i : Fin 10000) (r : Fin 1024) (H : Fin 256 → EReal) (hH : ∀ k : Fin 256, val_main_v80 (F := Ideal) x0 x1 x3 x4 x9 x10 x11 x12 x13 x14 x15 x16 (ix2 i k) = H k) :
    val_main_v85 (F := Ideal) x0 x1 x3 x4 x9 x10 x11 x12 x13 x14 x15 x16 x17 x18 (ix2 i r) = Cert.Spec.hidRow H x17 (Cert.Spec.row x18) r := by
  rw [val_main_v85_apply, val_main_v84_apply, val_main_v81_apply, val_main_v83_apply, val_main_v82_apply, val_main_call1_v0_apply, val_main_call1_cst_apply,
    show idx_main_v82 (idx_main_v83 (ix2 i r)) = ix1 r from funext fun a => Fin.ext (by match a with | ⟨0, _⟩ => rfl)]
  unfold Cert.Spec.hidRow Cert.Spec.row Cert.Spec.zero32
  simp only [Ideal.maximumf_def, Ideal.addf_def, Ideal.ofBits_def]
  refine congrArg (fun t => max (t + x18 (ix1 r)) _) (Finset.sum_congr rfl fun k _ => ?_)
  rw [show lidx_main_v81 (ix2 i r) k = ix2 i k from funext fun a => Fin.ext (by match a with | ⟨0, _⟩ => rfl | ⟨1, _⟩ => rfl),
    show ridx_main_v81 (ix2 i r) k = ix2 k r from funext fun a => Fin.ext (by match a with | ⟨0, _⟩ => rfl | ⟨1, _⟩ => rfl), hH k]

/-- Second residual: the normalised row plus the perceptron's output plus its bias (stages %86..%90). -/
theorem c_n_ffn (i : Fin 10000) (q : Fin 256) (H : Fin 256 → EReal) (hH : ∀ k : Fin 256, val_main_v80 (F := Ideal) x0 x1 x3 x4 x9 x10 x11 x12 x13 x14 x15 x16 (ix2 i k) = H k)
    (D : Fin 1024 → EReal) (hD : ∀ r : Fin 1024, val_main_v85 (F := Ideal) x0 x1 x3 x4 x9 x10 x11 x12 x13 x14 x15 x16 x17 x18 (ix2 i r) = D r) :
    val_main_v90 (F := Ideal) x0 x1 x3 x4 x9 x10 x11 x12 x13 x14 x15 x16 x17 x18 x19 x20 (ix2 i q) = Cert.Spec.ffnRow H D x19 (Cert.Spec.row x20) q := by
  rw [val_main_v90_apply, val_main_v87_apply, val_main_v86_apply, val_main_v89_apply, val_main_v88_apply, hH q,
    show idx_main_v88 (idx_main_v89 (ix2 i q)) = ix1 q from funext fun a => Fin.ext (by match a with | ⟨0, _⟩ => rfl)]
  unfold Cert.Spec.ffnRow Cert.Spec.row
  simp only [Ideal.addf_def]
  refine (add_assoc _ _ _).trans ?_
  refine congrArg (fun t => H q + (t + x20 (ix1 q))) (Finset.sum_congr rfl fun r _ => ?_)
  rw [show lidx_main_v86 (ix2 i q) r = ix2 i r from funext fun a => Fin.ext (by match a with | ⟨0, _⟩ => rfl | ⟨1, _⟩ => rfl),
    show ridx_main_v86 (ix2 i q) r = ix2 r q from funext fun a => Fin.ext (by match a with | ⟨0, _⟩ => rfl | ⟨1, _⟩ => rfl), hD r]

/-- The row mean read at the column shape (stages %91..%94). -/
theorem c_n_mean2 (i : Fin 10000) (P : Fin 256 → EReal) (hP : ∀ k : Fin 256, val_main_v90 (F := Ideal) x0 x1 x3 x4 x9 x10 x11 x12 x13 x14 x15 x16 x17 x18 x19 x20 (ix2 i k) = P k) :
    val_main_v94 (F := Ideal) x0 x1 x3 x4 x9 x10 x11 x12 x13 x14 x15 x16 x17 x18 x19 x20 (ix2 i (0 : Fin 1)) = Cert.Spec.meanRow P := by
  rw [val_main_v94_apply, val_main_v92_apply, val_main_v91_apply, val_main_cst_15_apply, val_main_v93_apply, val_main_cst_16_apply]
  unfold Cert.Spec.meanRow Cert.Spec.c256
  simp only [Ideal.hostDivf_def, Ideal.ofBits_def, Ideal.ofBits_zero_f32, zero_add]
  refine congrArg (fun t => Ideal.div t _) (Finset.sum_congr rfl fun k _ => ?_)
  rw [show idx_main_v91 (idx_main_v92 (ix2 i (0 : Fin 1))) k = ix2 i k from funext fun a => Fin.ext (by match a with | ⟨0, _⟩ => rfl | ⟨1, _⟩ => rfl)]
  exact hP k

/-- The mean broadcast along the row (stage %95). -/
theorem c_n_meanA2 (i : Fin 10000) (q : Fin 256) (P : Fin 256 → EReal) (hP : ∀ k : Fin 256, val_main_v90 (F := Ideal) x0 x1 x3 x4 x9 x10 x11 x12 x13 x14 x15 x16 x17 x18 x19 x20 (ix2 i k) = P k) :
    val_main_v95 (F := Ideal) x0 x1 x3 x4 x9 x10 x11 x12 x13 x14 x15 x16 x17 x18 x19 x20 (ix2 i q) = Cert.Spec.meanRow P := by
  rw [val_main_v95_apply, show idx_main_v95 (ix2 i q) = ix2 i (0 : Fin 1) from funext fun a => Fin.ext (by match a with | ⟨0, _⟩ => rfl | ⟨1, _⟩ => rfl)]
  exact c_n_mean2 x0 x1 x3 x4 x9 x10 x11 x12 x13 x14 x15 x16 x17 x18 x19 x20 i P hP

/-- The same broadcast, second copy (stage %102). -/
theorem c_n_meanB2 (i : Fin 10000) (q : Fin 256) (P : Fin 256 → EReal) (hP : ∀ k : Fin 256, val_main_v90 (F := Ideal) x0 x1 x3 x4 x9 x10 x11 x12 x13 x14 x15 x16 x17 x18 x19 x20 (ix2 i k) = P k) :
    val_main_v102 (F := Ideal) x0 x1 x3 x4 x9 x10 x11 x12 x13 x14 x15 x16 x17 x18 x19 x20 (ix2 i q) = Cert.Spec.meanRow P := by
  rw [val_main_v102_apply, show idx_main_v102 (ix2 i q) = ix2 i (0 : Fin 1) from funext fun a => Fin.ext (by match a with | ⟨0, _⟩ => rfl | ⟨1, _⟩ => rfl)]
  exact c_n_mean2 x0 x1 x3 x4 x9 x10 x11 x12 x13 x14 x15 x16 x17 x18 x19 x20 i P hP

/-- The row variance at the column shape (stages %96..%101). -/
theorem c_n_var2 (i : Fin 10000) (P : Fin 256 → EReal) (hP : ∀ k : Fin 256, val_main_v90 (F := Ideal) x0 x1 x3 x4 x9 x10 x11 x12 x13 x14 x15 x16 x17 x18 x19 x20 (ix2 i k) = P k) :
    val_main_v101 (F := Ideal) x0 x1 x3 x4 x9 x10 x11 x12 x13 x14 x15 x16 x17 x18 x19 x20 (ix2 i (0 : Fin 1)) = Cert.Spec.varRow P := by
  rw [val_main_v101_apply, val_main_v99_apply, val_main_v98_apply, val_main_cst_17_apply, val_main_v100_apply, val_main_cst_18_apply]
  unfold Cert.Spec.varRow Cert.Spec.c256
  simp only [Ideal.hostDivf_def, Ideal.ofBits_def, Ideal.ofBits_zero_f32, zero_add]
  refine congrArg (fun t => Ideal.div t _) (Finset.sum_congr rfl fun k _ => ?_)
  rw [show idx_main_v98 (idx_main_v99 (ix2 i (0 : Fin 1))) k = ix2 i k from funext fun a => Fin.ext (by match a with | ⟨0, _⟩ => rfl | ⟨1, _⟩ => rfl),
    val_main_v97_apply, val_main_v96_apply, c_n_meanA2 x0 x1 x3 x4 x9 x10 x11 x12 x13 x14 x15 x16 x17 x18 x19 x20 i k P hP, hP k]
  simp only [Ideal.mulf_def, Ideal.subf_def]

/-- The normalised row (stages %103..%114). -/
theorem c_n_ln2 (i : Fin 10000) (q : Fin 256) (P : Fin 256 → EReal) (hP : ∀ k : Fin 256, val_main_v90 (F := Ideal) x0 x1 x3 x4 x9 x10 x11 x12 x13 x14 x15 x16 x17 x18 x19 x20 (ix2 i k) = P k) :
    val_main_v114 (F := Ideal) x0 x1 x3 x4 x9 x10 x11 x12 x13 x14 x15 x16 x17 x18 x19 x20 x21 x22 (ix2 i q)
      = Cert.Spec.lnRow P (fun q => Cert.Spec.row x21 (ix2 0 q)) (fun q => Cert.Spec.row x22 (ix2 0 q)) q := by
  rw [val_main_v114_apply, val_main_v111_apply, val_main_v108_apply, val_main_v103_apply, c_n_meanB2 x0 x1 x3 x4 x9 x10 x11 x12 x13 x14 x15 x16 x17 x18 x19 x20 i q P hP, hP q,
    val_main_v107_apply, show idx_main_v107 (ix2 i q) = ix2 i (0 : Fin 1) from funext fun a => Fin.ext (by match a with | ⟨0, _⟩ => rfl | ⟨1, _⟩ => rfl),
    val_main_v106_apply, val_main_v105_apply, c_n_var2 x0 x1 x3 x4 x9 x10 x11 x12 x13 x14 x15 x16 x17 x18 x19 x20 i P hP, val_main_v104_apply, val_main_cst_19_apply,
    val_main_v110_apply, val_main_v109_apply, val_main_v113_apply, val_main_v112_apply,
    show idx_main_v109 (idx_main_v110 (ix2 i q)) = ix1 q from funext fun a => Fin.ext (by match a with | ⟨0, _⟩ => rfl),
    show idx_main_v112 (idx_main_v113 (ix2 i q)) = ix1 q from funext fun a => Fin.ext (by match a with | ⟨0, _⟩ => rfl)]
  unfold Cert.Spec.lnRow Cert.Spec.row Cert.Spec.eps
  simp only [Ideal.addf_def, Ideal.mulf_def, Ideal.subf_def, Ideal.hostUnary_rsqrt_def, Ideal.ofBits_def]

end Node

theorem v114_eq (x0 : (⟨S10000x256, .f32⟩ : BufTy).Contents (Elt Ideal)) (x1 : (⟨S160000x256, .f32⟩ : BufTy).Contents (Elt Ideal)) (x3 x4 : (⟨S160000, .i32⟩ : BufTy).Contents (Elt Ideal)) (x9 : (⟨S256x256, .f32⟩ : BufTy).Contents (Elt Ideal)) (x10 : (⟨S256, .f32⟩ : BufTy).Contents (Elt Ideal)) (x11 x12 x13 : (⟨S256x256, .f32⟩ : BufTy).Contents (Elt Ideal)) (x14 x15 x16 : (⟨S256, .f32⟩ : BufTy).Contents (Elt Ideal)) (x17 : (⟨S256x1024, .f32⟩ : BufTy).Contents (Elt Ideal)) (x18 : (⟨S1024, .f32⟩ : BufTy).Contents (Elt Ideal)) (x19 : (⟨S1024x256, .f32⟩ : BufTy).Contents (Elt Ideal)) (x20 x21 x22 : (⟨S256, .f32⟩ : BufTy).Contents (Elt Ideal)) :
    val_main_v114 (F := Ideal) x0 x1 x3 x4 x9 x10 x11 x12 x13 x14 x15 x16 x17 x18 x19 x20 x21 x22
      = Cert.Spec.blockOut (R := 10000) x0 (val_main_v51 (F := Ideal) x0 x1 x3 x4 x9 x10 x11 x12) x13 (Cert.Spec.row x14) (Cert.Spec.row x15) (Cert.Spec.row x16)
          x17 (Cert.Spec.row x18) x19 (Cert.Spec.row x20) (Cert.Spec.row x21) (Cert.Spec.row x22) := by
  funext j
  obtain ⟨i, q, rfl⟩ : ∃ (i : Fin 10000) (q : Fin 256), j = ix2 i q := ⟨j 0, j 1, eq_ix2 j⟩
  have h1 := fun k => c_n_hpre x0 x1 x3 x4 x9 x10 x11 x12 x13 x14 i k
  have h2 := fun k => c_n_ln1 x0 x1 x3 x4 x9 x10 x11 x12 x13 x14 x15 x16 i k _ h1
  have h3 := fun r => c_n_hid x0 x1 x3 x4 x9 x10 x11 x12 x13 x14 x15 x16 x17 x18 i r _ h2
  have h4 := fun k => c_n_ffn x0 x1 x3 x4 x9 x10 x11 x12 x13 x14 x15 x16 x17 x18 x19 x20 i k _ h2 _ h3
  exact c_n_ln2 x0 x1 x3 x4 x9 x10 x11 x12 x13 x14 x15 x16 x17 x18 x19 x20 x21 x22 i q _ h4

section Edge
variable (x0 : (⟨S10000x256, .f32⟩ : BufTy).Contents (Elt Ideal)) (x1 : (⟨S160000x256, .f32⟩ : BufTy).Contents (Elt Ideal)) (x5 x6 : (⟨S320000, .i32⟩ : BufTy).Contents (Elt Ideal)) (x7 x8 : (⟨S160000, .i32⟩ : BufTy).Contents (Elt Ideal)) (x23 : (⟨S256x256, .f32⟩ : BufTy).Contents (Elt Ideal)) (x24 : (⟨S256, .f32⟩ : BufTy).Contents (Elt Ideal)) (x25 x26 x27 : (⟨S256x256, .f32⟩ : BufTy).Contents (Elt Ideal)) (x28 x29 x30 : (⟨S256, .f32⟩ : BufTy).Contents (Elt Ideal)) (x31 : (⟨S256x1024, .f32⟩ : BufTy).Contents (Elt Ideal)) (x32 : (⟨S1024, .f32⟩ : BufTy).Contents (Elt Ideal)) (x33 : (⟨S1024x256, .f32⟩ : BufTy).Contents (Elt Ideal)) (x34 x35 x36 : (⟨S256, .f32⟩ : BufTy).Contents (Elt Ideal))

/-- First residual: the row plus the projected attention row plus the bias (stages %180..%184). -/
theorem c_e_hpre (i : Fin 160000) (q : Fin 256) :
    val_main_v184 (F := Ideal) x0 x1 x5 x6 x7 x8 x23 x24 x25 x26 x27 x28 (ix2 i q)
      = Cert.Spec.hpreRow (fun k => x1 (ix2 i k)) (fun k => val_main_v179 (F := Ideal) x0 x1 x5 x6 x7 x8 x23 x24 x25 x26 (ix2 i k)) x27 (Cert.Spec.row x28) q := by
  rw [val_main_v184_apply, val_main_v181_apply, val_main_v180_apply, val_main_v183_apply, val_main_v182_apply,
    show idx_main_v182 (idx_main_v183 (ix2 i q)) = ix1 q from funext fun a => Fin.ext (by match a with | ⟨0, _⟩ => rfl)]
  unfold Cert.Spec.hpreRow Cert.Spec.row
  simp only [Ideal.addf_def]
  refine congrArg (fun t => x1 (ix2 i q) + t + x28 (ix1 q)) (Finset.sum_congr rfl fun k _ => ?_)
  rw [show lidx_main_v180 (ix2 i q) k = ix2 i k from funext fun a => Fin.ext (by match a with | ⟨0, _⟩ => rfl | ⟨1, _⟩ => rfl),
    show ridx_main_v180 (ix2 i q) k = ix2 k q from funext fun a => Fin.ext (by match a with | ⟨0, _⟩ => rfl | ⟨1, _⟩ => rfl)]

/-- The row mean read at the column shape (stages %185..%188). -/
theorem c_e_mean1 (i : Fin 160000) (P : Fin 256 → EReal) (hP : ∀ k : Fin 256, val_main_v184 (F := Ideal) x0 x1 x5 x6 x7 x8 x23 x24 x25 x26 x27 x28 (ix2 i k) = P k) :
    val_main_v188 (F := Ideal) x0 x1 x5 x6 x7 x8 x23 x24 x25 x26 x27 x28 (ix2 i (0 : Fin 1)) = Cert.Spec.meanRow P := by
  rw [val_main_v188_apply, val_main_v186_apply, val_main_v185_apply, val_main_cst_36_apply, val_main_v187_apply, val_main_cst_37_apply]
  unfold Cert.Spec.meanRow Cert.Spec.c256
  simp only [Ideal.hostDivf_def, Ideal.ofBits_def, Ideal.ofBits_zero_f32, zero_add]
  refine congrArg (fun t => Ideal.div t _) (Finset.sum_congr rfl fun k _ => ?_)
  rw [show idx_main_v185 (idx_main_v186 (ix2 i (0 : Fin 1))) k = ix2 i k from funext fun a => Fin.ext (by match a with | ⟨0, _⟩ => rfl | ⟨1, _⟩ => rfl)]
  exact hP k

/-- The mean broadcast along the row (stage %189). -/
theorem c_e_meanA1 (i : Fin 160000) (q : Fin 256) (P : Fin 256 → EReal) (hP : ∀ k : Fin 256, val_main_v184 (F := Ideal) x0 x1 x5 x6 x7 x8 x23 x24 x25 x26 x27 x28 (ix2 i k) = P k) :
    val_main_v189 (F := Ideal) x0 x1 x5 x6 x7 x8 x23 x24 x25 x26 x27 x28 (ix2 i q) = Cert.Spec.meanRow P := by
  rw [val_main_v189_apply, show idx_main_v189 (ix2 i q) = ix2 i (0 : Fin 1) from funext fun a => Fin.ext (by match a with | ⟨0, _⟩ => rfl | ⟨1, _⟩ => rfl)]
  exact c_e_mean1 x0 x1 x5 x6 x7 x8 x23 x24 x25 x26 x27 x28 i P hP

/-- The same broadcast, second copy (stage %196). -/
theorem c_e_meanB1 (i : Fin 160000) (q : Fin 256) (P : Fin 256 → EReal) (hP : ∀ k : Fin 256, val_main_v184 (F := Ideal) x0 x1 x5 x6 x7 x8 x23 x24 x25 x26 x27 x28 (ix2 i k) = P k) :
    val_main_v196 (F := Ideal) x0 x1 x5 x6 x7 x8 x23 x24 x25 x26 x27 x28 (ix2 i q) = Cert.Spec.meanRow P := by
  rw [val_main_v196_apply, show idx_main_v196 (ix2 i q) = ix2 i (0 : Fin 1) from funext fun a => Fin.ext (by match a with | ⟨0, _⟩ => rfl | ⟨1, _⟩ => rfl)]
  exact c_e_mean1 x0 x1 x5 x6 x7 x8 x23 x24 x25 x26 x27 x28 i P hP

/-- The row variance at the column shape (stages %190..%195). -/
theorem c_e_var1 (i : Fin 160000) (P : Fin 256 → EReal) (hP : ∀ k : Fin 256, val_main_v184 (F := Ideal) x0 x1 x5 x6 x7 x8 x23 x24 x25 x26 x27 x28 (ix2 i k) = P k) :
    val_main_v195 (F := Ideal) x0 x1 x5 x6 x7 x8 x23 x24 x25 x26 x27 x28 (ix2 i (0 : Fin 1)) = Cert.Spec.varRow P := by
  rw [val_main_v195_apply, val_main_v193_apply, val_main_v192_apply, val_main_cst_38_apply, val_main_v194_apply, val_main_cst_39_apply]
  unfold Cert.Spec.varRow Cert.Spec.c256
  simp only [Ideal.hostDivf_def, Ideal.ofBits_def, Ideal.ofBits_zero_f32, zero_add]
  refine congrArg (fun t => Ideal.div t _) (Finset.sum_congr rfl fun k _ => ?_)
  rw [show idx_main_v192 (idx_main_v193 (ix2 i (0 : Fin 1))) k = ix2 i k from funext fun a => Fin.ext (by match a with | ⟨0, _⟩ => rfl | ⟨1, _⟩ => rfl),
    val_main_v191_apply, val_main_v190_apply, c_e_meanA1 x0 x1 x5 x6 x7 x8 x23 x24 x25 x26 x27 x28 i k P hP, hP k]
  simp only [Ideal.mulf_def, Ideal.subf_def]

/-- The normalised row (stages %197..%208). -/
theorem c_e_ln1 (i : Fin 160000) (q : Fin 256) (P : Fin 256 → EReal) (hP : ∀ k : Fin 256, val_main_v184 (F := Ideal) x0 x1 x5 x6 x7 x8 x23 x24 x25 x26 x27 x28 (ix2 i k) = P k) :
    val_main_v208 (F := Ideal) x0 x1 x5 x6 x7 x8 x23 x24 x25 x26 x27 x28 x29 x30 (ix2 i q)
      = Cert.Spec.lnRow P (fun q => Cert.Spec.row x29 (ix2 0 q)) (fun q => Cert.Spec.row x30 (ix2 0 q)) q := by
  rw [val_main_v208_apply, val_main_v205_apply, val_main_v202_apply, val_main_v197_apply, c_e_meanB1 x0 x1 x5 x6 x7 x8 x23 x24 x25 x26 x27 x28 i q P hP, hP q,
    val_main_v201_apply, show idx_main_v201 (ix2 i q) = ix2 i (0 : Fin 1) from funext fun a => Fin.ext (by match a with | ⟨0, _⟩ => rfl | ⟨1, _⟩ => rfl),
    val_main_v200_apply, val_main_v199_apply, c_e_var1 x0 x1 x5 x6 x7 x8 x23 x24 x25 x26 x27 x28 i P hP, val_main_v198_apply, val_main_cst_40_apply,
    val_main_v204_apply, val_main_v203_apply, val_main_v207_apply, val_main_v206_apply,
    show idx_main_v203 (idx_main_v204 (ix2 i q)) = ix1 q from funext fun a => Fin.ext (by match a with | ⟨0, _⟩ => rfl),
    show idx_main_v206 (idx_main_v207 (ix2 i q)) = ix1 q from funext fun a => Fin.ext (by match a with | ⟨0, _⟩ => rfl)]
  unfold Cert.Spec.lnRow Cert.Spec.row Cert.Spec.eps
  simp only [Ideal.addf_def, Ideal.mulf_def, Ideal.subf_def, Ideal.hostUnary_rsqrt_def, Ideal.ofBits_def]

/-- The perceptron's hidden row (stages %209..%213). -/
theorem c_e_hid (i : Fin 160000) (r : Fin 1024) (H : Fin 256 → EReal) (hH : ∀ k : Fin 256, val_main_v208 (F := Ideal) x0 x1 x5 x6 x7 x8 x23 x24 x25 x26 x27 x28 x29 x30 (ix2 i k) = H k) :
    val_main_v213 (F := Ideal) x0 x1 x5 x6 x7 x8 x23 x24 x25 x26 x27 x28 x29 x30 x31 x32 (ix2 i r) = Cert.Spec.hidRow H x31 (Cert.Spec.row x32) r := by
  rw [val_main_v213_apply, val_main_v212_apply, val_main_v209_apply, val_main_v211_apply, val_main_v210_apply, val_main_call3_v0_apply, val_main_call3_cst_apply,
    show idx_main_v210 (idx_main_v211 (ix2 i r)) = ix1 r from funext fun a => Fin.ext (by match a with | ⟨0, _⟩ => rfl)]
  unfold Cert.Spec.hidRow Cert.Spec.row Cert.Spec.zero32
  simp only [Ideal.maximumf_def, Ideal.addf_def, Ideal.ofBits_def]
  refine congrArg (fun t => max (t + x32 (ix1 r)) _) (Finset.sum_congr rfl fun k _ => ?_)
  rw [show lidx_main_v209 (ix2 i r) k = ix2 i k from funext fun a => Fin.ext (by match a with | ⟨0, _⟩ => rfl | ⟨1, _⟩ => rfl),
    show ridx_main_v209 (ix2 i r) k = ix2 k r from funext fun a => Fin.ext (by match a with | ⟨0, _⟩ => rfl | ⟨1, _⟩ => rfl), hH k]

/-- Second residual: the normalised row plus the perceptron's output plus its bias (stages %214..%218). -/
theorem c_e_ffn (i : Fin 160000) (q : Fin 256) (H : Fin 256 → EReal) (hH : ∀ k : Fin 256, val_main_v208 (F := Ideal) x0 x1 x5 x6 x7 x8 x23 x24 x25 x26 x27 x28 x29 x30 (ix2 i k) = H k)
    (D : Fin 1024 → EReal) (hD : ∀ r : Fin 1024, val_main_v213 (F := Ideal) x0 x1 x5 x6 x7 x8 x23 x24 x25 x26 x27 x28 x29 x30 x31 x32 (ix2 i r) = D r) :
    val_main_v218 (F := Ideal) x0 x1 x5 x6 x7 x8 x23 x24 x25 x26 x27 x28 x29 x30 x31 x32 x33 x34 (ix2 i q) = Cert.Spec.ffnRow H D x33 (Cert.Spec.row x34) q := by
  rw [val_main_v218_apply, val_main_v215_apply, val_main_v214_apply, val_main_v217_apply, val_main_v216_apply, hH q,
    show idx_main_v216 (idx_main_v217 (ix2 i q)) = ix1 q from funext fun a => Fin.ext (by match a with | ⟨0, _⟩ => rfl)]
  unfold Cert.Spec.ffnRow Cert.Spec.row
  simp only [Ideal.addf_def]
  refine (add_assoc _ _ _).trans ?_
  refine congrArg (fun t => H q + (t + x34 (ix1 q))) (Finset.sum_congr rfl fun r _ => ?_)
  rw [show lidx_main_v214 (ix2 i q) r = ix2 i r from funext fun a => Fin.ext (by match a with | ⟨0, _⟩ => rfl | ⟨1, _⟩ => rfl),
    show ridx_main_v214 (ix2 i q) r = ix2 r q from funext fun a => Fin.ext (by match a with | ⟨0, _⟩ => rfl | ⟨1, _⟩ => rfl), hD r]

/-- The row mean read at the column shape (stages %219..%222). -/
theorem c_e_mean2 (i : Fin 160000) (P : Fin 256 → EReal) (hP : ∀ k : Fin 256, val_main_v218 (F := Ideal) x0 x1 x5 x6 x7 x8 x23 x24 x25 x26 x27 x28 x29 x30 x31 x32 x33 x34 (ix2 i k) = P k) :
    val_main_v222 (F := Ideal) x0 x1 x5 x6 x7 x8 x23 x24 x25 x26 x27 x28 x29 x30 x31 x32 x33 x34 (ix2 i (0 : Fin 1)) = Cert.Spec.meanRow P := by
  rw [val_main_v222_apply, val_main_v220_apply, val_main_v219_apply, val_main_cst_41_apply, val_main_v221_apply, val_main_cst_42_apply]
  unfold Cert.Spec.meanRow Cert.Spec.c256
  simp only [Ideal.hostDivf_def, Ideal.ofBits_def, Ideal.ofBits_zero_f32, zero_add]
  refine congrArg (fun t => Ideal.div t _) (Finset.sum_congr rfl fun k _ => ?_)
  rw [show idx_main_v219 (idx_main_v220 (ix2 i (0 : Fin 1))) k = ix2 i k from funext fun a => Fin.ext (by match a with | ⟨0, _⟩ => rfl | ⟨1, _⟩ => rfl)]
  exact hP k

/-- The mean broadcast along the row (stage %223). -/
theorem c_e_meanA2 (i : Fin 160000) (q : Fin 256) (P : Fin 256 → EReal) (hP : ∀ k : Fin 256, val_main_v218 (F := Ideal) x0 x1 x5 x6 x7 x8 x23 x24 x25 x26 x27 x28 x29 x30 x31 x32 x33 x34 (ix2 i k) = P k) :
    val_main_v223 (F := Ideal) x0 x1 x5 x6 x7 x8 x23 x24 x25 x26 x27 x28 x29 x30 x31 x32 x33 x34 (ix2 i q) = Cert.Spec.meanRow P := by
  rw [val_main_v223_apply, show idx_main_v223 (ix2 i q) = ix2 i (0 : Fin 1) from funext fun a => Fin.ext (by match a with | ⟨0, _⟩ => rfl | ⟨1, _⟩ => rfl)]
  exact c_e_mean2 x0 x1 x5 x6 x7 x8 x23 x24 x25 x26 x27 x28 x29 x30 x31 x32 x33 x34 i P hP

/-- The same broadcast, second copy (stage %230). -/
theorem c_e_meanB2 (i : Fin 160000) (q : Fin 256) (P : Fin 256 → EReal) (hP : ∀ k : Fin 256, val_main_v218 (F := Ideal) x0 x1 x5 x6 x7 x8 x23 x24 x25 x26 x27 x28 x29 x30 x31 x32 x33 x34 (ix2 i k) = P k) :
    val_main_v230 (F := Ideal) x0 x1 x5 x6 x7 x8 x23 x24 x25 x26 x27 x28 x29 x30 x31 x32 x33 x34 (ix2 i q) = Cert.Spec.meanRow P := by
  rw [val_main_v230_apply, show idx_main_v230 (ix2 i q) = ix2 i (0 : Fin 1) from funext fun a => Fin.ext (by match a with | ⟨0, _⟩ => rfl | ⟨1, _⟩ => rfl)]
  exact c_e_mean2 x0 x1 x5 x6 x7 x8 x23 x24 x25 x26 x27 x28 x29 x30 x31 x32 x33 x34 i P hP

/-- The row variance at the column shape (stages %224..%229). -/
theorem c_e_var2 (i : Fin 160000) (P : Fin 256 → EReal) (hP : ∀ k : Fin 256, val_main_v218 (F := Ideal) x0 x1 x5 x6 x7 x8 x23 x24 x25 x26 x27 x28 x29 x30 x31 x32 x33 x34 (ix2 i k) = P k) :
    val_main_v229 (F := Ideal) x0 x1 x5 x6 x7 x8 x23 x24 x25 x26 x27 x28 x29 x30 x31 x32 x33 x34 (ix2 i (0 : Fin 1)) = Cert.Spec.varRow P := by
  rw [val_main_v229_apply, val_main_v227_apply, val_main_v226_apply, val_main_cst_43_apply, val_main_v228_apply, val_main_cst_44_apply]
  unfold Cert.Spec.varRow Cert.Spec.c256
  simp only [Ideal.hostDivf_def, Ideal.ofBits_def, Ideal.ofBits_zero_f32, zero_add]
  refine congrArg (fun t => Ideal.div t _) (Finset.sum_congr rfl fun k _ => ?_)
  rw [show idx_main_v226 (idx_main_v227 (ix2 i (0 : Fin 1))) k = ix2 i k from funext fun a => Fin.ext (by match a with | ⟨0, _⟩ => rfl | ⟨1, _⟩ => rfl),
    val_main_v225_apply, val_main_v224_apply, c_e_meanA2 x0 x1 x5 x6 x7 x8 x23 x24 x25 x26 x27 x28 x29 x30 x31 x32 x33 x34 i k P hP, hP k]
  simp only [Ideal.mulf_def, Ideal.subf_def]

/-- The normalised row (stages %231..%242). -/
theorem c_e_ln2 (i : Fin 160000) (q : Fin 256) (P : Fin 256 → EReal) (hP : ∀ k : Fin 256, val_main_v218 (F := Ideal) x0 x1 x5 x6 x7 x8 x23 x24 x25 x26 x27 x28 x29 x30 x31 x32 x33 x34 (ix2 i k) = P k) :
    val_main_v242 (F := Ideal) x0 x1 x5 x6 x7 x8 x23 x24 x25 x26 x27 x28 x29 x30 x31 x32 x33 x34 x35 x36 (ix2 i q)
      = Cert.Spec.lnRow P (fun q => Cert.Spec.row x35 (ix2 0 q)) (fun q => Cert.Spec.row x36 (ix2 0 q)) q := by
  rw [val_main_v242_apply, val_main_v239_apply, val_main_v236_apply, val_main_v231_apply, c_e_meanB2 x0 x1 x5 x6 x7 x8 x23 x24 x25 x26 x27 x28 x29 x30 x31 x32 x33 x34 i q P hP, hP q,
    val_main_v235_apply, show idx_main_v235 (ix2 i q) = ix2 i (0 : Fin 1) from funext fun a => Fin.ext (by match a with | ⟨0, _⟩ => rfl | ⟨1, _⟩ => rfl),
    val_main_v234_apply, val_main_v233_apply, c_e_var2 x0 x1 x5 x6 x7 x8 x23 x24 x25 x26 x27 x28 x29 x30 x31 x32 x33 x34 i P hP, val_main_v232_apply, val_main_cst_45_apply,
    val_main_v238_apply, val_main_v237_apply, val_main_v241_apply, val_main_v240_apply,
    show idx_main_v237 (idx_main_v238 (ix2 i q)) = ix1 q from funext fun a => Fin.ext (by match a with | ⟨0, _⟩ => rfl),
    show idx_main_v240 (idx_main_v241 (ix2 i q)) = ix1 q from funext fun a => Fin.ext (by match a with | ⟨0, _⟩ => rfl)]
  unfold Cert.Spec.lnRow Cert.Spec.row Cert.Spec.eps
  simp only [Ideal.addf_def, Ideal.mulf_def, Ideal.subf_def, Ideal.hostUnary_rsqrt_def, Ideal.ofBits_def]

end Edge

theorem v242_eq (x0 : (⟨S10000x256, .f32⟩ : BufTy).Contents (Elt Ideal)) (x1 : (⟨S160000x256, .f32⟩ : BufTy).Contents (Elt Ideal)) (x5 x6 : (⟨S320000, .i32⟩ : BufTy).Contents (Elt Ideal)) (x7 x8 : (⟨S160000, .i32⟩ : BufTy).Contents (Elt Ideal)) (x23 : (⟨S256x256, .f32⟩ : BufTy).Contents (Elt Ideal)) (x24 : (⟨S256, .f32⟩ : BufTy).Contents (Elt Ideal)) (x25 x26 x27 : (⟨S256x256, .f32⟩ : BufTy).Contents (Elt Ideal)) (x28 x29 x30 : (⟨S256, .f32⟩ : BufTy).Contents (Elt Ideal)) (x31 : (⟨S256x1024, .f32⟩ : BufTy).Contents (Elt Ideal)) (x32 : (⟨S1024, .f32⟩ : BufTy).Contents (Elt Ideal)) (x33 : (⟨S1024x256, .f32⟩ : BufTy).Contents (Elt Ideal)) (x34 x35 x36 : (⟨S256, .f32⟩ : BufTy).Contents (Elt Ideal)) :
    val_main_v242 (F := Ideal) x0 x1 x5 x6 x7 x8 x23 x24 x25 x26 x27 x28 x29 x30 x31 x32 x33 x34 x35 x36
      = Cert.Spec.blockOut (R := 160000) x1 (val_main_v179 (F := Ideal) x0 x1 x5 x6 x7 x8 x23 x24 x25 x26) x27 (Cert.Spec.row x28) (Cert.Spec.row x29) (Cert.Spec.row x30)
          x31 (Cert.Spec.row x32) x33 (Cert.Spec.row x34) (Cert.Spec.row x35) (Cert.Spec.row x36) := by
  funext j
  obtain ⟨i, q, rfl⟩ : ∃ (i : Fin 160000) (q : Fin 256), j = ix2 i q := ⟨j 0, j 1, eq_ix2 j⟩
  have h1 := fun k => c_e_hpre x0 x1 x5 x6 x7 x8 x23 x24 x25 x26 x27 x28 i k
  have h2 := fun k => c_e_ln1 x0 x1 x5 x6 x7 x8 x23 x24 x25 x26 x27 x28 x29 x30 i k _ h1
  have h3 := fun r => c_e_hid x0 x1 x5 x6 x7 x8 x23 x24 x25 x26 x27 x28 x29 x30 x31 x32 i r _ h2
  have h4 := fun k => c_e_ffn x0 x1 x5 x6 x7 x8 x23 x24 x25 x26 x27 x28 x29 x30 x31 x32 x33 x34 i k _ h2 _ h3
  exact c_e_ln2 x0 x1 x5 x6 x7 x8 x23 x24 x25 x26 x27 x28 x29 x30 x31 x32 x33 x34 x35 x36 i q _ h4

end Cert.RefStages

end
-- ==== Proof.Stretch1.lean ====
/-
  Attention over the node graph, operation for operation.

  The host operations between the first and the second region compute, from the three projections q, k, v of the node
  features (each reshaped to 8 heads of 32 lanes), the edge features and the two endpoint tables of the graph:
  per edge the key and the value gathered at the source node plus the edge feature, the query gathered at the target
  node, the head-wise inner product of key and query divided by sqrt 32, clipped to [-10, 10] and exponentiated;
  then the sum over the edges into each target node of value times weight, divided by the sum of the weights.
  The reference computes the same composition of the same operations. Both are stated over an arbitrary float
  model: nothing here depends on what the operations are, only on their being the same ones in the same order.
  The last seven operations of the stretch reshape seven bias vectors into rows.
-/
import proofs.«178388_j2224793059900_1_alg».proof.Proof.Gen.KernelIdeal.Launch
import proofs.«178388_j2224793059900_1_alg».proof.Proof.ReadP

noncomputable section

namespace Cert.Stretch

open Idealize.ShloMosaic Idealize.SL.Sem Idealize.ShloMosaic.StableHlo
open Cert.KernelIdeal Cert.KernelIdeal.Gen

variable {F : FTy → Type} [FloatOps F]

/-- What the stretch leaves in the attention buffer is the reference's attention stage, given that the three
    projections and the graph's arguments are what the reference reads. -/
theorem attnN (Wk : Valuation τ sig (Elt F))
    (x0 : (⟨Cert.ReferenceIdeal.S10000x256, .f32⟩ : BufTy).Contents (Elt F)) (x1 : (⟨Cert.ReferenceIdeal.S160000x256, .f32⟩ : BufTy).Contents (Elt F))
    (x3 x4 : (⟨Cert.ReferenceIdeal.S160000, .i32⟩ : BufTy).Contents (Elt F))
    (x9 : (⟨Cert.ReferenceIdeal.S256x256, .f32⟩ : BufTy).Contents (Elt F)) (x10 : (⟨Cert.ReferenceIdeal.S256, .f32⟩ : BufTy).Contents (Elt F))
    (x11 x12 : (⟨Cert.ReferenceIdeal.S256x256, .f32⟩ : BufTy).Contents (Elt F))
    (hq : Wk (Proc.devRef .tc main_v1_0) = Cert.ReferenceIdeal.Read.val_main_v3 (F := F) x0 x9 x10)
    (hk : Wk (Proc.devRef .tc main_v1_1) = Cert.ReferenceIdeal.Read.val_main_v5 (F := F) x0 x11)
    (hv : Wk (Proc.devRef .tc main_v1_2) = Cert.ReferenceIdeal.Read.val_main_v7 (F := F) x0 x12)
    (h1 : Wk (Proc.devRef .tc main_arg1) = x1) (h3 : Wk (Proc.devRef .tc main_arg3) = x3)
    (h4 : Wk (Proc.devRef .tc main_arg4) = x4) :
    after hostOps1_2 (after hostOps1_1 (after hostOps1 Wk)) (Proc.devRef .tc main_v47)
      = Cert.ReferenceIdeal.Read.val_main_v51 (F := F) x0 x1 x3 x4 x9 x10 x11 x12 := by
  after_results_simp
  rw [hq, hk, hv, h1, h3, h4]
  rfl

set_option maxHeartbeats 2000000 in
/-- The seven bias vectors as rows. -/
theorem rows1 (Wk : Valuation τ sig (Elt F)) :
    after hostOps1_2 (after hostOps1_1 (after hostOps1 Wk)) (Proc.devRef .tc main_v48)
        = shapeCast _ (Wk (Proc.devRef .tc main_arg14)) shapeCasts_S256_S1x256
    ∧ after hostOps1_2 (after hostOps1_1 (after hostOps1 Wk)) (Proc.devRef .tc main_v49)
        = shapeCast _ (Wk (Proc.devRef .tc main_arg15)) shapeCasts_S256_S1x256
    ∧ after hostOps1_2 (after hostOps1_1 (after hostOps1 Wk)) (Proc.devRef .tc main_v50)
        = shapeCast _ (Wk (Proc.devRef .tc main_arg16)) shapeCasts_S256_S1x256
    ∧ after hostOps1_2 (after hostOps1_1 (after hostOps1 Wk)) (Proc.devRef .tc main_v51)
        = shapeCast _ (Wk (Proc.devRef .tc main_arg18)) shapeCasts_S1024_S1x1024
    ∧ after hostOps1_2 (after hostOps1_1 (after hostOps1 Wk)) (Proc.devRef .tc main_v52)
        = shapeCast _ (Wk (Proc.devRef .tc main_arg21)) shapeCasts_S256_S1x256
    ∧ after hostOps1_2 (after hostOps1_1 (after hostOps1 Wk)) (Proc.devRef .tc main_v53)
        = shapeCast _ (Wk (Proc.devRef .tc main_arg22)) shapeCasts_S256_S1x256
    ∧ after hostOps1_2 (after hostOps1_1 (after hostOps1 Wk)) (Proc.devRef .tc main_v54)
        = shapeCast _ (Wk (Proc.devRef .tc main_arg20)) shapeCasts_S256_S1x256 := by
  refine ⟨?_, ?_, ?_, ?_, ?_, ?_, ?_⟩ <;> (after_results_simp <;> rfl)

end Cert.Stretch

end
-- ==== Proof.Stretch2.lean ====
/-
  The two row gathers before the edge projections, operation for operation.

  Between the second and the third region the host gathers the rows of the node features at the two endpoint tables
  of the line graph (a negative entry wraps around by the number of nodes, as in the reference), and reshapes one bias
  vector into a row. The reference computes the same two gathers by the same operations. Stated over an arbitrary
  float model.
-/
import proofs.«178388_j2224793059900_1_alg».proof.Proof.Gen.KernelIdeal.Launch
import proofs.«178388_j2224793059900_1_alg».proof.Proof.ReadP

noncomputable section

namespace Cert.Stretch

open Idealize.ShloMosaic Idealize.SL.Sem Idealize.ShloMosaic.StableHlo
open Cert.KernelIdeal Cert.KernelIdeal.Gen

variable {F : FTy → Type} [FloatOps F]

/-- The two gathered arrays are the reference's, and the bias row is the reshaped bias vector. -/
theorem gathers (Wk : Valuation τ sig (Elt F))
    (x0 : (⟨Cert.ReferenceIdeal.S10000x256, .f32⟩ : BufTy).Contents (Elt F)) (x7 x8 : (⟨Cert.ReferenceIdeal.S160000, .i32⟩ : BufTy).Contents (Elt F))
    (h0 : Wk (Proc.devRef .tc main_arg0) = x0) (h7 : Wk (Proc.devRef .tc main_arg7) = x7)
    (h8 : Wk (Proc.devRef .tc main_arg8) = x8) :
    after hostOps2 Wk (Proc.devRef .tc main_v62) = Cert.ReferenceIdeal.Read.val_main_v121 (F := F) x0 x7
    ∧ after hostOps2 Wk (Proc.devRef .tc main_v69) = Cert.ReferenceIdeal.Read.val_main_v128 (F := F) x0 x8
    ∧ after hostOps2 Wk (Proc.devRef .tc main_v70)
        = shapeCast _ (Wk (Proc.devRef .tc main_arg24)) shapeCasts_S256_S1x256 := by
  refine ⟨?_, ?_, ?_⟩
  · after_results_simp
    rw [h0, h7]
    rfl
  · after_results_simp
    rw [h0, h8]
    rfl
  · after_results_simp
    rfl

end Cert.Stretch

end
-- ==== Proof.Stretch3.lean ====
/-
  Attention over the line graph, operation for operation.

  The host operations between the third and the fourth region compute, from the three projections q, k, v of the edge
  features (each reshaped to 8 heads of 32 lanes) and the two endpoint tables of the line graph: per pair the key and
  the value gathered at the source edge, the query gathered at the target edge, the head-wise inner product of key
  and query divided by sqrt 32, clipped to [-10, 10] and exponentiated; then the sum over the pairs into each target
  edge of value times weight, divided by the sum of the weights. There is no further addend on key and value here.
  The reference computes the same composition of the same operations. Stated over an arbitrary float model.
  The last seven operations of the stretch reshape seven bias vectors into rows.
-/
import proofs.«178388_j2224793059900_1_alg».proof.Proof.Gen.KernelIdeal.Launch
import proofs.«178388_j2224793059900_1_alg».proof.Proof.ReadP

noncomputable section

namespace Cert.Stretch

open Idealize.ShloMosaic Idealize.SL.Sem Idealize.ShloMosaic.StableHlo
open Cert.KernelIdeal Cert.KernelIdeal.Gen

variable {F : FTy → Type} [FloatOps F]

/-- What the stretch leaves in the attention buffer is the reference's attention stage, given that the three
    projections and the line graph's tables are what the reference reads. -/
theorem attnE (Wk : Valuation τ sig (Elt F))
    (x0 : (⟨Cert.ReferenceIdeal.S10000x256, .f32⟩ : BufTy).Contents (Elt F)) (x1 : (⟨Cert.ReferenceIdeal.S160000x256, .f32⟩ : BufTy).Contents (Elt F))
    (x5 x6 : (⟨Cert.ReferenceIdeal.S320000, .i32⟩ : BufTy).Contents (Elt F)) (x7 x8 : (⟨Cert.ReferenceIdeal.S160000, .i32⟩ : BufTy).Contents (Elt F))
    (x23 : (⟨Cert.ReferenceIdeal.S256x256, .f32⟩ : BufTy).Contents (Elt F)) (x24 : (⟨Cert.ReferenceIdeal.S256, .f32⟩ : BufTy).Contents (Elt F))
    (x25 x26 : (⟨Cert.ReferenceIdeal.S256x256, .f32⟩ : BufTy).Contents (Elt F))
    (hq : Wk (Proc.devRef .tc main_v71_0) = Cert.ReferenceIdeal.Read.val_main_v133 (F := F) x0 x1 x7 x23 x24)
    (hk : Wk (Proc.devRef .tc main_v71_1) = Cert.ReferenceIdeal.Read.val_main_v135 (F := F) x1 x25)
    (hv : Wk (Proc.devRef .tc main_v71_2) = Cert.ReferenceIdeal.Read.val_main_v138 (F := F) x0 x1 x8 x26)
    (h5 : Wk (Proc.devRef .tc main_arg5) = x5) (h6 : Wk (Proc.devRef .tc main_arg6) = x6) :
    after hostOps3_2 (after hostOps3_1 (after hostOps3 Wk)) (Proc.devRef .tc main_v114)
      = Cert.ReferenceIdeal.Read.val_main_v179 (F := F) x0 x1 x5 x6 x7 x8 x23 x24 x25 x26 := by
  after_results_simp
  rw [hq, hk, hv, h5, h6]
  rfl

set_option maxHeartbeats 2000000 in
/-- The seven bias vectors as rows. -/
theorem rows3 (Wk : Valuation τ sig (Elt F)) :
    after hostOps3_2 (after hostOps3_1 (after hostOps3 Wk)) (Proc.devRef .tc main_v115)
        = shapeCast _ (Wk (Proc.devRef .tc main_arg28)) shapeCasts_S256_S1x256
    ∧ after hostOps3_2 (after hostOps3_1 (after hostOps3 Wk)) (Proc.devRef .tc main_v116)
        = shapeCast _ (Wk (Proc.devRef .tc main_arg29)) shapeCasts_S256_S1x256
    ∧ after hostOps3_2 (after hostOps3_1 (after hostOps3 Wk)) (Proc.devRef .tc main_v117)
        = shapeCast _ (Wk (Proc.devRef .tc main_arg30)) shapeCasts_S256_S1x256
    ∧ after hostOps3_2 (after hostOps3_1 (after hostOps3 Wk)) (Proc.devRef .tc main_v118)
        = shapeCast _ (Wk (Proc.devRef .tc main_arg32)) shapeCasts_S1024_S1x1024
    ∧ after hostOps3_2 (after hostOps3_1 (after hostOps3 Wk)) (Proc.devRef .tc main_v119)
        = shapeCast _ (Wk (Proc.devRef .tc main_arg35)) shapeCasts_S256_S1x256
    ∧ after hostOps3_2 (after hostOps3_1 (after hostOps3 Wk)) (Proc.devRef .tc main_v120)
        = shapeCast _ (Wk (Proc.devRef .tc main_arg36)) shapeCasts_S256_S1x256
    ∧ after hostOps3_2 (after hostOps3_1 (after hostOps3 Wk)) (Proc.devRef .tc main_v121)
        = shapeCast _ (Wk (Proc.devRef .tc main_arg34)) shapeCasts_S256_S1x256 := by
  refine ⟨?_, ?_, ?_, ?_, ?_, ?_, ?_⟩ <;> (after_results_simp <;> rfl)

end Cert.Stretch

end
-- ==== Proof.Values.lean ====
/-
  The kernel program's two results are the reference's last stages of the same arguments.

  The buffer contents at the twelve segment boundaries are read forward from the launch: a projection region leaves the
  reference's projection stages in its three output arrays (its blocks are row blocks of one whole-array function), the
  host stretch after it is the reference's attention stretch operation for operation, the feed-forward region leaves the
  reference's last stage of the branch; the edge branch repeats the node branch on the line graph. Bias vectors enter a
  region as one-row matrices: a `[256] → [1, 256]` reshape of a vector is the vector as a row.
-/
import proofs.«178388_j2224793059900_1_alg».proof.Proof.Keep
import proofs.«178388_j2224793059900_1_alg».proof.Proof.Blocks02
import proofs.«178388_j2224793059900_1_alg».proof.Proof.Blocks13
import proofs.«178388_j2224793059900_1_alg».proof.Proof.KernelPayBlock
import proofs.«178388_j2224793059900_1_alg».proof.Proof.RefStagesQkv
import proofs.«178388_j2224793059900_1_alg».proof.Proof.RefStagesBlock
import proofs.«178388_j2224793059900_1_alg».proof.Proof.Stretch1
import proofs.«178388_j2224793059900_1_alg».proof.Proof.Stretch2
import proofs.«178388_j2224793059900_1_alg».proof.Proof.Stretch3
import Idealize.ShloMosaic.Lib.Pipeline.Value

set_option maxRecDepth 16384

noncomputable section

namespace Cert.Fold

open Idealize.ShloMosaic Idealize.ShloMosaic.TcCoe Idealize.SL.Sem Idealize.ShloMosaic.ValueIdx
open Cert.KernelIdeal Cert.KernelIdeal.Gen

/-- A vector reshaped to a one-row matrix is the vector as a row. -/
theorem rowCast_eq {C : ℕ} (x : (⟨1, ![C]⟩ : Shape).Idx → EReal) (h : (⟨1, ![C]⟩ : Shape).ShapeCasts ⟨2, ![1, C]⟩) :
    shapeCast ⟨2, ![1, C]⟩ x h = Cert.Spec.row x := by
  funext j
  refine shapeCast_apply x h j (ix1 (j 1)) ?_
  have h0 : (j 0).val < 1 := (j 0).isLt
  rw [Shape.rowMajor_val_two, Shape.rowMajor_val_one]
  show (j 1).val = (j 0).val * C + (j 1).val
  have : (j 0).val = 0 := by omega
  rw [this, Nat.zero_mul, Nat.zero_add]

/-- The block function respects equality of each operand. -/
theorem blockOut_congr {R : ℕ} {a0 b0 a1 b1 : Cert.Spec.Mat R 256} {a2 b2 : Cert.Spec.Mat 256 256} {a3 b3 a4 b4 a5 b5 : Cert.Spec.Mat 1 256}
    {a6 b6 : Cert.Spec.Mat 256 1024} {a7 b7 : Cert.Spec.Mat 1 1024} {a8 b8 : Cert.Spec.Mat 1024 256} {a9 b9 a10 b10 a11 b11 : Cert.Spec.Mat 1 256}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) (h11 : a11 = b11) :
    Cert.Spec.blockOut a0 a1 a2 a3 a4 a5 a6 a7 a8 a9 a10 a11 = Cert.Spec.blockOut b0 b1 b2 b3 b4 b5 b6 b7 b8 b9 b10 b11 := by
  subst h0 h1 h2 h3 h4 h5 h6 h7 h8 h9 h10 h11
  rfl

variable (m : (ℓ : Loc nD τ sig) → Buf (Elt Ideal) ℓ) (ρ : Dev nD → PrngReg) (c : Dev nD)

/-- An argument array's launch contents. -/
abbrev Arg (r : Ref sig .tc) : Buf (Elt Ideal) ((c : Thread nD τ).loc r) := m ((c : Thread nD τ).loc r)

/-! ## The node branch -/

/-- Region 0 is entered with the query bias as a row. -/
theorem W1_v0 : W1 m ρ c (Proc.devRef .tc main_v0) = Cert.Spec.row (Arg m c main_arg10) := by
  refine Eq.trans ?_ (rowCast_eq (Arg m c main_arg10) shapeCasts_S256_S1x256)
  show StableHlo.after hostOps0 (W0 m ρ c) (Proc.devRef .tc main_v0) = _
  after_results
  rfl

/-- After region 0 its three output arrays hold the reference's query, key and value stages. -/
theorem W2_q : W2 m ρ c (Proc.devRef .tc main_v1_0) = Cert.ReferenceIdeal.Read.val_main_v3 (F := Ideal) (Arg m c main_arg0) (Arg m c main_arg9) (Arg m c main_arg10) := by
  refine (W2_arr m ρ c 5).trans ((Cert.Blocks02.final0_5 (V1 m ρ) c).trans ?_)
  rw [Cert.RefStages.v3_eq]
  have e0 : V1 m ρ c main_arg0 = (Arg m c main_arg0) := W1_arg m ρ c main_arg0 (by decide)
  have e9 : V1 m ρ c main_arg9 = (Arg m c main_arg9) := W1_arg m ρ c main_arg9 (by decide)
  have ev : V1 m ρ c main_v0 = Cert.Spec.row (Arg m c main_arg10) := W1_v0 m ρ c
  rw [e0, e9, ev]
theorem W2_k : W2 m ρ c (Proc.devRef .tc main_v1_1) = Cert.ReferenceIdeal.Read.val_main_v5 (F := Ideal) (Arg m c main_arg0) (Arg m c main_arg11) := by
  refine (W2_arr m ρ c 6).trans ((Cert.Blocks02.final0_6 (V1 m ρ) c).trans ?_)
  rw [Cert.RefStages.v5_eq]
  have e0 : V1 m ρ c main_arg0 = (Arg m c main_arg0) := W1_arg m ρ c main_arg0 (by decide)
  have e11 : V1 m ρ c main_arg11 = (Arg m c main_arg11) := W1_arg m ρ c main_arg11 (by decide)
  rw [e0, e11]
theorem W2_v : W2 m ρ c (Proc.devRef .tc main_v1_2) = Cert.ReferenceIdeal.Read.val_main_v7 (F := Ideal) (Arg m c main_arg0) (Arg m c main_arg12) := by
  refine (W2_arr m ρ c 7).trans ((Cert.Blocks02.final0_7 (V1 m ρ) c).trans ?_)
  rw [Cert.RefStages.v7_eq]
  have e0 : V1 m ρ c main_arg0 = (Arg m c main_arg0) := W1_arg m ρ c main_arg0 (by decide)
  have e12 : V1 m ρ c main_arg12 = (Arg m c main_arg12) := W1_arg m ρ c main_arg12 (by decide)
  rw [e0, e12]

/-- The attention stretch ends with the reference's attention stage. -/
theorem W5_o : W5 m ρ c (Proc.devRef .tc main_v47) = Cert.ReferenceIdeal.Read.val_main_v51 (F := Ideal) (Arg m c main_arg0) (Arg m c main_arg1) (Arg m c main_arg3) (Arg m c main_arg4) (Arg m c main_arg9) (Arg m c main_arg10) (Arg m c main_arg11) (Arg m c main_arg12) :=
  Cert.Stretch.attnN (F := Ideal) (W2 m ρ c) _ _ _ _ _ _ _ _ (W2_q m ρ c) (W2_k m ρ c) (W2_v m ρ c)
    (W2_arg m ρ c main_arg1 (by decide)) (W2_arg m ρ c main_arg3 (by decide)) (W2_arg m ρ c main_arg4 (by decide))

/-- After region 1 its output array holds the reference's last stage of the node branch. -/
theorem W6_out : W6 m ρ c (Proc.devRef .tc main_v55) = Cert.ReferenceIdeal.Read.val_main_v114 (F := Ideal) (Arg m c main_arg0) (Arg m c main_arg1) (Arg m c main_arg3) (Arg m c main_arg4) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) (Arg m c main_arg20) (Arg m c main_arg21) (Arg m c main_arg22) := by
  refine (W6_arr m ρ c 12).trans ((Cert.Blocks13.final1_12 (V5 m ρ) Cert.KernelPay.block1_eq c).trans ?_)
  rw [Cert.RefStages.v114_eq]
  obtain ⟨r48, r49, r50, r51, r52, r53, r54⟩ := Cert.Stretch.rows1 (F := Ideal) (W2 m ρ c)
  have e0 : V5 m ρ c main_arg0 = (Arg m c main_arg0) := W5_arg m ρ c main_arg0 (by decide)
  have eo : V5 m ρ c main_v47 = Cert.ReferenceIdeal.Read.val_main_v51 (F := Ideal) (Arg m c main_arg0) (Arg m c main_arg1) (Arg m c main_arg3) (Arg m c main_arg4) (Arg m c main_arg9) (Arg m c main_arg10) (Arg m c main_arg11) (Arg m c main_arg12) := W5_o m ρ c
  have e13 : V5 m ρ c main_arg13 = (Arg m c main_arg13) := W5_arg m ρ c main_arg13 (by decide)
  have e17 : V5 m ρ c main_arg17 = (Arg m c main_arg17) := W5_arg m ρ c main_arg17 (by decide)
  have e19 : V5 m ρ c main_arg19 = (Arg m c main_arg19) := W5_arg m ρ c main_arg19 (by decide)
  have q48 : V5 m ρ c main_v48 = Cert.Spec.row (Arg m c main_arg14) := r48.trans (by rw [W2_arg m ρ c main_arg14 (by decide)]; exact rowCast_eq _ _)
  have q49 : V5 m ρ c main_v49 = Cert.Spec.row (Arg m c main_arg15) := r49.trans (by rw [W2_arg m ρ c main_arg15 (by decide)]; exact rowCast_eq _ _)
  have q50 : V5 m ρ c main_v50 = Cert.Spec.row (Arg m c main_arg16) := r50.trans (by rw [W2_arg m ρ c main_arg16 (by decide)]; exact rowCast_eq _ _)
  have q51 : V5 m ρ c main_v51 = Cert.Spec.row (Arg m c main_arg18) := r51.trans (by rw [W2_arg m ρ c main_arg18 (by decide)]; exact rowCast_eq _ _)
  have q52 : V5 m ρ c main_v52 = Cert.Spec.row (Arg m c main_arg21) := r52.trans (by rw [W2_arg m ρ c main_arg21 (by decide)]; exact rowCast_eq _ _)
  have q53 : V5 m ρ c main_v53 = Cert.Spec.row (Arg m c main_arg22) := r53.trans (by rw [W2_arg m ρ c main_arg22 (by decide)]; exact rowCast_eq _ _)
  have q54 : V5 m ρ c main_v54 = Cert.Spec.row (Arg m c main_arg20) := r54.trans (by rw [W2_arg m ρ c main_arg20 (by decide)]; exact rowCast_eq _ _)
  exact blockOut_congr e0 eo e13 q48 q49 q50 e17 q51 e19 q54 q52 q53

/-! ## The edge branch -/

/-- The two gathered node-feature arrays and the edge query bias as a row, at region 2's entry. -/
theorem W7_in : W7 m ρ c (Proc.devRef .tc main_v62) = Cert.ReferenceIdeal.Read.val_main_v121 (F := Ideal) (Arg m c main_arg0) (Arg m c main_arg7)
    ∧ W7 m ρ c (Proc.devRef .tc main_v69) = Cert.ReferenceIdeal.Read.val_main_v128 (F := Ideal) (Arg m c main_arg0) (Arg m c main_arg8)
    ∧ W7 m ρ c (Proc.devRef .tc main_v70) = Cert.Spec.row (Arg m c main_arg24) := by
  obtain ⟨g1, g2, g3⟩ := Cert.Stretch.gathers (F := Ideal) (W6 m ρ c) _ _ _ (W6_arg m ρ c main_arg0 (by decide)) (W6_arg m ρ c main_arg7 (by decide)) (W6_arg m ρ c main_arg8 (by decide))
  exact ⟨g1, g2, g3.trans (by rw [W6_arg m ρ c main_arg24 (by decide)]; exact rowCast_eq _ _)⟩

theorem W8_q : W8 m ρ c (Proc.devRef .tc main_v71_0) = Cert.ReferenceIdeal.Read.val_main_v133 (F := Ideal) (Arg m c main_arg0) (Arg m c main_arg1) (Arg m c main_arg7) (Arg m c main_arg23) (Arg m c main_arg24) := by
  refine (W8_arr m ρ c 7).trans ((Cert.Blocks02.final2_7 (V7 m ρ) c).trans ?_)
  rw [Cert.RefStages.v133_eq]
  obtain ⟨g1, g2, g3⟩ := W7_in m ρ c
  have e1 : V7 m ρ c main_arg1 = (Arg m c main_arg1) := W7_arg m ρ c main_arg1 (by decide)
  have e23 : V7 m ρ c main_arg23 = (Arg m c main_arg23) := W7_arg m ρ c main_arg23 (by decide)
  have e70 : V7 m ρ c main_v70 = Cert.Spec.row (Arg m c main_arg24) := g3
  have e62 : V7 m ρ c main_v62 = Cert.ReferenceIdeal.Read.val_main_v121 (F := Ideal) (Arg m c main_arg0) (Arg m c main_arg7) := g1
  rw [e1, e23, e70, e62]
theorem W8_k : W8 m ρ c (Proc.devRef .tc main_v71_1) = Cert.ReferenceIdeal.Read.val_main_v135 (F := Ideal) (Arg m c main_arg1) (Arg m c main_arg25) := by
  refine (W8_arr m ρ c 8).trans ((Cert.Blocks02.final2_8 (V7 m ρ) c).trans ?_)
  rw [Cert.RefStages.v135_eq]
  have e1 : V7 m ρ c main_arg1 = (Arg m c main_arg1) := W7_arg m ρ c main_arg1 (by decide)
  have e25 : V7 m ρ c main_arg25 = (Arg m c main_arg25) := W7_arg m ρ c main_arg25 (by decide)
  rw [e1, e25]
theorem W8_v : W8 m ρ c (Proc.devRef .tc main_v71_2) = Cert.ReferenceIdeal.Read.val_main_v138 (F := Ideal) (Arg m c main_arg0) (Arg m c main_arg1) (Arg m c main_arg8) (Arg m c main_arg26) := by
  refine (W8_arr m ρ c 9).trans ((Cert.Blocks02.final2_9 (V7 m ρ) c).trans ?_)
  rw [Cert.RefStages.v138_eq]
  obtain ⟨g1, g2, g3⟩ := W7_in m ρ c
  have e1 : V7 m ρ c main_arg1 = (Arg m c main_arg1) := W7_arg m ρ c main_arg1 (by decide)
  have e26 : V7 m ρ c main_arg26 = (Arg m c main_arg26) := W7_arg m ρ c main_arg26 (by decide)
  have e69 : V7 m ρ c main_v69 = Cert.ReferenceIdeal.Read.val_main_v128 (F := Ideal) (Arg m c main_arg0) (Arg m c main_arg8) := g2
  rw [e1, e26, e69]

theorem W11_o : W11 m ρ c (Proc.devRef .tc main_v114) = Cert.ReferenceIdeal.Read.val_main_v179 (F := Ideal) (Arg m c main_arg0) (Arg m c main_arg1) (Arg m c main_arg5) (Arg m c main_arg6) (Arg m c main_arg7) (Arg m c main_arg8) (Arg m c main_arg23) (Arg m c main_arg24) (Arg m c main_arg25) (Arg m c main_arg26) :=
  Cert.Stretch.attnE (F := Ideal) (W8 m ρ c) _ _ _ _ _ _ _ _ _ _ (W8_q m ρ c) (W8_k m ρ c) (W8_v m ρ c)
    (W8_arg m ρ c main_arg5 (by decide)) (W8_arg m ρ c main_arg6 (by decide))

/-- After region 3 its output array holds the reference's last stage of the edge branch. -/
theorem W12_out : W12 m ρ c (Proc.devRef .tc main_v122) = Cert.ReferenceIdeal.Read.val_main_v242 (F := Ideal) (Arg m c main_arg0) (Arg m c main_arg1) (Arg m c main_arg5) (Arg m c main_arg6) (Arg m c main_arg7) (Arg m c main_arg8) (Arg m c main_arg23) (Arg m c main_arg24) (Arg m c main_arg25) (Arg m c main_arg26) (Arg m c main_arg27) (Arg m c main_arg28) (Arg m c main_arg29) (Arg m c main_arg30) (Arg m c main_arg31) (Arg m c main_arg32) (Arg m c main_arg33) (Arg m c main_arg34) (Arg m c main_arg35) (Arg m c main_arg36) := by
  refine (W12_arr m ρ c 12).trans ((Cert.Blocks13.final3_12 (V11 m ρ) Cert.KernelPay.block3_eq c).trans ?_)
  rw [Cert.RefStages.v242_eq]
  obtain ⟨r115, r116, r117, r118, r119, r120, r121⟩ := Cert.Stretch.rows3 (F := Ideal) (W8 m ρ c)
  have e1 : V11 m ρ c main_arg1 = (Arg m c main_arg1) := W11_arg m ρ c main_arg1 (by decide)
  have eo : V11 m ρ c main_v114 = Cert.ReferenceIdeal.Read.val_main_v179 (F := Ideal) (Arg m c main_arg0) (Arg m c main_arg1) (Arg m c main_arg5) (Arg m c main_arg6) (Arg m c main_arg7) (Arg m c main_arg8) (Arg m c main_arg23) (Arg m c main_arg24) (Arg m c main_arg25) (Arg m c main_arg26) := W11_o m ρ c
  have e27 : V11 m ρ c main_arg27 = (Arg m c main_arg27) := W11_arg m ρ c main_arg27 (by decide)
  have e31 : V11 m ρ c main_arg31 = (Arg m c main_arg31) := W11_arg m ρ c main_arg31 (by decide)
  have e33 : V11 m ρ c main_arg33 = (Arg m c main_arg33) := W11_arg m ρ c main_arg33 (by decide)
  have q115 : V11 m ρ c main_v115 = Cert.Spec.row (Arg m c main_arg28) := r115.trans (by rw [W8_arg m ρ c main_arg28 (by decide)]; exact rowCast_eq _ _)
  have q116 : V11 m ρ c main_v116 = Cert.Spec.row (Arg m c main_arg29) := r116.trans (by rw [W8_arg m ρ c main_arg29 (by decide)]; exact rowCast_eq _ _)
  have q117 : V11 m ρ c main_v117 = Cert.Spec.row (Arg m c main_arg30) := r117.trans (by rw [W8_arg m ρ c main_arg30 (by decide)]; exact rowCast_eq _ _)
  have q118 : V11 m ρ c main_v118 = Cert.Spec.row (Arg m c main_arg32) := r118.trans (by rw [W8_arg m ρ c main_arg32 (by decide)]; exact rowCast_eq _ _)
  have q119 : V11 m ρ c main_v119 = Cert.Spec.row (Arg m c main_arg35) := r119.trans (by rw [W8_arg m ρ c main_arg35 (by decide)]; exact rowCast_eq _ _)
  have q120 : V11 m ρ c main_v120 = Cert.Spec.row (Arg m c main_arg36) := r120.trans (by rw [W8_arg m ρ c main_arg36 (by decide)]; exact rowCast_eq _ _)
  have q121 : V11 m ρ c main_v121 = Cert.Spec.row (Arg m c main_arg34) := r121.trans (by rw [W8_arg m ρ c main_arg34 (by decide)]; exact rowCast_eq _ _)
  exact blockOut_congr e1 eo e27 q115 q116 q117 e31 q118 e33 q121 q119 q120

/-! ## The two results at the last boundary -/

theorem out0 : W12 m ρ c (Proc.devRef .tc main_v55) = Cert.ReferenceIdeal.Read.val_main_v114 (F := Ideal) (Arg m c main_arg0) (Arg m c main_arg1) (Arg m c main_arg3) (Arg m c main_arg4) (Arg m c main_arg9) (Arg m c main_arg10) (Arg m c main_arg11) (Arg m c main_arg12) (Arg m c main_arg13) (Arg m c main_arg14) (Arg m c main_arg15) (Arg m c main_arg16) (Arg m c main_arg17) (Arg m c main_arg18) (Arg m c main_arg19) (Arg m c main_arg20) (Arg m c main_arg21) (Arg m c main_arg22) :=
  (W12_v55 m ρ c).trans (W6_out m ρ c)
theorem out1 : W12 m ρ c (Proc.devRef .tc main_v122) = Cert.ReferenceIdeal.Read.val_main_v242 (F := Ideal) (Arg m c main_arg0) (Arg m c main_arg1) (Arg m c main_arg5) (Arg m c main_arg6) (Arg m c main_arg7) (Arg m c main_arg8) (Arg m c main_arg23) (Arg m c main_arg24) (Arg m c main_arg25) (Arg m c main_arg26) (Arg m c main_arg27) (Arg m c main_arg28) (Arg m c main_arg29) (Arg m c main_arg30) (Arg m c main_arg31) (Arg m c main_arg32) (Arg m c main_arg33) (Arg m c main_arg34) (Arg m c main_arg35) (Arg m c main_arg36) :=
  W12_out m ρ c

end Cert.Fold

end
-- ==== Proof.lean ====
/-
  The certificate of one relational graph-attention layer (a node branch and an edge branch on the line graph): the
  kernel program computes the query, key and value projections and the feed-forward blocks in four pipelined regions over
  row blocks of 1000 rows, with the graph attention (row gathers, a clipped exponential score, segment sums) in host
  operations between them; the reference computes everything in host operations.

  On the extended reals the two programs compute the same function of the arguments. A projection region's blocks are
  the row blocks of the reference's projection stage (a matrix product into a zero accumulator is the contraction sum,
  whatever the operands' format); the attention stretches are the reference's, operation for operation; a feed-forward
  region's blocks are row blocks of the reference's block stage: both normalise each row by its mean and its biased
  variance, and differ only in the association of the second residual sum, which the extended reals do not see.
  The precondition is never opened: no law used needs finiteness.

  The three frames are the generated frame runs (the reference's frame is its run with the results dropped); the ideal
  pass rewrote nothing, so `preserves` is trivial.
-/
import proofs.«178388_j2224793059900_1_alg».proof.Defs
import proofs.«178388_j2224793059900_1_alg».proof.Proof.Gen.Kernel
import proofs.«178388_j2224793059900_1_alg».proof.Proof.Gen.Kernel.Skeleton
import proofs.«178388_j2224793059900_1_alg».proof.Proof.Gen.Kernel.Launch
import proofs.«178388_j2224793059900_1_alg».proof.Proof.Gen.Kernel.Points
import proofs.«178388_j2224793059900_1_alg».proof.Proof.Gen.Kernel.Frame
import proofs.«178388_j2224793059900_1_alg».proof.Proof.Gen.KernelIdeal
import proofs.«178388_j2224793059900_1_alg».proof.Proof.Gen.KernelIdeal.Skeleton
import proofs.«178388_j2224793059900_1_alg».proof.Proof.Gen.KernelIdeal.Launch
import proofs.«178388_j2224793059900_1_alg».proof.Proof.Gen.KernelIdeal.Points
import proofs.«178388_j2224793059900_1_alg».proof.Proof.Gen.KernelIdeal.Frame
import proofs.«178388_j2224793059900_1_alg».proof.Proof.Gen.ReferenceIdeal
import proofs.«178388_j2224793059900_1_alg».proof.Proof.Gen.Pre_finite_inputs
import proofs.«178388_j2224793059900_1_alg».proof.Proof.ReadP
import proofs.«178388_j2224793059900_1_alg».proof.Proof.RefRun
import proofs.«178388_j2224793059900_1_alg».proof.Proof.RunVals
import proofs.«178388_j2224793059900_1_alg».proof.Proof.Values
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the two results dropped. -/
theorem frame_ri : Cert.frame_ReferenceIdeal := fun m ρ _ =>
  (θ_run Cert.ReferenceIdeal.defs _ _).mono (fun _ h c => (h c).2.2) (Cert.RefRun.run (F := Ideal) m ρ)

/-- From memories that agree on the arguments both programs end with the reference's two last stages of the kernel
    program's arguments. -/
theorem algebraic : Cert.algebraic_KernelIdeal_ReferenceIdeal := by
  intro m ρ m' ρ' _ hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => Cert.ReferenceIdeal.Read.val_main_v242 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)), ?_, ?_⟩
  · exact (θ_run Cert.KernelIdeal.defs _ _).mono
      (fun r h c => ⟨(h c).1.trans (Cert.Fold.out0 m ρ c), (h c).2.1.trans (Cert.Fold.out1 m ρ c), (h c).2.2⟩)
      (Cert.Fold.run_vals (F := Ideal) m ρ)
  · refine (θ_run Cert.ReferenceIdeal.defs _ _).mono (fun r h c => ⟨?_, ?_, (h c).2.2⟩)
      (Cert.RefRun.run (F := Ideal) m' ρ')
    · rw [(h c).1, (hagree c).1, (hagree c).2.1, (hagree c).2.2.2.1, (hagree c).2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1]
    · rw [(h c).2.1, (hagree c).1, (hagree c).2.1, (hagree c).2.2.2.2.2.1, (hagree c).2.2.2.2.2.2.1, (hagree c).2.2.2.2.2.2.2.1, (hagree c).2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
